-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x2 : Shape := ⟨2, ![16777216, 2]⟩
abbrev S16777216 : Shape := ⟨1, ![16777216]⟩
abbrev S_ : Shape := ⟨0, ![]⟩

class Facts : Prop where
  bcast_S_S16777216x2 : S_.BroadcastsInDim S16777216x2 (![] : Fin 0 → Fin S16777216x2.rank)
  reducesTo_S16777216x2_S_d0_1 : S16777216x2.ReducesTo [0, 1] S_
  h_S_ : 0 < S_.numel

variable [Facts]

def fn {F : FTy → Type} [FloatOps F] (main_arg0 : FVec F S16777216x2 .f32) (main_arg1 : IVec S16777216 32) : IVec S_ 1 :=
  let main_v0 : FVec F S16777216x2 .f32 := Host.absf main_arg0
  let main_cst : FVec F S_ .f32 := constant S_ .f32 0x7F800000#32
  let main_v1 : FVec F S16777216x2 .f32 := broadcastInDim S16777216x2 ![] bcast_S_S16777216x2 main_cst
  let main_v2 : IVec S16777216x2 1 := cmpf .olt main_v0 main_v1
  let main_c : IVec S_ 1 := constantI S_ 1 1#1
  let main_v3 : IVec S_ 1 := (fun x v => Host.reduce IntOp.andi x v reducesTo_S16777216x2_S_d0_1 h_S_) main_v2 main_c
  main_v3
-- ==== Kernel.lean ====
abbrev S16777216x2 : Shape := ⟨2, ![16777216, 2]⟩
abbrev S16777216 : Shape := ⟨1, ![16777216]⟩
abbrev S16777216x1 : Shape := ⟨2, ![16777216, 1]⟩
abbrev S1x128 : Shape := ⟨2, ![1, 128]⟩
abbrev S16384x2 : Shape := ⟨2, ![16384, 2]⟩
abbrev S16384x1 : Shape := ⟨2, ![16384, 1]⟩
abbrev S16384 : Shape := ⟨1, ![16384]⟩
abbrev S16384x128 : Shape := ⟨2, ![16384, 128]⟩
abbrev S128 : Shape := ⟨1, ![128]⟩
abbrev S1x30 : Shape := ⟨2, ![1, 30]⟩
abbrev S30 : Shape := ⟨1, ![30]⟩
abbrev S_ : Shape := ⟨0, ![]⟩
abbrev S1 : Shape := ⟨1, ![1]⟩
abbrev S1x1 : Shape := ⟨2, ![1, 1]⟩

abbrev nBuf : Space → Nat
  | .hbm => 40
  | .vmem => 13
  | .smem => 0
  | _ => 0

abbrev bufTy : (tb : Table) → Fin (tcTables nBuf tb) → BufTy
  | .hbm, ⟨0, _⟩ => ⟨S16777216x2, .f32⟩
  | .hbm, ⟨1, _⟩ => ⟨S16777216, .i32⟩
  | .hbm, ⟨2, _⟩ => ⟨S16777216x1, .i32⟩
  | .hbm, ⟨3, _⟩ => ⟨S1x128, .f32⟩
  | .hbm, ⟨4, _⟩ => ⟨S1x30, .f32⟩
  | .hbm, ⟨5, _⟩ => ⟨S30, .f32⟩
  | .hbm, ⟨6, _⟩ => ⟨S_, .f32⟩
  | .hbm, ⟨7, _⟩ => ⟨S30, .f32⟩
  | .hbm, ⟨8, _⟩ => ⟨S30, .f32⟩
  | .hbm, ⟨9, _⟩ => ⟨S_, .f32⟩
  | .hbm, ⟨10, _⟩ => ⟨S30, .f32⟩
  | .hbm, ⟨11, _⟩ => ⟨S30, .i1⟩
  | .hbm, ⟨12, _⟩ => ⟨S30, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S30, .f32⟩
  | .hbm, ⟨18, _⟩ => ⟨S30, .f32⟩
  | .hbm, ⟨19, _⟩ => ⟨S_, .f32⟩
  | .hbm, ⟨20, _⟩ => ⟨S30, .f32⟩
  | .hbm, ⟨21, _⟩ => ⟨S30, .f32⟩
  | .hbm, ⟨22, _⟩ => ⟨S_, .f32⟩
  | .hbm, ⟨23, _⟩ => ⟨S_, .f32⟩
  | .hbm, ⟨24, _⟩ => ⟨S30, .f32⟩
  | .hbm, ⟨25, _⟩ => ⟨S30, .f32⟩
  | .hbm, ⟨26, _⟩ => ⟨S_, .f32⟩
  | .hbm, ⟨27, _⟩ => ⟨S_, .f32⟩
  | .hbm, ⟨28, _⟩ => ⟨S30, .f32⟩
  | .hbm, ⟨29, _⟩ => ⟨S30, .f32⟩
  | .hbm, ⟨30, _⟩ => ⟨S_, .f32⟩
  | .hbm, ⟨31, _⟩ => ⟨S128, .f32⟩
  | .hbm, ⟨32, _⟩ => ⟨S_, .i32⟩
  | .hbm, ⟨33, _⟩ => ⟨S1, .i32⟩
  | .hbm, ⟨34, _⟩ => ⟨S128, .f32⟩
  | .hbm, ⟨35, _⟩ => ⟨S1x128, .f32⟩
  | .hbm, ⟨36, _⟩ => ⟨S1x1, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S16384x2, .f32⟩
  | .local _ .vmem, ⟨1, _⟩ => ⟨S16384x2, .f32⟩
  | .local _ .vmem, ⟨2, _⟩ => ⟨S16384x1, .i32⟩
  | .local _ .vmem, ⟨3, _⟩ => ⟨S16384x1, .i32⟩
  | .local _ .vmem, ⟨4, _⟩ => ⟨S1x128, .f32⟩
  | .local _ .vmem, ⟨5, _⟩ => ⟨S1x128, .f32⟩
  | .local _ .vmem, ⟨6, _⟩ => ⟨S16384x2, .f32⟩
  | .local _ .vmem, ⟨7, _⟩ => ⟨S16384x2, .f32⟩
  | .local _ .vmem, ⟨8, _⟩ => ⟨S16384x1, .i32⟩
  | .local _ .vmem, ⟨9, _⟩ => ⟨S16384x1, .i32⟩
  | .local _ .vmem, ⟨10, _⟩ => ⟨S1x128, .f32⟩
  | .local _ .vmem, ⟨11, _⟩ => ⟨S1x1, .f32⟩
  | .local _ .vmem, ⟨12, _⟩ => ⟨S1x1, .f32⟩
  | _, _ => ⟨S16777216x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_6 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_v23 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10

abbrev nD : Nat := 1
abbrev τ : Topo := Topo.v7x

variable {F : FTy → Type} [FloatOps F]

abbrev grid0 : Pipeline.Grid := ⟨1, ![1024], ![false]⟩

def k0_cond2 (i : grid0.Coords) : BitVec 1 :=
  let arg0 : BitVec 32 := BitVec.ofNat 32 (i 0).val
  let c1023_i32 : BitVec 32 := 1023#32
  let v45 : BitVec 1 := Scalar.cmpi .eq arg0 c1023_i32
  let v46 : BitVec 32 := Scalar.extui v45
  let c0_i32_14 : BitVec 32 := 0#32
  let v47 : BitVec 1 := Scalar.cmpi .ne v46 c0_i32_14
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![1024], ![false]⟩

def k1_cond2 (i : grid1.Coords) : BitVec 1 :=
  let arg0 : BitVec 32 := BitVec.ofNat 32 (i 0).val
  let c1023_i32 : BitVec 32 := 1023#32
  let v66 : BitVec 1 := Scalar.cmpi .eq arg0 c1023_i32
  let v67 : BitVec 32 := Scalar.extui v66
  let c0_i32_19 : BitVec 32 := 0#32
  let v68 : BitVec 1 := Scalar.cmpi .ne v67 c0_i32_19
  v68

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16384x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16384x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  shapeCasts_S16777216_S16777216x1 : S16777216.ShapeCasts S16777216x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S16384x2_S16384x2_0_0 : ∀ a, (![0, 0] : Fin 2 → Nat) a + S16384x2.size a ≤ S16384x2.size a
  h_S16384x2 : 0 < S16384x2.numel
  inb_S16384x1_S16384x1_0_0 : ∀ a, (![0, 0] : Fin 2 → Nat) a + S16384x1.size a ≤ S16384x1.size a
  h_S16384x1 : 0 < S16384x1.numel
  shapeCasts_S16384x1_S16384x1 : S16384x1.ShapeCasts S16384x1
  reduces_S16384x2_S16384 : S16384x2.Reduces [1] S16384
  shapeCasts_S16384_S16384x1 : S16384.ShapeCasts S16384x1
  broadcasts_S16384x1_S16384x2 : S16384x1.Broadcasts S16384x2
  slices_S16384x2_o0_0_S16384x1 : S16384x2.Slices ![0, 0] S16384x1
  slices_S16384x2_o0_1_S16384x1 : S16384x2.Slices ![0, 1] S16384x1
  iota_S16384x128_d1_w32 : S16384x128.Iotas .tc 32 [1]
  broadcasts_S16384x1_S16384x128 : S16384x1.Broadcasts S16384x128
  natLt_1_32 : 1 < 32
  reduces_S16384x128_S128 : S16384x128.Reduces [0] S128
  shapeCasts_S128_S1x128 : S128.ShapeCasts S1x128
  slices_S1x128_S1x30_0_0 : S1x128.Slices ![0, 0] S1x30
  shapeCasts_S1x30_S30 : S1x30.ShapeCasts S30
  bcast_S_S30 : S_.BroadcastsInDim S30 (![] : Fin 0 → Fin S30.rank)
  reducesTo_S30_S_d0 : S30.ReducesTo [0] S_
  h_S_ : 0 < S_.numel
  bcast_S_S128 : S_.BroadcastsInDim S128 (![] : Fin 0 → Fin S128.rank)
  bcast_S_S1 : S_.BroadcastsInDim S1 (![] : Fin 0 → Fin S1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x128_S16384x128 : S1x128.Broadcasts S16384x128
  reduces_S16384x128_S16384 : S16384x128.Reduces [1] S16384
  reduces_S16384x1_S1 : S16384x1.Reduces [0] S1
  shapeCasts_S1_S1x1 : S1.ShapeCasts S1x1
  shapeCasts_S1x1_S_ : S1x1.ShapeCasts S_
  scatter_S128_S1_S30_0_n_0_0_wf : ScatterDims.WF S128 S1 S30 [0] [] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x2.size a ≤ S16777216x2.size a
  hwx0_0 : ∀ i : grid0.Coords, EltTy.bits .f32 = 32 ∨ (Rect.block (s := S16777216x2) S16384x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x1.size a ≤ S16777216x1.size a
  hwx0_1 : ∀ i : grid0.Coords, EltTy.bits .i32 = 32 ∨ (Rect.block (s := S16777216x1) S16384x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16384x2.size a ≤ S16777216x2.size a
  hwx1_0 : ∀ i : grid1.Coords, EltTy.bits .f32 = 32 ∨ (Rect.block (s := S16777216x2) S16384x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16384x1.size a ≤ S16777216x1.size a
  hwx1_1 : ∀ i : grid1.Coords, EltTy.bits .i32 = 32 ∨ (Rect.block (s := S16777216x1) S16384x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def scatter_S128_S1_S30_0_n_0_0 : ScatterDims S128 S1 S30 where
  updateWindowDims := [0]
  insertedWindowDims := []
  scatterDimsToOperandDims := [0]
  indexVectorDim := 0
  wf := scatter_S128_S1_S30_0_n_0_0_wf

abbrev win0_0 : Pipeline.Window sig grid0 :=
  Pipeline.Window.ofSpec (Memref.whole main_arg0) S16384x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16384x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S16384x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S16384x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S16777216x2 : Shape := ⟨2, ![16777216, 2]⟩
abbrev S16777216 : Shape := ⟨1, ![16777216]⟩
abbrev S_ : Shape := ⟨0, ![]⟩
abbrev S16777216x1 : Shape := ⟨2, ![16777216, 1]⟩
abbrev S30 : Shape := ⟨1, ![30]⟩

abbrev nBuf : Space → Nat
  | .hbm => 105
  | .vmem => 0
  | .smem => 0
  | _ => 0

abbrev bufTy : (tb : Table) → Fin (tcTables nBuf tb) → BufTy
  | .hbm, ⟨0, _⟩ => ⟨S16777216x2, .f32⟩
  | .hbm, ⟨1, _⟩ => ⟨S16777216, .i32⟩
  | .hbm, ⟨2, _⟩ => ⟨S16777216, .f32⟩
  | .hbm, ⟨3, _⟩ => ⟨S_, .f32⟩
  | .hbm, ⟨4, _⟩ => ⟨S16777216, .f32⟩
  | .hbm, ⟨5, _⟩ => ⟨S16777216, .f32⟩
  | .hbm, ⟨6, _⟩ => ⟨S16777216x1, .f32⟩
  | .hbm, ⟨7, _⟩ => ⟨S16777216x1, .f32⟩
  | .hbm, ⟨8, _⟩ => ⟨S16777216x2, .f32⟩
  | .hbm, ⟨9, _⟩ => ⟨S_, .f32⟩
  | .hbm, ⟨10, _⟩ => ⟨S16777216, .f32⟩
  | .hbm, ⟨11, _⟩ => ⟨S_, .f32⟩
  | .hbm, ⟨12, _⟩ => ⟨S16777216, .f32⟩
  | .hbm, ⟨13, _⟩ => ⟨S16777216, .f32⟩
  | .hbm, ⟨14, _⟩ => ⟨S16777216x1, .f32⟩
  | .hbm, ⟨15, _⟩ => ⟨S16777216x2, .f32⟩
  | .hbm, ⟨16, _⟩ => ⟨S16777216x2, .f32⟩
  | .hbm, ⟨17, _⟩ => ⟨S16777216x2, .f32⟩
  | .hbm, ⟨18, _⟩ => ⟨S_, .f32⟩
  | .hbm, ⟨19, _⟩ => ⟨S16777216, .f32⟩
  | .hbm, ⟨20, _⟩ => ⟨S16777216x1, .f32⟩
  | .hbm, ⟨21, _⟩ => ⟨S16777216x2, .f32⟩
  | .hbm, ⟨22, _⟩ => ⟨S16777216x2, .f32⟩
  | .hbm, ⟨23, _⟩ => ⟨S16777216x2, .f32⟩
  | .hbm, ⟨24, _⟩ => ⟨S_, .f32⟩
  | .hbm, ⟨25, _⟩ => ⟨S16777216, .f32⟩
  | .hbm, ⟨26, _⟩ => ⟨S_, .f32⟩
  | .hbm, ⟨27, _⟩ => ⟨S16777216, .f32⟩
  | .hbm, ⟨28, _⟩ => ⟨S16777216, .f32⟩
  | .hbm, ⟨29, _⟩ => ⟨S16777216, .f32⟩
  | .hbm, ⟨30, _⟩ => ⟨S_, .f32⟩
  | .hbm, ⟨31, _⟩ => ⟨S16777216, .f32⟩
  | .hbm, ⟨32, _⟩ => ⟨S16777216, .f32⟩
  | .hbm, ⟨33, _⟩ => ⟨S16777216, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S16777216, .i32⟩
  | .hbm, ⟨38, _⟩ => ⟨S16777216, .i32⟩
  | .hbm, ⟨39, _⟩ => ⟨S_, .i32⟩
  | .hbm, ⟨40, _⟩ => ⟨S16777216, .i32⟩
  | .hbm, ⟨41, _⟩ => ⟨S16777216, .i32⟩
  | .hbm, ⟨42, _⟩ => ⟨S_, .f32⟩
  | .hbm, ⟨43, _⟩ => ⟨S16777216, .f32⟩
  | .hbm, ⟨44, _⟩ => ⟨S_, .f32⟩
  | .hbm, ⟨45, _⟩ => ⟨S30, .f32⟩
  | .hbm, ⟨46, _⟩ => ⟨S16777216x1, .i32⟩
  | .hbm, ⟨47, _⟩ => ⟨S30, .f32⟩
  | .hbm, ⟨48, _⟩ => ⟨S_, .f32⟩
  | .hbm, ⟨49, _⟩ => ⟨S30, .f32⟩
  | .hbm, ⟨50, _⟩ => ⟨S30, .f32⟩
  | .hbm, ⟨51, _⟩ => ⟨S_, .f32⟩
  | .hbm, ⟨52, _⟩ => ⟨S30, .f32⟩
  | .hbm, ⟨53, _⟩ => ⟨S30, .i1⟩
  | .hbm, ⟨54, _⟩ => ⟨S30, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S30, .f32⟩
  | .hbm, ⟨60, _⟩ => ⟨S30, .f32⟩
  | .hbm, ⟨61, _⟩ => ⟨S_, .f32⟩
  | .hbm, ⟨62, _⟩ => ⟨S30, .f32⟩
  | .hbm, ⟨63, _⟩ => ⟨S30, .f32⟩
  | .hbm, ⟨64, _⟩ => ⟨S_, .f32⟩
  | .hbm, ⟨65, _⟩ => ⟨S_, .f32⟩
  | .hbm, ⟨66, _⟩ => ⟨S30, .f32⟩
  | .hbm, ⟨67, _⟩ => ⟨S30, .f32⟩
  | .hbm, ⟨68, _⟩ => ⟨S_, .i32⟩
  | .hbm, ⟨69, _⟩ => ⟨S16777216, .i32⟩
  | .hbm, ⟨70, _⟩ => ⟨S16777216, .i1⟩
  | .hbm, ⟨71, _⟩ => ⟨S_, .i32⟩
  | .hbm, ⟨72, _⟩ => ⟨S16777216, .i32⟩
  | .hbm, ⟨73, _⟩ => ⟨S16777216, .i32⟩
  | .hbm, ⟨74, _⟩ => ⟨S16777216, .i32⟩
  | .hbm, ⟨75, _⟩ => ⟨S16777216x1, .i32⟩
  | .hbm, ⟨76, _⟩ => ⟨S16777216, .f32⟩
  | .hbm, ⟨77, _⟩ => ⟨S_, .f32⟩
  | .hbm, ⟨78, _⟩ => ⟨S_, .f32⟩
  | .hbm, ⟨79, _⟩ => ⟨S16777216, .f32⟩
  | .hbm, ⟨80, _⟩ => ⟨S16777216, .f32⟩
  | .hbm, ⟨81, _⟩ => ⟨S_, .f32⟩
  | .hbm, ⟨82, _⟩ => ⟨S16777216, .f32⟩
  | .hbm, ⟨83, _⟩ => ⟨S_, .f32⟩
  | .hbm, ⟨84, _⟩ => ⟨S16777216, .f32⟩
  | .hbm, ⟨85, _⟩ => ⟨S16777216, .f32⟩
  | .hbm, ⟨86, _⟩ => ⟨S16777216x1, .f32⟩
  | .hbm, ⟨87, _⟩ => ⟨S16777216x2, .f32⟩
  | .hbm, ⟨88, _⟩ => ⟨S16777216x2, .f32⟩
  | .hbm, ⟨89, _⟩ => ⟨S16777216x2, .f32⟩
  | .hbm, ⟨90, _⟩ => ⟨S_, .f32⟩
  | .hbm, ⟨91, _⟩ => ⟨S16777216, .f32⟩
  | .hbm, ⟨92, _⟩ => ⟨S16777216x1, .f32⟩
  | .hbm, ⟨93, _⟩ => ⟨S16777216x1, .f32⟩
  | .hbm, ⟨94, _⟩ => ⟨S16777216x2, .f32⟩
  | .hbm, ⟨95, _⟩ => ⟨S16777216x2, .f32⟩
  | .hbm, ⟨96, _⟩ => ⟨S16777216x2, .f32⟩
  | .hbm, ⟨97, _⟩ => ⟨S_, .f32⟩
  | .hbm, ⟨98, _⟩ => ⟨S16777216, .f32⟩
  | .hbm, ⟨99, _⟩ => ⟨S16777216, .f32⟩
  | .hbm, ⟨100, _⟩ => ⟨S16777216, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | _, _ => ⟨S16777216x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_c_6 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_v30 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_11 : Ref sig .tc := ⟨.hbm, 55, rfl⟩
abbrev main_v35 : Ref sig .tc := ⟨.hbm, 56, rfl⟩
abbrev main_cst_12 : Ref sig .tc := ⟨.hbm, 57, rfl⟩
abbrev main_call1_v0 : Ref sig .tc := ⟨.hbm, 58, rfl⟩
abbrev main_call1_v1 : Ref sig .tc := ⟨.hbm, 59, rfl⟩
abbrev main_v36 : Ref sig .tc := ⟨.hbm, 60, rfl⟩
abbrev main_cst_13 : Ref sig .tc := ⟨.hbm, 61, rfl⟩
abbrev main_v37 : Ref sig .tc := ⟨.hbm, 62, rfl⟩
abbrev main_v38 : Ref sig .tc := ⟨.hbm, 63, rfl⟩
abbrev main_cst_14 : Ref sig .tc := ⟨.hbm, 64, rfl⟩
abbrev main_call2_v0 : Ref sig .tc := ⟨.hbm, 65, rfl⟩
abbrev main_call2_v1 : Ref sig .tc := ⟨.hbm, 66, rfl⟩
abbrev main_v39 : Ref sig .tc := ⟨.hbm, 67, rfl⟩
abbrev main_c_15 : Ref sig .tc := ⟨.hbm, 68, rfl⟩
abbrev main_v40 : Ref sig .tc := ⟨.hbm, 69, rfl⟩
abbrev main_v41 : Ref sig .tc := ⟨.hbm, 70, rfl⟩
abbrev main_c_16 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_17 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_call3_cst : Ref sig .tc := ⟨.hbm, 81, rfl⟩
abbrev main_call3_v0 : Ref sig .tc := ⟨.hbm, 82, rfl⟩
abbrev main_call3_cst_0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_v6 : Ref sig .tc := ⟨.hbm, 89, rfl⟩
abbrev main_call3_cst_1 : Ref sig .tc := ⟨.hbm, 90, rfl⟩
abbrev main_call3_v7 : Ref sig .tc := ⟨.hbm, 91, rfl⟩
abbrev main_call3_v8 : Ref sig .tc := ⟨.hbm, 92, rfl⟩
abbrev main_call3_v9 : Ref sig .tc := ⟨.hbm, 93, rfl⟩
abbrev main_call3_v10 : Ref sig .tc := ⟨.hbm, 94, rfl⟩
abbrev main_v50 : Ref sig .tc := ⟨.hbm, 95, rfl⟩
abbrev main_v51 : Ref sig .tc := ⟨.hbm, 96, rfl⟩
abbrev main_cst_18 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_cst_19 : Ref sig .tc := ⟨.hbm, 101, rfl⟩
abbrev main_v55 : Ref sig .tc := ⟨.hbm, 102, rfl⟩
abbrev main_cst_20 : Ref sig .tc := ⟨.hbm, 103, rfl⟩
abbrev main_v56 : Ref sig .tc := ⟨.hbm, 104, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  concatenates_S16777216x1_S16777216x1_S16777216x2_d1 : Shape.Concatenates [S16777216x1, S16777216x1] S16777216x2 1
  reducesTo_S16777216x2_S16777216_d1 : S16777216x2.ReducesTo [1] S16777216
  h_S_ : 0 < S_.numel
  bcast_S16777216x1_S16777216x2_0_1 : S16777216x1.BroadcastsInDim S16777216x2 (![0, 1] : Fin 2 → Fin S16777216x2.rank)
  bcast_S_S30 : S_.BroadcastsInDim S30 (![] : Fin 0 → Fin S30.rank)
  reducesTo_S30_S_d0 : S30.ReducesTo [0] S_
  reducesTo_S16777216_S_d0 : S16777216.ReducesTo [0] S_
  scatter_S30_S16777216x1_S16777216_n_0_0_1_wf : ScatterDims.WF S30 S16777216x1 S16777216 [] [0] [0] 1
  gather_S30_S16777216x1_S16777216_n_0_n_n_0_1_1_wf : GatherDims.WF S30 S16777216x1 S16777216 [] [0] [] [0] [] 1 ![1]

variable [Facts₀]

def scatter_S30_S16777216x1_S16777216_n_0_0_1 : ScatterDims S30 S16777216x1 S16777216 where
  updateWindowDims := []
  insertedWindowDims := [0]
  scatterDimsToOperandDims := [0]
  indexVectorDim := 1
  wf := scatter_S30_S16777216x1_S16777216_n_0_0_1_wf
def gather_S30_S16777216x1_S16777216_n_0_n_n_0_1_1 : GatherDims S30 S16777216x1 S16777216 where
  offsetDims := []
  collapsedSliceDims := [0]
  operandBatchingDims := []
  startIndicesBatchingDims := []
  startIndexMap := [0]
  indexVectorDim := 1
  sliceSizes := ![1]
  wf := gather_S30_S16777216x1_S16777216_n_0_n_n_0_1_1_wf

class Facts : Prop extends Facts₀ where

variable [Facts]
-- ==== Proof.K.Defs0.lean ====
/-
  Region 0 (the histogram pass), at the buffer contents `V` the region is entered with: the block of each window at a
  grid point, what one grid point does to the accumulator (one row of 128 lanes: the point's partial histogram added to
  what the accumulator held), the accumulator after each point by recursion on the point, and the proof data of the
  pipeline: inputs left in place, the output block (stored at the last point only) and the carried accumulator both at
  that recursion.
-/
import proofs.«154215_j627065225459_1_alg».proof.Proof.Gen.Kernel.Launch
import proofs.«154215_j627065225459_1_alg».proof.Proof.Gen.Kernel.Skeleton
import proofs.«154215_j627065225459_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One grid point on the accumulator: the block's partial histogram added to what the accumulator held. -/
def step0 (x0 : Vec F S16384x2 .f32) (x1 : Vec F S16384x1 .i32) (s : Vec F S1x128 .f32) : Vec F S1x128 .f32 :=
  k0_pay1 (k0_pay3 x0 x1 s)

/-- The accumulator after grid point `n`: the first point starts from the zero row, every later one from what the point
    before left. -/
def acc0 (c : Dev nD) : (n : ℕ) → n < cfg0.N → Vec F S1x128 .f32
  | 0, h => step0 (iblk0 V c 0 ⟨0, h⟩) (iblk0 V c 1 ⟨0, h⟩) (k0_pay2 (F := F))
  | n + 1, h => step0 (iblk0 V c 0 ⟨n + 1, h⟩) (iblk0 V c 1 ⟨n + 1, h⟩) (acc0 c n (Nat.lt_of_succ_lt h))

theorem acc0_zero (c : Dev nD) (h : 0 < cfg0.N) :
    acc0 V c 0 h = step0 (iblk0 V c 0 ⟨0, h⟩) (iblk0 V c 1 ⟨0, h⟩) (k0_pay2 (F := F)) := rfl
theorem acc0_succ (c : Dev nD) (n : ℕ) (h : n + 1 < cfg0.N) :
    acc0 V c (n + 1) h = step0 (iblk0 V c 0 ⟨n + 1, h⟩) (iblk0 V c 1 ⟨n + 1, h⟩) (acc0 V c n (Nat.lt_of_succ_lt h)) := rfl

/-- The accumulator scratch, a whole scoped buffer of the kernel's own. -/
abbrev scM0 : Memref sig .tc .vmem S1x128 .f32 := Memref.whole cc0_scratch0

/-- The scoped buffers the region neither stages nor uses (the other region's), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_scratch0), ((c : Thread nD τ).loc cc1_scratch0) ↦{fullShare} f))

/-- The region invariant before position `n`: before the first point every scoped buffer at anything; afterwards the
    accumulator at what the point before left, the other scoped buffers at anything, the generator register at some state. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ rest0 (F := F) c ∗ (∃ r, prngReg c r))

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

end

end Cert.Kernel.Hand

end
-- ==== Proof.K.Body0.lean ====
/-
  Region 0 (the histogram pass): the body obligation. At every grid point the kernel body, run on the windows' current
  buffers and the accumulator scratch, leaves each input's buffer at its block, the accumulator at the row the recursion
  `acc0` names for the point (the zero row plus the point's partial histogram at the first point; what the point before
  left plus the point's partial histogram afterwards), and the output buffer untouched except at the last point, where it
  receives the accumulator. The grid's 1024 points fall in three cases by the two conditions of the body (first point;
  last point), each decided in closed form over the grid; in each case the body is run once, generically in the memrefs
  and the contents found, and the obligation is the case's run at the point's blocks.
-/
import proofs.«154215_j627065225459_1_alg».proof.Proof.K.Defs0
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every load and store of the body are zero. -/
theorem a_hz2 : (![0, 0] : Fin 2 → Nat) = fun _ => 0 := funext fun a => by fin_cases a <;> rfl

/-! ## The body's two conditions, in closed form over the grid -/

/-- The condition under which the body zeroes the accumulator, from the grid coordinate. -/
abbrev cond0_first (i : grid0.Coords) : Prop :=
  Scalar.cmpi .ne (Scalar.extui (Scalar.cmpi .eq (BitVec.ofNat 32 (i 0).val) 0#32)) 0#32 = 1#1
/-- It holds at the first point only. -/
theorem hcond0_first : ∀ t : Fin cfg0.N, cond0_first (grid0.coords t) ↔ t.val = 0 :=
  (by decide +kernel : ∀ t : Fin grid0.N, cond0_first (grid0.coords t) ↔ t.val = 0)
/-- The condition under which the body stores the accumulator into the output buffer. -/
abbrev cond0_last (i : grid0.Coords) : Prop := k0_cond2 i = 1#1
/-- It holds at the last point only. -/
theorem hcond0_last : ∀ t : Fin cfg0.N, cond0_last (grid0.coords t) ↔ t.val = 1023 :=
  (by decide +kernel : ∀ t : Fin grid0.N, cond0_last (grid0.coords t) ↔ t.val = 1023)

/-! ## Whole-buffer loads and stores -/

/-- A load of a whole memref through the whole-shape rectangle reads its contents. -/
theorem a_readAt_unread {S : Shape} {e : EltTy} (m : Memref sig .tc .vmem S e) (h : m.IsWhole)
    {off : Fin S.rank → Nat} (hoff : off = fun _ => 0) (inb : ∀ a, off a + S.size a ≤ S.size a) (X : S.Idx → Elt F e) :
    View.readAt (Elt F) m.view (Rect.unit off S.size inb).toLoadRect (h.unread X) = X := by
  rw [View.readAt_eq_ld, h.read_unread, View.ld_unit_zero hoff inb]

/-- The buffer after stores the last of which is through the whole-shape rectangle reads that store's payload. -/
theorem a_read_writes_unit {S : Shape} {e : EltTy} (v : View sig .tc .vmem S e) (f : v.ty.Contents (Elt F))
    {off : Fin S.rank → Nat} (hoff : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hoff inb y⟩),
    View.canon_cons_unit_zero hoff inb]

/-! ## Where the windows are idle -/

/-- The inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
/-- Off the last point the output window is idle (the body stores nothing into it) -/
theorem idleAt0_2 : ∀ t : Fin cfg0.N, ¬cond0_last (grid0.coords t) → cfg0.idle 2 (grid0.coords t) = true := by decide +kernel
/-- and its block is not written back; -/
theorem noFlush0_2 : ∀ t : Fin cfg0.N, ¬cond0_last (grid0.coords t) → (cfg0.win 2).flush t = false := by decide +kernel
/-- at the last point it is live. -/
theorem liveAt0_2 : ∀ t : Fin cfg0.N, cond0_last (grid0.coords t) → cfg0.idle 2 (grid0.coords t) = false := by decide +kernel

/-! ## The staging memrefs at a point, and the launch's invariant -/

/-- Each window's current staging memref at point `t`, and its wholeness. -/
abbrev ms0_0 (t : Fin cfg0.N) : Memref sig .tc .vmem S16384x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)

/-- What the launch hands the region: the accumulator scratch owned at some contents, the other scoped buffers at
    anything, the generator register at some state. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA; rw [scopedRest0_eq]; unfold rest0; simp only [scM0, owns_whole]; try rfl

/-! ## The body's run in each case, on any whole memrefs -/

set_option maxHeartbeats 1000000 in
/-- The body at the first point (not the last): the accumulator, found at anything, is zeroed, then the point's partial
    histogram is added; the output buffer is not touched. -/
theorem run0_A (c : Dev nD) (i : grid0.Coords)
    (arg1 : Memref sig .tc .vmem S16384x2 .f32) (harg1 : arg1.IsWhole)
    (arg2 : Memref sig .tc .vmem S16384x1 .i32) (harg2 : arg2.IsWhole)
    (arg3 : Memref sig .tc .vmem S1x128 .f32) (harg3 : arg3.IsWhole)
    (arg4 : Memref sig .tc .vmem S1x128 .f32) (harg4 : arg4.IsWhole)
    (hc0 : cond0_first i) (hc1 : ¬cond0_last i)
    (x0 : Vec F S16384x2 .f32) (x1 : Vec F S16384x1 .i32) (xi : Vec F S1x128 .f32)
    (E : Set ℕ) (K : PUnit → sProp 𝕄) :
    iprop(owns (c : Thread nD τ) arg1 fullShare x0 ∗ owns (c : Thread nD τ) arg2 fullShare x1
        ∗ owns (c : Thread nD τ) arg3 fullShare xi ∗ (∃ d, owns (c : Thread nD τ) arg4 fullShare d)
        ∗ (iprop(owns (c : Thread nD τ) arg1 fullShare x0 ∗ owns (c : Thread nD τ) arg2 fullShare x1
            ∗ owns (c : Thread nD τ) arg3 fullShare xi ∗ owns (c : Thread nD τ) arg4 fullShare (step0 x0 x1 (k0_pay2 (F := F)))) -∗ K ⟨⟩))
      ⊢ wp frame (wpE (defs₀ (F := F)) Variants.none c none) E (cc0_hist_kernel i arg1 harg1 arg2 harg2 arg3 harg3 arg4 harg4) K := by
  simp only [cc0_hist_kernel_eq_skeleton]; unfold cc0_hist_kernel_skel
  unfold owns
  iintro ⟨⟨%f0, %hf0, H0⟩, ⟨%f1, %hf1, H1⟩, ⟨%f2, %hf2, H2⟩, ⟨%ds, %fs, -, HS⟩, Hk⟩
  obtain rfl := harg1.eq_unread hf0; obtain rfl := harg2.eq_unread hf1
  obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS
  ipureintro
  sl_unfold_run_names
  rw [a_read_writes_unit _ _ a_hz2 inb_S1x128_S1x128_0_0, View.readCov_unit_zero _ a_hz2 inb_S1x128_S1x128_0_0]
  simp only [a_readAt_unread _ harg1 a_hz2 inb_S16384x2_S16384x2_0_0, a_readAt_unread _ harg2 a_hz2 inb_S16384x1_S16384x1_0_0]
  rfl

set_option maxHeartbeats 1000000 in
/-- The body at a point neither first nor last: the point's partial histogram is added to the accumulator; the output
    buffer is not touched. -/
theorem run0_B (c : Dev nD) (i : grid0.Coords)
    (arg1 : Memref sig .tc .vmem S16384x2 .f32) (harg1 : arg1.IsWhole)
    (arg2 : Memref sig .tc .vmem S16384x1 .i32) (harg2 : arg2.IsWhole)
    (arg3 : Memref sig .tc .vmem S1x128 .f32) (harg3 : arg3.IsWhole)
    (arg4 : Memref sig .tc .vmem S1x128 .f32) (harg4 : arg4.IsWhole)
    (hc0 : ¬cond0_first i) (hc1 : ¬cond0_last i)
    (x0 : Vec F S16384x2 .f32) (x1 : Vec F S16384x1 .i32) (xi : Vec F S1x128 .f32) (s : Vec F S1x128 .f32)
    (E : Set ℕ) (K : PUnit → sProp 𝕄) :
    iprop(owns (c : Thread nD τ) arg1 fullShare x0 ∗ owns (c : Thread nD τ) arg2 fullShare x1
        ∗ owns (c : Thread nD τ) arg3 fullShare xi ∗ owns (c : Thread nD τ) arg4 fullShare s
        ∗ (iprop(owns (c : Thread nD τ) arg1 fullShare x0 ∗ owns (c : Thread nD τ) arg2 fullShare x1
            ∗ owns (c : Thread nD τ) arg3 fullShare xi ∗ owns (c : Thread nD τ) arg4 fullShare (step0 x0 x1 s)) -∗ K ⟨⟩))
      ⊢ wp frame (wpE (defs₀ (F := F)) Variants.none c none) E (cc0_hist_kernel i arg1 harg1 arg2 harg2 arg3 harg3 arg4 harg4) K := by
  simp only [cc0_hist_kernel_eq_skeleton]; unfold cc0_hist_kernel_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1
  obtain rfl := harg3.eq_unread hf2; obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS
  ipureintro
  sl_unfold_run_names
  rw [a_read_writes_unit _ _ a_hz2 inb_S1x128_S1x128_0_0]
  simp only [a_readAt_unread _ harg1 a_hz2 inb_S16384x2_S16384x2_0_0, a_readAt_unread _ harg2 a_hz2 inb_S16384x1_S16384x1_0_0]
  rw [a_readAt_unread _ harg4 a_hz2 inb_S1x128_S1x128_0_0]
  rfl

set_option maxHeartbeats 1000000 in
/-- The body at the last point (not the first): the point's partial histogram is added to the accumulator, and the
    accumulator, read back, is stored into the output buffer. -/
theorem run0_C (c : Dev nD) (i : grid0.Coords)
    (arg1 : Memref sig .tc .vmem S16384x2 .f32) (harg1 : arg1.IsWhole)
    (arg2 : Memref sig .tc .vmem S16384x1 .i32) (harg2 : arg2.IsWhole)
    (arg3 : Memref sig .tc .vmem S1x128 .f32) (harg3 : arg3.IsWhole)
    (arg4 : Memref sig .tc .vmem S1x128 .f32) (harg4 : arg4.IsWhole)
    (hc0 : ¬cond0_first i) (hc1 : cond0_last i)
    (x0 : Vec F S16384x2 .f32) (x1 : Vec F S16384x1 .i32) (s : Vec F S1x128 .f32)
    (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare s
        ∗ (iprop(owns (c : Thread nD τ) arg1 fullShare x0 ∗ owns (c : Thread nD τ) arg2 fullShare x1
            ∗ owns (c : Thread nD τ) arg3 fullShare (step0 x0 x1 s) ∗ owns (c : Thread nD τ) arg4 fullShare (step0 x0 x1 s)) -∗ K ⟨⟩))
      ⊢ wp frame (wpE (defs₀ (F := F)) Variants.none c none) E (cc0_hist_kernel i arg1 harg1 arg2 harg2 arg3 harg3 arg4 harg4) K := by
  simp only [cc0_hist_kernel_eq_skeleton]; unfold cc0_hist_kernel_skel
  unfold owns
  iintro ⟨⟨%f0, %hf0, H0⟩, ⟨%f1, %hf1, H1⟩, ⟨%d2, %f2, -, H2⟩, ⟨%fs, %hfs, HS⟩, Hk⟩
  obtain rfl := harg1.eq_unread hf0; obtain rfl := harg2.eq_unread hf1
  obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_run_names
    rw [a_read_writes_unit _ _ a_hz2 inb_S1x128_S1x128_0_0, View.readCov_unit_zero _ a_hz2 inb_S1x128_S1x128_0_0]
    simp only [a_readAt_unread _ harg1 a_hz2 inb_S16384x2_S16384x2_0_0, a_readAt_unread _ harg2 a_hz2 inb_S16384x1_S16384x1_0_0]
    rw [a_readAt_unread _ harg4 a_hz2 inb_S1x128_S1x128_0_0]
    rfl
  iexists _; isplitr
  swap; · iexact HS
  ipureintro
  sl_unfold_run_names
  rw [a_read_writes_unit _ _ a_hz2 inb_S1x128_S1x128_0_0]
  simp only [a_readAt_unread _ harg1 a_hz2 inb_S16384x2_S16384x2_0_0, a_readAt_unread _ harg2 a_hz2 inb_S16384x1_S16384x1_0_0]
  rw [a_readAt_unread _ harg4 a_hz2 inb_S1x128_S1x128_0_0]
  rfl

section
variable (V : (c : Dev nD) → (b : Ref sig .tc) → Buf (Elt F) ((c : Thread nD τ).loc b))

/-! ## What the body finds in the inputs' buffers -/

/-- Each input's current buffer holds its block at every point (both are fetched at every point). -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

end

section
variable (V : (c : Dev nD) → (b : Ref sig .tc) → Buf (Elt F) ((c : Thread nD τ).loc b))

/-! ## The invariant and the accumulator, by the point -/

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (acc0 V c n hn) ∗ rest0 (F := F) c ∗ (∃ r, prngReg c r)) := rfl

theorem PhiS0_pos (c : Dev nD) (n : ℕ) (h : n ≤ cfg0.N) (hz : n ≠ 0) :
    PhiS0 V c n h = iprop(owns (c : Thread nD τ) scM0 fullShare (acc0 V c (n - 1) (by omega)) ∗ rest0 (F := F) c ∗ (∃ r, prngReg c r)) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-- At the first point the accumulator starts from the zero row. -/
theorem acc0_first (c : Dev nD) (t : Fin cfg0.N) (hz : t.val = 0) :
    acc0 V c t.val t.isLt = step0 (iblk0 V c 0 t) (iblk0 V c 1 t) (k0_pay2 (F := F)) := by
  obtain ⟨n, hn⟩ := t
  cases n with
  | zero => rfl
  | succ n => exact absurd hz (Nat.succ_ne_zero n)

/-- At any later point it starts from what the point before left. -/
theorem acc0_pos (c : Dev nD) (t : Fin cfg0.N) (hz : t.val ≠ 0) :
    acc0 V c t.val t.isLt = step0 (iblk0 V c 0 t) (iblk0 V c 1 t) (acc0 V c (t.val - 1) (Nat.lt_of_le_of_lt (Nat.sub_le _ _) t.isLt)) := by
  obtain ⟨n, hn⟩ := t
  cases n with
  | zero => exact absurd rfl hz
  | succ n => rfl

/-! ## The body obligation -/

set_option maxHeartbeats 4800000 in
/-- The body at any point, the windows one by one: the inputs' buffers hold their blocks; by the point's position the
    accumulator is found at anything (first point) or at what the point before left, and is left at this point's value;
    the output buffer is handed back untouched except at the last point, where it receives the accumulator. -/
theorem sound_body0 (c : Dev nD) (t : Fin cfg0.N) :
    iprop((dat0 V c).Φ t.castSucc ∗ (dat0 V c).owesAt () t.castSucc
        ∗ (∃ d, owns (c : Thread nD τ) (ms0_0 t) fullShare ((dat0 V c).before 0 t d))
        ∗ (∃ d, owns (c : Thread nD τ) (ms0_1 t) fullShare ((dat0 V c).before 1 t d))
        ∗ (∃ d, owns (c : Thread nD τ) (ms0_2 t) fullShare ((dat0 V c).before 2 t d)))
      ⊢ wp frame (wpE (defs₀ (F := F)) Variants.none c none) Set.univ (bodyAt0 t) (fun _ =>
          iprop((dat0 V c).Φ t.succ ∗ (dat0 V c).owesAt () t.succ
            ∗ (dat0 V c).leavesExact 0 t ∗ (dat0 V c).leavesExact 1 t ∗ (dat0 V c).leavesExact 2 t)) := by
  unfold bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 1024 := lt_of_lt_of_eq t.isLt (show cfg0.N = 1024 from N_0)
  by_cases h0 : t.val = 0
  · have h1 : ¬t.val = 1023 := by omega
    rw [Dat.leavesExact_idle (dat0 V c) 2 t (idleAt0_2 t (fun h => h1 ((hcond0_last t).mp h))) (noFlush0_2 t (fun h => h1 ((hcond0_last t).mp h)))]
    rw [acc0_first V c t h0]
    rw [PhiS0_castSucc V c t, PhiS0_zero V c _ _ h0, PhiA0_eq]
    iintro ⟨⟨⟨HS, Hr⟩, Hg⟩, Ho, ⟨%d0, H0⟩, ⟨%d1, H1⟩, ⟨%d2, H2⟩⟩
    iapply (run0_A c (grid0.coords t) (ms0_0 t) (hs0_0 t) (ms0_1 t) (hs0_1 t) (ms0_2 t) (hs0_2 t) scM0 (Memref.isWhole_whole _)
      ((hcond0_first t).mpr h0) (fun h => h1 ((hcond0_last t).mp h)) (iblk0 V c 0 t) (iblk0 V c 1 t) ((dat0 V c).before 2 t d2) Set.univ _)
    isplitl [H0]; · iexact H0
    isplitl [H1]; · iexact H1
    isplitl [H2]; · iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexists _; iexact H2
  · by_cases h1 : t.val = 1023
    · rw [show (dat0 V c).leavesExact 2 t = owns (c : Thread nD τ) (ms0_2 t) fullShare ((dat0 V c).after 2 t) from by
        unfold Dat.leavesExact; rw [liveAt0_2 t ((hcond0_last t).mpr h1)], after0_2]
      rw [acc0_pos V c t h0]
      rw [PhiS0_castSucc V c t, PhiS0_pos V c _ _ h0]
      iintro ⟨⟨HS, Hr, Hg⟩, Ho, ⟨%d0, H0⟩, ⟨%d1, H1⟩, ⟨%d2, H2⟩⟩
      iapply (run0_C c (grid0.coords t) (ms0_0 t) (hs0_0 t) (ms0_1 t) (hs0_1 t) (ms0_2 t) (hs0_2 t) scM0 (Memref.isWhole_whole _)
        (fun h => h0 ((hcond0_first t).mp h)) ((hcond0_last t).mpr h1) (iblk0 V c 0 t) (iblk0 V c 1 t)
        (acc0 V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
    · rw [Dat.leavesExact_idle (dat0 V c) 2 t (idleAt0_2 t (fun h => h1 ((hcond0_last t).mp h))) (noFlush0_2 t (fun h => h1 ((hcond0_last t).mp h)))]
      rw [acc0_pos V c t h0]
      rw [PhiS0_castSucc V c t, PhiS0_pos V c _ _ h0]
      iintro ⟨⟨HS, Hr, Hg⟩, Ho, ⟨%d0, H0⟩, ⟨%d1, H1⟩, ⟨%d2, H2⟩⟩
      iapply (run0_B c (grid0.coords t) (ms0_0 t) (hs0_0 t) (ms0_1 t) (hs0_1 t) (ms0_2 t) (hs0_2 t) scM0 (Memref.isWhole_whole _)
        (fun h => h0 ((hcond0_first t).mp h)) (fun h => h1 ((hcond0_last t).mp h)) (iblk0 V c 0 t) (iblk0 V c 1 t)
        ((dat0 V c).before 2 t d2) (acc0 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the launch's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨HS, Hr, Hg⟩
  isplitl [HS Hr]
  · isplitl [HS]; · iexists _; iexact HS
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 1024 := N_0; omega)

end

end Cert.Kernel.Hand

end
-- ==== Proof.K.Defs1.lean ====
/-
  Region 1 (the weighted-loss pass), at the buffer contents `V` the region is entered with: the block of each window at a
  grid point, what one grid point does to the accumulator (one element: the block's sum of weight × cross-entropy added
  to what the accumulator held), the accumulator after each point by recursion on the point, and the proof data of the
  pipeline: inputs left in place, the output block (stored at the last point only) and the carried accumulator both at
  that recursion.
-/
import proofs.«154215_j627065225459_1_alg».proof.Proof.Gen.Kernel.Launch
import proofs.«154215_j627065225459_1_alg».proof.Proof.Gen.Kernel.Skeleton
import proofs.«154215_j627065225459_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One grid point on the accumulator: the block's sum of weight × cross-entropy added to what the accumulator held. -/
def step1 (x0 : Vec F S16384x2 .f32) (x1 : Vec F S16384x1 .i32) (xb : Vec F S1x128 .f32) (s : Vec F S1x1 .f32) : Vec F S1x1 .f32 :=
  k1_pay1 (k1_pay7 x0 x1) (k1_pay8 x0 x1) 0#32 29#32 xb s

/-- The accumulator after grid point `n`: the first point starts from zero, every later one from what the point before left. -/
def acc1 (c : Dev nD) : (n : ℕ) → n < cfg1.N → Vec F S1x1 .f32
  | 0, h => step1 (iblk1 V c 0 ⟨0, h⟩) (iblk1 V c 1 ⟨0, h⟩) (iblk1 V c 2 ⟨0, h⟩) (k1_pay2 (F := F))
  | n + 1, h => step1 (iblk1 V c 0 ⟨n + 1, h⟩) (iblk1 V c 1 ⟨n + 1, h⟩) (iblk1 V c 2 ⟨n + 1, h⟩) (acc1 c n (Nat.lt_of_succ_lt h))

theorem acc1_zero (c : Dev nD) (h : 0 < cfg1.N) :
    acc1 V c 0 h = step1 (iblk1 V c 0 ⟨0, h⟩) (iblk1 V c 1 ⟨0, h⟩) (iblk1 V c 2 ⟨0, h⟩) (k1_pay2 (F := F)) := rfl
theorem acc1_succ (c : Dev nD) (n : ℕ) (h : n + 1 < cfg1.N) :
    acc1 V c (n + 1) h = step1 (iblk1 V c 0 ⟨n + 1, h⟩) (iblk1 V c 1 ⟨n + 1, h⟩) (iblk1 V c 2 ⟨n + 1, h⟩) (acc1 V c n (Nat.lt_of_succ_lt h)) := rfl

/-- The accumulator scratch, a whole scoped buffer of the kernel's own. -/
abbrev scM1 : Memref sig .tc .vmem S1x1 .f32 := Memref.whole cc1_scratch0

/-- The scoped buffers the region neither stages nor uses (the other region's), each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f))

/-- The region invariant before position `n`: before the first point every scoped buffer at anything; afterwards the
    accumulator at what the point before left, the other scoped buffers at anything, the generator register at some state. -/
def PhiS1 (c : Dev nD) : (n : ℕ) → n ≤ cfg1.N → sProp 𝕄
  | 0, _ => Pipeline.ΦA spec1 c
  | n + 1, hn => iprop(owns (c : Thread nD τ) scM1 fullShare (acc1 V c n hn) ∗ rest1 (F := F) c ∗ (∃ r, prngReg c r))

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = acc1 V c t.val t.isLt := by dsimp only [dat1]

end

end Cert.Kernel.Hand

end
-- ==== Proof.K.Body1.lean ====
/-
  Region 1 (the weighted-loss pass): the body obligation. The kernel's body on any whole staging memrefs, in each of
  the three cases its two conditionals leave on a grid of 1024 points — the first point (the accumulator is zeroed, then
  takes one step), a middle point (one step from what the point before left), the last point (one step, and the
  accumulator's value stored to the output block) —, each stated directly over the payloads: the accumulator ends at
  `step1` of the point's input blocks and of what it held. Then the conditions in closed form over the grid, where the
  output window is idle, what the input windows' buffers hold, and the obligation by cases on the point; and the
  invariant's two ends: the launch's invariant is the one before the first point, and the one after the last point gives
  the launch's back.
-/
import proofs.«154215_j627065225459_1_alg».proof.Proof.K.Defs1
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first conditional (the accumulator is zeroed): the grid coordinate is 0. -/
abbrev b_cond1_first (i : grid1.Coords) : Prop := (Scalar.cmpi .ne (Scalar.extui (Scalar.cmpi .eq (BitVec.ofNat 32 (i 0).val) 0#32)) 0#32) = 1#1
/-- The body's second conditional (the accumulator is copied to the output block): the grid coordinate is 1023. -/
abbrev b_cond1_last (i : grid1.Coords) : Prop := k1_cond2 i = 1#1

theorem b_zeros1 : (![0, 0] : Fin 2 → ℕ) = fun _ => 0 := by funext a; fin_cases a <;> rfl

/-- What a one-element buffer reads after a store through its whole rectangle, LAST of the stores: the payload. -/
theorem b_read_store1 {κ : Kind} {sp : Space} (v : View sig κ sp S1x1 .f32) (f : v.ty.Contents (Elt F))
    (inb : ∀ a, (![0, 0] : Fin 2 → ℕ) a + S1x1.size a ≤ S1x1.size a) (w : S1x1.Idx → Elt F .f32)
    (L : List (View.Piece (Elt F) S1x1 .f32)) :
    v.read (Elt F) (v.writes (Elt F) f ((⟨Rect.unit (s := S1x1) ![0, 0] S1x1.size inb, w⟩ : View.Piece (Elt F) S1x1 .f32) :: L)) = w := by
  have hcov : ∀ y : S1x1.Idx, ∃ p ∈ ((⟨Rect.unit (s := S1x1) ![0, 0] S1x1.size inb, w⟩ : View.Piece (Elt F) S1x1 .f32) :: L), y ∈ p.1.set :=
    fun y => ⟨_, List.mem_cons_self, View.mem_set_unit_zero (S := S1x1) b_zeros1 inb y⟩
  rw [View.read_writes_eq_canon v f _ hcov, View.canon_cons_unit_zero (S := S1x1) b_zeros1 inb w]

/-- A load through the whole rectangle of what one store through it left reads the payload. -/
theorem b_readCov_store1 {κ : Kind} {sp : Space} (v : View sig κ sp S1x1 .f32)
    (inb : ∀ a, (![0, 0] : Fin 2 → ℕ) a + S1x1.size a ≤ S1x1.size a) (w : S1x1.Idx → Elt F .f32) :
    v.readCov [(⟨Rect.unit (s := S1x1) ![0, 0] S1x1.size inb, w⟩ : View.Piece (Elt F) S1x1 .f32)] (Rect.unit (s := S1x1) ![0, 0] S1x1.size inb).toLoadRect = w :=
  View.readCov_unit_zero v b_zeros1 inb w

/-! ## The body, case by case, on any whole staging memrefs -/

set_option maxHeartbeats 1000000 in
/-- A point that is neither the first nor the last: from the inputs' buffers at their blocks, the output block at what it
    held and the accumulator at `s`, the body runs to the continuation with everything as it was but the accumulator,
    which is one step on from `s`. -/
theorem b_run1_mid (c : Dev nD) (i : grid1.Coords)
    (arg1 : Memref sig .tc .vmem S16384x2 .f32) (harg1 : arg1.IsWhole) (arg2 : Memref sig .tc .vmem S16384x1 .i32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S1x1 .f32) (harg5 : arg5.IsWhole)
    (hc0 : ¬b_cond1_first i) (hc1 : ¬b_cond1_last i)
    (x0 : Vec F S16384x2 .f32) (x1 : Vec F S16384x1 .i32) (xb : Vec F S1x128 .f32) (xi : Vec F S1x1 .f32) (s : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare xb
        ∗ owns (c : Thread nD τ) arg4 fullShare xi ∗ owns (c : Thread nD τ) arg5 fullShare s
        ∗ (iprop(owns (c : Thread nD τ) arg1 fullShare x0 ∗ owns (c : Thread nD τ) arg2 fullShare x1 ∗ owns (c : Thread nD τ) arg3 fullShare xb
            ∗ owns (c : Thread nD τ) arg4 fullShare xi ∗ owns (c : Thread nD τ) arg5 fullShare (step1 x0 x1 xb s)) -∗ K ⟨⟩))
      ⊢ wp frame (wpE (defs₀ (F := F)) Variants.none c none) E (cc1_final_kernel i arg1 harg1 arg2 harg2 arg3 harg3 arg4 harg4 arg5 harg5) K := by
  simp only [cc1_final_kernel_eq_skeleton]; unfold cc1_final_kernel_skel
  simp only [k1_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  refine (b_read_store1 _ _ _ _ _).trans ?_
  unfold b_run1_mid.sl.r b_run1_mid.sl.r_1 step1
  simp only [View.readAt_eq_ld, hf0, hf1, hf2, hfs, View.ld_unit_zero (S := S16384x2) b_zeros1, View.ld_unit_zero (S := S16384x1) b_zeros1,
    View.ld_unit_zero (S := S1x128) b_zeros1, View.ld_unit_zero (S := S1x1) b_zeros1]

set_option maxHeartbeats 1000000 in
/-- The first point: the accumulator, whatever it held, is zeroed and then takes one step from the zero row. -/
theorem b_run1_first (c : Dev nD) (i : grid1.Coords)
    (arg1 : Memref sig .tc .vmem S16384x2 .f32) (harg1 : arg1.IsWhole) (arg2 : Memref sig .tc .vmem S16384x1 .i32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S1x1 .f32) (harg5 : arg5.IsWhole)
    (hc0 : b_cond1_first i) (hc1 : ¬b_cond1_last i)
    (x0 : Vec F S16384x2 .f32) (x1 : Vec F S16384x1 .i32) (xb : Vec F S1x128 .f32) (xi : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare xb
        ∗ owns (c : Thread nD τ) arg4 fullShare xi ∗ (∃ d, owns (c : Thread nD τ) arg5 fullShare d)
        ∗ (iprop(owns (c : Thread nD τ) arg1 fullShare x0 ∗ owns (c : Thread nD τ) arg2 fullShare x1 ∗ owns (c : Thread nD τ) arg3 fullShare xb
            ∗ owns (c : Thread nD τ) arg4 fullShare xi ∗ owns (c : Thread nD τ) arg5 fullShare (step1 x0 x1 xb (k1_pay2 (F := F)))) -∗ K ⟨⟩))
      ⊢ wp frame (wpE (defs₀ (F := F)) Variants.none c none) E (cc1_final_kernel i arg1 harg1 arg2 harg2 arg3 harg3 arg4 harg4 arg5 harg5) K := by
  simp only [cc1_final_kernel_eq_skeleton]; unfold cc1_final_kernel_skel
  simp only [k1_part1_eq_skeleton]
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg1.eq_unread hf0; obtain rfl := harg2.eq_unread hf1; obtain rfl := harg3.eq_unread hf2
  obtain rfl := harg4.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  refine (b_read_store1 _ _ _ _ _).trans ?_
  unfold b_run1_first.sl.r b_run1_first.sl.r_1 b_run1_first.sl.v61 b_run1_first.sl.HS_1 step1
  rw [b_readCov_store1]
  simp only [View.readAt_eq_ld, hf0, hf1, hf2, View.ld_unit_zero (S := S16384x2) b_zeros1, View.ld_unit_zero (S := S16384x1) b_zeros1,
    View.ld_unit_zero (S := S1x128) b_zeros1]

set_option maxHeartbeats 1000000 in
/-- The last point (not the first): the accumulator takes one step from `s`, and the output block, whatever it held,
    is stored the accumulator's new value. -/
theorem b_run1_last (c : Dev nD) (i : grid1.Coords)
    (arg1 : Memref sig .tc .vmem S16384x2 .f32) (harg1 : arg1.IsWhole) (arg2 : Memref sig .tc .vmem S16384x1 .i32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S1x1 .f32) (harg5 : arg5.IsWhole)
    (hc0 : ¬b_cond1_first i) (hc1 : b_cond1_last i)
    (x0 : Vec F S16384x2 .f32) (x1 : Vec F S16384x1 .i32) (xb : Vec F S1x128 .f32) (s : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare xb
        ∗ (∃ d, owns (c : Thread nD τ) arg4 fullShare d) ∗ owns (c : Thread nD τ) arg5 fullShare s
        ∗ (iprop(owns (c : Thread nD τ) arg1 fullShare x0 ∗ owns (c : Thread nD τ) arg2 fullShare x1 ∗ owns (c : Thread nD τ) arg3 fullShare xb
            ∗ owns (c : Thread nD τ) arg4 fullShare (step1 x0 x1 xb s) ∗ owns (c : Thread nD τ) arg5 fullShare (step1 x0 x1 xb s)) -∗ K ⟨⟩))
      ⊢ wp frame (wpE (defs₀ (F := F)) Variants.none c none) E (cc1_final_kernel i arg1 harg1 arg2 harg2 arg3 harg3 arg4 harg4 arg5 harg5) K := by
  simp only [cc1_final_kernel_eq_skeleton]; unfold cc1_final_kernel_skel
  simp only [k1_part1_eq_skeleton]
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg1.eq_unread hf0; obtain rfl := harg2.eq_unread hf1; obtain rfl := harg3.eq_unread hf2
  obtain rfl := harg5.eq_unread hfs
  sl_exec (disch := first | exact hc0 | exact hc1)
  sl_step
  have hpay : k1_pay1 (b_run1_last.sl.r c arg1 harg1 arg2 harg2 x0 x1) (b_run1_last.sl.r_1 c arg1 harg1 arg2 harg2 x0 x1) (0#32) (29#32)
        (View.readAt (Elt F) arg3.view (Rect.unit (s := S1x128) ![0, 0] S1x128.size inb_S1x128_S1x128_0_0).toLoadRect (harg3.unread xb))
        (View.readAt (Elt F) arg5.view (Rect.unit (s := S1x1) ![0, 0] S1x1.size inb_S1x1_S1x1_0_0).toLoadRect (harg5.unread s))
      = step1 x0 x1 xb s := by
    unfold b_run1_last.sl.r b_run1_last.sl.r_1 step1
    simp only [View.readAt_eq_ld, hf0, hf1, hf2, hfs, View.ld_unit_zero (S := S16384x2) b_zeros1, View.ld_unit_zero (S := S16384x1) b_zeros1,
      View.ld_unit_zero (S := S1x128) b_zeros1, View.ld_unit_zero (S := S1x1) b_zeros1]
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    refine (b_read_store1 _ _ _ _ _).trans ?_
    unfold b_run1_last.sl.v69 b_run1_last.sl.HS_1
    exact (b_readCov_store1 _ _ _).trans hpay
  iexists _; isplitr
  swap; · iexact HS
  ipureintro
  unfold b_run1_last.sl.HS_1
  exact (b_read_store1 _ _ _ _ _).trans hpay

/-! ## The conditions in closed form, and where the output window is idle -/

/-- The first conditional holds at the first point only — decided over the grid. -/
theorem b_hcond1_first : ∀ t : Fin cfg1.N, b_cond1_first (grid1.coords t) ↔ t.val % 1024 = 0 :=
  (by decide +kernel : ∀ t : Fin grid1.N, b_cond1_first (grid1.coords t) ↔ t.val % 1024 = 0)
/-- The second conditional holds at the last point only — decided over the grid. -/
theorem b_hcond1_last : ∀ t : Fin cfg1.N, b_cond1_last (grid1.coords t) ↔ t.val % 1024 = 1023 :=
  (by decide +kernel : ∀ t : Fin grid1.N, b_cond1_last (grid1.coords t) ↔ t.val % 1024 = 1023)

/-- The input windows are never idle. -/
theorem b_liveAt1_0 : ∀ t : Fin cfg1.N, cfg1.idle 0 (grid1.coords t) = false := fun _ => rfl
theorem b_liveAt1_1 : ∀ t : Fin cfg1.N, cfg1.idle 1 (grid1.coords t) = false := fun _ => rfl
theorem b_liveAt1_2 : ∀ t : Fin cfg1.N, cfg1.idle 2 (grid1.coords t) = false := fun _ => rfl
/-- Where the second conditional fails the output window is idle (the body stores nothing into it), -/
theorem b_idleAt1_3 (t : Fin cfg1.N) (h : ¬b_cond1_last (grid1.coords t)) : cfg1.idle 3 (grid1.coords t) = true := by
  show (!(k1_cond2 (grid1.coords t) == 1#1)) = true
  rw [Bool.not_eq_true', beq_eq_false_iff_ne]; exact h
/-- and the pipeline does not write its block back; -/
theorem b_noFlush1_3 (t : Fin cfg1.N) (h : ¬b_cond1_last (grid1.coords t)) : (cfg1.win 3).flush t = false :=
  Bool.eq_false_iff.mpr fun hf => h ((b_hcond1_last t).mpr ((flush1_3 t).mp hf))
/-- where it holds the window is live. -/
theorem b_liveAt1_3 (t : Fin cfg1.N) (h : b_cond1_last (grid1.coords t)) : cfg1.idle 3 (grid1.coords t) = false := by
  show (!(k1_cond2 (grid1.coords t) == 1#1)) = false
  rw [Bool.not_eq_false', beq_iff_eq]; exact h

/-! ## The staging memrefs as the pipeline passes them -/

abbrev b_ms1_0 (t : Fin cfg1.N) : Memref sig .tc .vmem S16384x2 .f32 := win1_0.stage (cfg1.slots t 0)
abbrev b_hs1_0 (t : Fin cfg1.N) : (b_ms1_0 t).IsWhole := hstage1_0 ((cfg1.slots t 0).cast nbuf1_0)
abbrev b_ms1_1 (t : Fin cfg1.N) : Memref sig .tc .vmem S16384x1 .i32 := win1_1.stage (cfg1.slots t 1)
abbrev b_hs1_1 (t : Fin cfg1.N) : (b_ms1_1 t).IsWhole := hstage1_1 ((cfg1.slots t 1).cast nbuf1_1)
abbrev b_ms1_2 (t : Fin cfg1.N) : Memref sig .tc .vmem S1x128 .f32 := win1_2.stage (cfg1.slots t 2)
abbrev b_hs1_2 (t : Fin cfg1.N) : (b_ms1_2 t).IsWhole := hstage1_2 ((cfg1.slots t 2).cast nbuf1_2)
abbrev b_ms1_3 (t : Fin cfg1.N) : Memref sig .tc .vmem S1x1 .f32 := win1_3.stage (cfg1.slots t 3)
abbrev b_hs1_3 (t : Fin cfg1.N) : (b_ms1_3 t).IsWhole := hstage1_3 ((cfg1.slots t 3).cast nbuf1_3)

section
variable (V : (c : Dev nD) → (b : Ref sig .tc) → Buf (Elt F) ((c : Thread nD τ).loc b))

/-! ## What the body finds in the input windows -/

/-- Each input's current staging buffer holds its block at every point, fetched there or not (the third window is fetched
    at the first point only: its block index never moves). -/
theorem b_before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem b_before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem b_before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The accumulator and the invariant, point by point -/

theorem b_acc1_first (c : Dev nD) (t : Fin cfg1.N) (hz : t.val = 0) :
    acc1 V c t.val t.isLt = step1 (iblk1 V c 0 t) (iblk1 V c 1 t) (iblk1 V c 2 t) (k1_pay2 (F := F)) := by
  obtain ⟨n, hn⟩ := t
  cases n with
  | zero => exact acc1_zero V c hn
  | succ n => exact absurd hz (Nat.succ_ne_zero n)

theorem b_acc1_later (c : Dev nD) (t : Fin cfg1.N) (hz : t.val ≠ 0) :
    acc1 V c t.val t.isLt = step1 (iblk1 V c 0 t) (iblk1 V c 1 t) (iblk1 V c 2 t) (acc1 V c (t.val - 1) (Nat.lt_of_le_of_lt (Nat.sub_le _ _) t.isLt)) := by
  obtain ⟨n, hn⟩ := t
  cases n with
  | zero => exact absurd rfl hz
  | succ n => exact acc1_succ V c n hn

theorem b_PhiS1_zero (c : Dev nD) (n : ℕ) (h : n ≤ cfg1.N) (hz : n = 0) : PhiS1 V c n h = Pipeline.ΦA spec1 c := by
  subst hz; rfl
theorem b_PhiS1_succ (c : Dev nD) (n : ℕ) (hn : n < cfg1.N) :
    PhiS1 V c (n + 1) hn = iprop(owns (c : Thread nD τ) scM1 fullShare (acc1 V c n hn) ∗ rest1 (F := F) c ∗ (∃ r, prngReg c r)) := rfl
theorem b_PhiS1_pos (c : Dev nD) (n : ℕ) (h : n ≤ cfg1.N) (hz : n ≠ 0) :
    PhiS1 V c n h = iprop(owns (c : Thread nD τ) scM1 fullShare (acc1 V c (n - 1) (by omega)) ∗ rest1 (F := F) c ∗ (∃ r, prngReg c r)) := by
  cases n with
  | zero => exact absurd rfl hz
  | succ n => rfl
theorem b_Phi1_castSucc (c : Dev nD) (t : Fin cfg1.N) :
    (dat1 V c).Φ t.castSucc = PhiS1 V c t.val (Nat.le_of_lt t.isLt) := by
  dsimp only [dat1]; simp only [Fin.coe_castSucc]

end

/-- What the launch hands the region, with the accumulator as a memref owned at some contents and the other region's
    buffers gathered: the scoped buffers' chain reassociated. -/
theorem b_PhiA1_split (c : Dev nD) :
    (Pipeline.ΦA spec1 c : sProp 𝕄) ⊢ iprop((∃ d, owns (c : Thread nD τ) scM1 fullShare d) ∗ rest1 (F := F) c ∗ (∃ r, prngReg c r)) := by
  unfold Pipeline.ΦA rest1; rw [scopedRest1_eq]; simp only [scM1, owns_whole]
  iintro ⟨⟨HA, HB, HC, HD, HE, HG, HS⟩, Hg⟩
  isplitl [HS]; · iexact HS
  isplitl [HA HB HC HD HE HG]
  · isplitl [HA]; · iexact HA
    isplitl [HB]; · iexact HB
    isplitl [HC]; · iexact HC
    isplitl [HD]; · iexact HD
    isplitl [HE]; · iexact HE
    iexact HG
  iexact Hg

theorem b_PhiA1_join (c : Dev nD) :
    iprop((∃ d, owns (c : Thread nD τ) scM1 fullShare d) ∗ rest1 (F := F) c ∗ (∃ r, prngReg c r)) ⊢ (Pipeline.ΦA spec1 c : sProp 𝕄) := by
  unfold Pipeline.ΦA rest1; rw [scopedRest1_eq]; simp only [scM1, owns_whole]
  iintro ⟨HS, ⟨HA, HB, HC, HD, HE, HG⟩, Hg⟩
  isplitl [HA HB HC HD HE HG HS]
  · isplitl [HA]; · iexact HA
    isplitl [HB]; · iexact HB
    isplitl [HC]; · iexact HC
    isplitl [HD]; · iexact HD
    isplitl [HE]; · iexact HE
    isplitl [HG]; · iexact HG
    iexact HS
  iexact Hg

section
variable (V : (c : Dev nD) → (b : Ref sig .tc) → Buf (Elt F) ((c : Thread nD τ).loc b))

/-! ## The body obligation, at a generic point -/

/-- What the body is called with at point `t` (the obligation's precondition, the windows one by one), -/
def b_bodyPre1 (c : Dev nD) (t : Fin cfg1.N) : sProp 𝕄 :=
  iprop((dat1 V c).Φ t.castSucc ∗ (dat1 V c).owesAt () t.castSucc
    ∗ (∃ d, owns (c : Thread nD τ) (b_ms1_0 t) fullShare ((dat1 V c).before 0 t d))
    ∗ (∃ d, owns (c : Thread nD τ) (b_ms1_1 t) fullShare ((dat1 V c).before 1 t d))
    ∗ (∃ d, owns (c : Thread nD τ) (b_ms1_2 t) fullShare ((dat1 V c).before 2 t d))
    ∗ (∃ d, owns (c : Thread nD τ) (b_ms1_3 t) fullShare ((dat1 V c).before 3 t d)))

/-- and what it returns. -/
def b_bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the closed forms say which of the three cases the point
    is in. At the first point the invariant hands the body the accumulator at anything (the launch's invariant,
    reassociated) and takes it back at one step from the zero row; at a later point it hands it over at what the point
    before left and takes it back one step on. Where the second conditional fails the output window is idle and its
    buffer goes back as it came; at the last point it goes back at the accumulator's value. -/
theorem b_sound_body1 (c : Dev nD) (t : Fin cfg1.N) :
    b_bodyPre1 V c t ⊢ wp frame (wpE (defs₀ (F := F)) Variants.none c none) Set.univ (bodyAt1 t) (fun _ => b_bodyPost1 V c t) := by
  unfold b_bodyPre1 b_bodyPost1 bodyAt1
  simp only [b_before1_0, b_before1_1, b_before1_2]
  rw [show (dat1 V c).owesAt () t.succ = (dat1 V c).owesAt () t.castSucc from rfl]
  rw [show (dat1 V c).Φ t.succ = PhiS1 V c (t.val + 1) t.isLt from rfl, b_PhiS1_succ]
  rw [show (dat1 V c).leavesExact 0 t = owns (c : Thread nD τ) (b_ms1_0 t) fullShare ((dat1 V c).after 0 t) from by
    unfold Dat.leavesExact; rw [b_liveAt1_0 t], after1_0]
  rw [show (dat1 V c).leavesExact 1 t = owns (c : Thread nD τ) (b_ms1_1 t) fullShare ((dat1 V c).after 1 t) from by
    unfold Dat.leavesExact; rw [b_liveAt1_1 t], after1_1]
  rw [show (dat1 V c).leavesExact 2 t = owns (c : Thread nD τ) (b_ms1_2 t) fullShare ((dat1 V c).after 2 t) from by
    unfold Dat.leavesExact; rw [b_liveAt1_2 t], after1_2]
  rw [b_Phi1_castSucc V c t]
  have hN : t.val < 1024 := lt_of_lt_of_eq t.isLt (show cfg1.N = 1024 from N_1)
  by_cases hz : t.val = 0
  · have hc0 : b_cond1_first (grid1.coords t) := (b_hcond1_first t).mpr (by omega)
    have hc1 : ¬b_cond1_last (grid1.coords t) := fun h => by have := (b_hcond1_last t).mp h; omega
    rw [Dat.leavesExact_idle (dat1 V c) 3 t (b_idleAt1_3 t hc1) (b_noFlush1_3 t hc1)]
    rw [b_acc1_first V c t hz, b_PhiS1_zero V c _ _ hz]
    iintro ⟨HΦ, Ho, ⟨%d0, H0⟩, ⟨%d1, H1⟩, ⟨%d2, H2⟩, ⟨%d3, H3⟩⟩
    ihave HΦ' := b_PhiA1_split c $$ HΦ
    icases HΦ' with ⟨HS, Hr, Hg⟩
    iapply (b_run1_first c (grid1.coords t) (b_ms1_0 t) (b_hs1_0 t) (b_ms1_1 t) (b_hs1_1 t) (b_ms1_2 t) (b_hs1_2 t) (b_ms1_3 t) (b_hs1_3 t)
      scM1 (Memref.isWhole_whole _) hc0 hc1 (iblk1 V c 0 t) (iblk1 V c 1 t) (iblk1 V c 2 t) ((dat1 V c).before 3 t d3) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    iexists _; iexact H3
  · have hc0 : ¬b_cond1_first (grid1.coords t) := fun h => hz (by have := (b_hcond1_first t).mp h; omega)
    rw [b_acc1_later V c t hz, b_PhiS1_pos V c _ _ hz]
    by_cases hl : t.val = 1023
    · have hc1 : b_cond1_last (grid1.coords t) := (b_hcond1_last t).mpr (by omega)
      rw [show (dat1 V c).leavesExact 3 t = owns (c : Thread nD τ) (b_ms1_3 t) fullShare ((dat1 V c).after 3 t) from by
        unfold Dat.leavesExact; rw [b_liveAt1_3 t hc1], after1_3, b_acc1_later V c t hz]
      iintro ⟨⟨HS, Hr, Hg⟩, Ho, ⟨%d0, H0⟩, ⟨%d1, H1⟩, ⟨%d2, H2⟩, ⟨%d3, H3⟩⟩
      iapply (b_run1_last c (grid1.coords t) (b_ms1_0 t) (b_hs1_0 t) (b_ms1_1 t) (b_hs1_1 t) (b_ms1_2 t) (b_hs1_2 t) (b_ms1_3 t) (b_hs1_3 t)
        scM1 (Memref.isWhole_whole _) hc0 hc1 (iblk1 V c 0 t) (iblk1 V c 1 t) (iblk1 V c 2 t)
        (acc1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · have hc1 : ¬b_cond1_last (grid1.coords t) := fun h => hl (by have := (b_hcond1_last t).mp h; omega)
      rw [Dat.leavesExact_idle (dat1 V c) 3 t (b_idleAt1_3 t hc1) (b_noFlush1_3 t hc1)]
      iintro ⟨⟨HS, Hr, Hg⟩, Ho, ⟨%d0, H0⟩, ⟨%d1, H1⟩, ⟨%d2, H2⟩, ⟨%d3, H3⟩⟩
      iapply (b_run1_mid c (grid1.coords t) (b_ms1_0 t) (b_hs1_0 t) (b_ms1_1 t) (b_hs1_1 t) (b_ms1_2 t) (b_hs1_2 t) (b_ms1_3 t) (b_hs1_3 t)
        scM1 (Memref.isWhole_whole _) hc0 hc1 (iblk1 V c 0 t) (iblk1 V c 1 t) (iblk1 V c 2 t) ((dat1 V c).before 3 t d3)
        (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact b_sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, b_PhiS1_zero V c 0 _ rfl]
  try exact Idealize.SL.BI.Entails.refl _

/-- After any point but the first the invariant gives the launch's back: the accumulator's named contents are forgotten. -/
theorem b_Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, b_PhiS1_pos V c _ _ ht]
  refine BIBase.Entails.trans ?_ (b_PhiA1_join c)
  iintro ⟨HS, Hr, Hg⟩
  isplitl [HS]; · iexists _; iexact HS
  isplitl [Hr]; · iexact Hr
  iexact Hg

/-- The same after the last point. -/
theorem hout1 (c : Dev nD) : (dat1 V c).Φ (Fin.last cfg1.N) ⊢ Pipeline.ΦA spec1 c :=
  b_Phi1_out V c _ (by rw [Fin.val_last]; have : cfg1.N = 1024 := N_1; omega)

end

end Cert.Kernel.Hand

end
-- ==== Proof.K.Run.lean ====
/-
  The run of @main as a list of segments: the contents of every unscoped buffer at each boundary between two items of
  @main, by a fold from the launch memory (a stretch of host operations leaves what its operations compute, a kernel
  region leaves its windows' arrays at what the pipeline's write-backs fold to and every other buffer as entered); each
  argument array read back through the fold to its launch contents; every host stretch and every region as a segment over
  the thread state "every unscoped buffer at the boundary's contents, the generator register at some state, nothing
  owed"; and the launch over those segments, whose post says every unscoped buffer ends at the last boundary's
  contents. What the two kernel bodies contribute (the body obligation of each region and the two entailments tying the
  region invariant's first and last positions to the scoped buffers and the generator register) is taken as a hypothesis.
-/
import proofs.«154215_j627065225459_1_alg».proof.Proof.K.Defs0
import proofs.«154215_j627065225459_1_alg».proof.Proof.K.Defs1
import proofs.«154215_j627065225459_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the two kernel bodies contribute to the run, at any entry contents `V` of a region: the body obligation at every
    grid point, the region invariant's first position from the scoped buffers no window stages and the generator
    register, and those back from its last position. -/
structure BodyFacts (F : FTy → Type) [FloatOps F] : Prop where
  b0 : ∀ (V : (c : Dev nD) → (b : Ref sig .tc) → Buf (Elt F) ((c : Thread nD τ).loc b)) (c : Dev nD),
    BodyObligation (dat0 (F := F) V c) (defs₀ (F := F)) Variants.none () Set.univ
  in0 : ∀ (V : (c : Dev nD) → (b : Ref sig .tc) → Buf (Elt F) ((c : Thread nD τ).loc b)) (c : Dev nD),
    Pipeline.ΦA spec0 c ⊢ (dat0 (F := F) V c).Φ 0
  out0 : ∀ (V : (c : Dev nD) → (b : Ref sig .tc) → Buf (Elt F) ((c : Thread nD τ).loc b)) (c : Dev nD),
    (dat0 (F := F) V c).Φ (Fin.last cfg0.N) ⊢ Pipeline.ΦA spec0 c
  b1 : ∀ (V : (c : Dev nD) → (b : Ref sig .tc) → Buf (Elt F) ((c : Thread nD τ).loc b)) (c : Dev nD),
    BodyObligation (dat1 (F := F) V c) (defs₀ (F := F)) Variants.none () Set.univ
  in1 : ∀ (V : (c : Dev nD) → (b : Ref sig .tc) → Buf (Elt F) ((c : Thread nD τ).loc b)) (c : Dev nD),
    Pipeline.ΦA spec1 c ⊢ (dat1 (F := F) V c).Φ 0
  out1 : ∀ (V : (c : Dev nD) → (b : Ref sig .tc) → Buf (Elt F) ((c : Thread nD τ).loc b)) (c : Dev nD),
    (dat1 (F := F) V c).Φ (Fin.last cfg1.N) ⊢ Pipeline.ΦA spec1 c

variable (m : (ℓ : Loc nD τ sig) → Buf (Elt F) ℓ)

/-! ## The buffer contents at each boundary: a fold through @main -/

/-- Core `c`'s buffers at launch. -/
abbrev W0 (c : Dev nD) : Valuation τ sig (Elt F) := fun b => m (c, b)
/-- After the first host stretch (region 0's entry). -/
abbrev W1 (c : Dev nD) : Valuation τ sig (Elt F) := StableHlo.after hostOps0 (W0 m c)
/-- The same read at the TensorCore's references (what region 0's proof data take). -/
abbrev V1 : (c : Dev nD) → (b : Ref sig .tc) → Buf (Elt F) ((c : Thread nD τ).loc b) := fun c b => W1 m c b
/-- At region 0's exit: its arrays at what the pipeline leaves (the inputs as entered, the output's write-backs folded),
    every other buffer as entered. -/
def W2 (c : Dev nD) : Valuation τ sig (Elt F) :=
  Pipeline.withArrays spec0 c (W1 m c) fun w => (dat0 (V1 m) c).arrAt w cfg0.N
/-- After each of the five host stretches between the regions (the last is region 1's entry). -/
abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)
abbrev W6 (c : Dev nD) : Valuation τ sig (Elt F) := StableHlo.after hostOps1_3 (W5 m c)
abbrev W7 (c : Dev nD) : Valuation τ sig (Elt F) := StableHlo.after hostOps1_4 (W6 m c)
/-- The same read at the TensorCore's references (what region 1's proof data take). -/
abbrev V7 : (c : Dev nD) → (b : Ref sig .tc) → Buf (Elt F) ((c : Thread nD τ).loc b) := fun c b => W7 m c b
/-- At region 1's exit: its arrays at what the pipeline leaves, every other buffer as entered. -/
def W8 (c : Dev nD) : Valuation τ sig (Elt F) :=
  Pipeline.withArrays spec1 c (W7 m c) fun w => (dat1 (V7 m) c).arrAt w cfg1.N
/-- After the last host stretch: the contents @main returns with. -/
abbrev W9 (c : Dev nD) : Valuation τ sig (Elt F) := StableHlo.after hostOps2 (W8 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W8_arr (c : Dev nD) (w : Fin cfg1.W) :
    W8 m c (Proc.devRef .tc (Pipeline.arrRef spec1 w)) = (dat1 (V7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb

/-- At a region's exit each of its arrays holds what the pipeline leaves, and every other buffer what it held at entry. -/
theorem c_hF0 (c : Dev nD) (w : Fin cfg0.W) :
    (dat0 (V1 m) c).arrAt w cfg0.N = (fun b : Ref sig .tc => W2 m c b) (Pipeline.arrRef spec0 w) :=
  (W2_arr m c w).symm
theorem c_hrest0 (c : Dev nD) : ∀ b : Ref sig .tc, b ∉ Finset.univ.image (Pipeline.arrRef spec0) → W2 m c b = V1 m c b :=
  fun b hb => W2_of_ne m c b fun w e => hb (Finset.mem_image.mpr ⟨w, Finset.mem_univ _, e⟩)
theorem c_hF1 (c : Dev nD) (w : Fin cfg1.W) :
    (dat1 (V7 m) c).arrAt w cfg1.N = (fun b : Ref sig .tc => W8 m c b) (Pipeline.arrRef spec1 w) :=
  (W8_arr m c w).symm
theorem c_hrest1 (c : Dev nD) : ∀ b : Ref sig .tc, b ∉ Finset.univ.image (Pipeline.arrRef spec1) → W8 m c b = V7 m c b :=
  fun b hb => W8_of_ne m c b fun w e => hb (Finset.mem_image.mpr ⟨w, Finset.mem_univ _, e⟩)

/-! ### The arguments end as launched: no host operation writes one, and a region reads it through an input window
    (whose array the pipeline leaves as entered) or does not touch it -/

theorem W9_main_arg0 (c : Dev nD) : W9 m c (Proc.devRef .tc main_arg0) = m ((c : Thread nD τ).loc main_arg0) :=
  calc W9 m c (Proc.devRef .tc main_arg0)
    _ = W8 m c (Proc.devRef .tc main_arg0) := StableHlo.after_of_writes_sub hostOps2 _ hostOps2_writes (by decide)
    _ = W7 m c (Proc.devRef .tc main_arg0) := (W8_arr m c 0).trans (((dat1 (V7 m) c).arrAt_in 0 rfl _).trans (A_eq1 (V7 m) c 0))
    _ = W6 m c (Proc.devRef .tc main_arg0) := StableHlo.after_of_writes_sub hostOps1_4 _ hostOps1_4_writes (by decide)
    _ = W5 m c (Proc.devRef .tc main_arg0) := StableHlo.after_of_writes_sub hostOps1_3 _ hostOps1_3_writes (by decide)
    _ = W4 m c (Proc.devRef .tc main_arg0) := StableHlo.after_of_writes_sub hostOps1_2 _ hostOps1_2_writes (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl

theorem W9_main_arg1 (c : Dev nD) : W9 m c (Proc.devRef .tc main_arg1) = m ((c : Thread nD τ).loc main_arg1) :=
  calc W9 m c (Proc.devRef .tc main_arg1)
    _ = W8 m c (Proc.devRef .tc main_arg1) := StableHlo.after_of_writes_sub hostOps2 _ hostOps2_writes (by decide)
    _ = W7 m c (Proc.devRef .tc main_arg1) := W8_of_ne m c main_arg1 (by decide)
    _ = W6 m c (Proc.devRef .tc main_arg1) := StableHlo.after_of_writes_sub hostOps1_4 _ hostOps1_4_writes (by decide)
    _ = W5 m c (Proc.devRef .tc main_arg1) := StableHlo.after_of_writes_sub hostOps1_3 _ hostOps1_3_writes (by decide)
    _ = W4 m c (Proc.devRef .tc main_arg1) := StableHlo.after_of_writes_sub hostOps1_2 _ hostOps1_2_writes (by decide)
    _ = W3 m c (Proc.devRef .tc main_arg1) := StableHlo.after_of_writes_sub hostOps1_1 _ hostOps1_1_writes (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-! ## The proof data family and the thread state -/

/-- Every pipeline's proof data, each at its region's entry contents (a literal `match`, so that the pinned
    configuration at a numeral reduces to the printed one). -/
def c_pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V7 m) c
abbrev c_𝒱₀ : Variants := Variants.none
/-- No core owes another anything: no level is assigned. -/
abbrev c_L : GSem nD τ sig → Finset Unit := fun _ => ∅
abbrev c_lv : GSem nD τ sig → Unit → ℕ := fun _ _ => 0
/-- What rides beside the buffers through every segment: the core's generator register at some state and its dues, at
    nothing. -/
abbrev c_R (c : Dev nD) : sProp 𝕄 := iprop((∃ r, prngReg c r) ∗ ∃ W, owes (c : Thread nD τ) (0 : CellTallies nD τ sig Unit) W)
/-- A host stretch as a segment over the unscoped references from the contents `W`, `c_R` riding along: it ends with
    those references at what the stretch's operations leave, the next boundary's contents by name. -/
abbrev c_hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ c_𝒱₀ c_L c_lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W c_R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev c_Tₙ (c : Dev nD) : sProp 𝕄 := iprop(StableHlo.held (c : Thread nD τ) (Pipeline.ucRefs τ sig) (W9 m c) ∗ ∃ r, prngReg c r)

/-! ## The regions as segments -/

-- applying a library lemma stated over the pinned configuration unifies with it only when unification may unfold plain
-- definitions in a metavariable's type
set_option backward.isDefEq.respectTransparency.types false in
/-- Region 0 over the thread state: entered from every unscoped buffer at `W1`, left at `W2`. Its arrays are
    split out of the unscoped buffers at entry and put back at the exit contents; the generator register and the scoped
    buffers no window stages go into the region invariant's first position and come back from its last one, by the two
    entailments of the body's facts; nothing is owed; the kernel has no semaphore of its own. -/
def c_reg0 (H : BodyFacts F) : Pipeline.RegionSeg (pcfgs (F := F)) adm (c_pdats m) () defs₀ c_𝒱₀ c_L c_lv 0 where
  win := launch0.win.to₀
  block_pos := launch0.block_pos
  stage_whole := launch0.stage_whole
  K := PEmpty
  osem k := k.elim
  ho := Pipeline.OwnSemFacts.none _
  hbody c := (H.b0 (V1 m) c).loose
  hwaits := Pipeline.hwaits_of_owed_zero _ _ _ _ c_L c_lv 0 fun _ _ => rfl
  pre c := iprop(StableHlo.held (c : Thread nD τ) (Pipeline.ucRefs τ sig) (W1 m c) ∗ c_R c)
  post c := iprop(StableHlo.held (c : Thread nD τ) (Pipeline.ucRefs τ sig) (W2 m c) ∗ c_R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (c_pdats m) launch0.win launch0.arr_whole c
      ((c_pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show (_ : sProp 𝕄) ⊢ Pipeline.ΦA spec0 c from ?_).trans (H.in0 (V1 m) c)
    unfold Pipeline.ΦA
    iintro ⟨Hp, -, Hr⟩
    isplitl [Hr]; · iexact Hr
    iexact Hp
  hout c := by
    refine (H.out0 (V1 m) c).trans (show Pipeline.ΦA spec0 c ⊢ (_ : sProp 𝕄) from ?_)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (c_pdats m) ((c_pdats m 0 c).share_full fun _ => rfl)
      (V1 m c) (fun b => W2 m c b) ((c_pdats m 0 c).arrAt · cfg0.N) (c_hF0 m c) (c_hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with it only when unification may unfold plain
-- definitions in a metavariable's type
set_option backward.isDefEq.respectTransparency.types false in
/-- Region 1 over the thread state: entered from every unscoped buffer at `W7`, left at `W8`. Its arrays are
    split out of the unscoped buffers at entry and put back at the exit contents; the generator register and the scoped
    buffers no window stages go into the region invariant's first position and come back from its last one, by the two
    entailments of the body's facts; nothing is owed; the kernel has no semaphore of its own. -/
def c_reg1 (H : BodyFacts F) : Pipeline.RegionSeg (pcfgs (F := F)) adm (c_pdats m) () defs₀ c_𝒱₀ c_L c_lv 1 where
  win := launch1.win.to₀
  block_pos := launch1.block_pos
  stage_whole := launch1.stage_whole
  K := PEmpty
  osem k := k.elim
  ho := Pipeline.OwnSemFacts.none _
  hbody c := (H.b1 (V7 m) c).loose
  hwaits := Pipeline.hwaits_of_owed_zero _ _ _ _ c_L c_lv 1 fun _ _ => rfl
  pre c := iprop(StableHlo.held (c : Thread nD τ) (Pipeline.ucRefs τ sig) (W7 m c) ∗ c_R c)
  post c := iprop(StableHlo.held (c : Thread nD τ) (Pipeline.ucRefs τ sig) (W8 m c) ∗ c_R c)
  X c := iprop(∃ r, prngReg c r)
  Y c := iprop(∃ r, prngReg c r)
  Z c := Pipeline.unscopedRest (Ix := Unit) (Name := ℕ) (U := UR sig nD τ) (Lvl := ℕ) spec1 c (V7 m c)
  hentry c := by
    rw [Pipeline.ownSems0_none]
    have hsplit := Pipeline.arrays_of_unscopedBufs (p := 1) (pcfgs (F := F)) adm (c_pdats m) launch1.win launch1.arr_whole c
      ((c_pdats m 1 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show (_ : sProp 𝕄) ⊢ Pipeline.ΦA spec1 c from ?_).trans (H.in1 (V7 m) c)
    unfold Pipeline.ΦA
    iintro ⟨Hp, -, Hr⟩
    isplitl [Hr]; · iexact Hr
    iexact Hp
  hout c := by
    refine (H.out1 (V7 m) c).trans (show Pipeline.ΦA spec1 c ⊢ (_ : sProp 𝕄) from ?_)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (c_pdats m) ((c_pdats m 1 c).share_full fun _ => rfl)
      (V7 m c) (fun b => W8 m c b) ((c_pdats m 1 c).arrAt · cfg1.N) (c_hF1 m c) (c_hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's nine segments in order: a host segment per stretch from its boundary's contents, a region per kernel call. -/
abbrev c_segs (H : BodyFacts F) : List (Pipeline.Seg (pcfgs (F := F)) adm (c_pdats m) () defs₀ c_𝒱₀ c_L c_lv) :=
  [ .host (c_hseg hostOps0 hostOps0_sub hostOps0_fresh (W0 m)),
    .region (c_reg0 m H),
    .host (c_hseg hostOps1 hostOps1_sub hostOps1_fresh (W2 m)),
    .host (c_hseg hostOps1_1 hostOps1_1_sub hostOps1_1_fresh (W3 m)),
    .host (c_hseg hostOps1_2 hostOps1_2_sub hostOps1_2_fresh (W4 m)),
    .host (c_hseg hostOps1_3 hostOps1_3_sub hostOps1_3_fresh (W5 m)),
    .host (c_hseg hostOps1_4 hostOps1_4_sub hostOps1_4_fresh (W6 m)),
    .region (c_reg1 m H),
    .host (c_hseg hostOps2 hostOps2_sub hostOps2_fresh (W8 m)) ]

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has every unscoped buffer of every core at the last
    boundary's contents `W9`. The launch over the segments: @main is the chain of the segments' fragments; the thread
    states chain by name; the first one is made from what the launch deals; the last one is read against the final state. -/
theorem run_all (H : BodyFacts F) (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W9 m c b) :=
  Pipeline.θ_run_regions_kit (pcfgs (F := F)) adm (c_pdats m) () cellOf_inj emb₁ defs₀ c_𝒱₀ c_L c_lv m ρ main (c_segs m H)
    (fun c Q => by
      rewrite [main_chain c, Pipeline.Seg.run_eq_chain,
        show (c_segs m H).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      exact .rfl)
    (by simp only [c_segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ c_R c)) (Tₙ := c_Tₙ m)
    (hch := ⟨fun _ => .rfl, fun _ => .rfl, fun _ => .rfl, fun _ => .rfl, fun _ => .rfl, fun _ => .rfl, fun _ => .rfl,
      fun _ => .rfl, fun _ => .rfl, fun c => by
        show (iprop(StableHlo.held (c : Thread nD τ) (Pipeline.ucRefs τ sig) (W9 m c) ∗ c_R c) : sProp 𝕄)
          ⊢ iprop(c_Tₙ m c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach c_L c_lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

/-- info: 'Cert.Kernel.Hand.run_all' depends on axioms: [propext, Classical.choice, Quot.sound] -/
#guard_msgs in #print axioms run_all

end Cert.Kernel.Hand

end
-- ==== Proof.KI.Defs0.lean ====
/-
  Region 0 (the histogram pass), at the buffer contents `V` the region is entered with: the block of each window at a
  grid point, what one grid point does to the accumulator (one row of 128 lanes: the point's partial histogram added to
  what the accumulator held), the accumulator after each point by recursion on the point, and the proof data of the
  pipeline: inputs left in place, the output block (stored at the last point only) and the carried accumulator both at
  that recursion.
-/
import proofs.«154215_j627065225459_1_alg».proof.Proof.Gen.KernelIdeal.Launch
import proofs.«154215_j627065225459_1_alg».proof.Proof.Gen.KernelIdeal.Skeleton
import proofs.«154215_j627065225459_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One grid point on the accumulator: the block's partial histogram added to what the accumulator held. -/
def step0 (x0 : Vec F S16384x2 .f32) (x1 : Vec F S16384x1 .i32) (s : Vec F S1x128 .f32) : Vec F S1x128 .f32 :=
  k0_pay1 (k0_pay3 x0 x1 s)

/-- The accumulator after grid point `n`: the first point starts from the zero row, every later one from what the point
    before left. -/
def acc0 (c : Dev nD) : (n : ℕ) → n < cfg0.N → Vec F S1x128 .f32
  | 0, h => step0 (iblk0 V c 0 ⟨0, h⟩) (iblk0 V c 1 ⟨0, h⟩) (k0_pay2 (F := F))
  | n + 1, h => step0 (iblk0 V c 0 ⟨n + 1, h⟩) (iblk0 V c 1 ⟨n + 1, h⟩) (acc0 c n (Nat.lt_of_succ_lt h))

theorem acc0_zero (c : Dev nD) (h : 0 < cfg0.N) :
    acc0 V c 0 h = step0 (iblk0 V c 0 ⟨0, h⟩) (iblk0 V c 1 ⟨0, h⟩) (k0_pay2 (F := F)) := rfl
theorem acc0_succ (c : Dev nD) (n : ℕ) (h : n + 1 < cfg0.N) :
    acc0 V c (n + 1) h = step0 (iblk0 V c 0 ⟨n + 1, h⟩) (iblk0 V c 1 ⟨n + 1, h⟩) (acc0 V c n (Nat.lt_of_succ_lt h)) := rfl

/-- The accumulator scratch, a whole scoped buffer of the kernel's own. -/
abbrev scM0 : Memref sig .tc .vmem S1x128 .f32 := Memref.whole cc0_scratch0

/-- The scoped buffers the region neither stages nor uses (the other region's), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_scratch0), ((c : Thread nD τ).loc cc1_scratch0) ↦{fullShare} f))

/-- The region invariant before position `n`: before the first point every scoped buffer at anything; afterwards the
    accumulator at what the point before left, the other scoped buffers at anything, the generator register at some state. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ rest0 (F := F) c ∗ (∃ r, prngReg c r))

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

end

end Cert.KernelIdeal.Hand

end
-- ==== Proof.KI.Body0.lean ====
/-
  Region 0 (the histogram pass): the body obligation. At every grid point the kernel body, run on the windows' current
  buffers and the accumulator scratch, leaves each input's buffer at its block, the accumulator at the row the recursion
  `acc0` names for the point (the zero row plus the point's partial histogram at the first point; what the point before
  left plus the point's partial histogram afterwards), and the output buffer untouched except at the last point, where it
  receives the accumulator. The grid's 1024 points fall in three cases by the two conditions of the body (first point;
  last point), each decided in closed form over the grid; in each case the body is run once, generically in the memrefs
  and the contents found, and the obligation is the case's run at the point's blocks.
-/
import proofs.«154215_j627065225459_1_alg».proof.Proof.KI.Defs0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every load and store of the body are zero. -/
theorem a_hz2 : (![0, 0] : Fin 2 → Nat) = fun _ => 0 := funext fun a => by fin_cases a <;> rfl

/-! ## The body's two conditions, in closed form over the grid -/

/-- The condition under which the body zeroes the accumulator, from the grid coordinate. -/
abbrev cond0_first (i : grid0.Coords) : Prop :=
  Scalar.cmpi .ne (Scalar.extui (Scalar.cmpi .eq (BitVec.ofNat 32 (i 0).val) 0#32)) 0#32 = 1#1
/-- It holds at the first point only. -/
theorem hcond0_first : ∀ t : Fin cfg0.N, cond0_first (grid0.coords t) ↔ t.val = 0 :=
  (by decide +kernel : ∀ t : Fin grid0.N, cond0_first (grid0.coords t) ↔ t.val = 0)
/-- The condition under which the body stores the accumulator into the output buffer. -/
abbrev cond0_last (i : grid0.Coords) : Prop := k0_cond2 i = 1#1
/-- It holds at the last point only. -/
theorem hcond0_last : ∀ t : Fin cfg0.N, cond0_last (grid0.coords t) ↔ t.val = 1023 :=
  (by decide +kernel : ∀ t : Fin grid0.N, cond0_last (grid0.coords t) ↔ t.val = 1023)

/-! ## Whole-buffer loads and stores -/

/-- A load of a whole memref through the whole-shape rectangle reads its contents. -/
theorem a_readAt_unread {S : Shape} {e : EltTy} (m : Memref sig .tc .vmem S e) (h : m.IsWhole)
    {off : Fin S.rank → Nat} (hoff : off = fun _ => 0) (inb : ∀ a, off a + S.size a ≤ S.size a) (X : S.Idx → Elt F e) :
    View.readAt (Elt F) m.view (Rect.unit off S.size inb).toLoadRect (h.unread X) = X := by
  rw [View.readAt_eq_ld, h.read_unread, View.ld_unit_zero hoff inb]

/-- The buffer after stores the last of which is through the whole-shape rectangle reads that store's payload. -/
theorem a_read_writes_unit {S : Shape} {e : EltTy} (v : View sig .tc .vmem S e) (f : v.ty.Contents (Elt F))
    {off : Fin S.rank → Nat} (hoff : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hoff inb y⟩),
    View.canon_cons_unit_zero hoff inb]

/-! ## Where the windows are idle -/

/-- The inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
/-- Off the last point the output window is idle (the body stores nothing into it) -/
theorem idleAt0_2 : ∀ t : Fin cfg0.N, ¬cond0_last (grid0.coords t) → cfg0.idle 2 (grid0.coords t) = true := by decide +kernel
/-- and its block is not written back; -/
theorem noFlush0_2 : ∀ t : Fin cfg0.N, ¬cond0_last (grid0.coords t) → (cfg0.win 2).flush t = false := by decide +kernel
/-- at the last point it is live. -/
theorem liveAt0_2 : ∀ t : Fin cfg0.N, cond0_last (grid0.coords t) → cfg0.idle 2 (grid0.coords t) = false := by decide +kernel

/-! ## The staging memrefs at a point, and the launch's invariant -/

/-- Each window's current staging memref at point `t`, and its wholeness. -/
abbrev ms0_0 (t : Fin cfg0.N) : Memref sig .tc .vmem S16384x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)

/-- What the launch hands the region: the accumulator scratch owned at some contents, the other scoped buffers at
    anything, the generator register at some state. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA; rw [scopedRest0_eq]; unfold rest0; simp only [scM0, owns_whole]; try rfl

/-! ## The body's run in each case, on any whole memrefs -/

set_option maxHeartbeats 1000000 in
/-- The body at the first point (not the last): the accumulator, found at anything, is zeroed, then the point's partial
    histogram is added; the output buffer is not touched. -/
theorem run0_A (c : Dev nD) (i : grid0.Coords)
    (arg1 : Memref sig .tc .vmem S16384x2 .f32) (harg1 : arg1.IsWhole)
    (arg2 : Memref sig .tc .vmem S16384x1 .i32) (harg2 : arg2.IsWhole)
    (arg3 : Memref sig .tc .vmem S1x128 .f32) (harg3 : arg3.IsWhole)
    (arg4 : Memref sig .tc .vmem S1x128 .f32) (harg4 : arg4.IsWhole)
    (hc0 : cond0_first i) (hc1 : ¬cond0_last i)
    (x0 : Vec F S16384x2 .f32) (x1 : Vec F S16384x1 .i32) (xi : Vec F S1x128 .f32)
    (E : Set ℕ) (K : PUnit → sProp 𝕄) :
    iprop(owns (c : Thread nD τ) arg1 fullShare x0 ∗ owns (c : Thread nD τ) arg2 fullShare x1
        ∗ owns (c : Thread nD τ) arg3 fullShare xi ∗ (∃ d, owns (c : Thread nD τ) arg4 fullShare d)
        ∗ (iprop(owns (c : Thread nD τ) arg1 fullShare x0 ∗ owns (c : Thread nD τ) arg2 fullShare x1
            ∗ owns (c : Thread nD τ) arg3 fullShare xi ∗ owns (c : Thread nD τ) arg4 fullShare (step0 x0 x1 (k0_pay2 (F := F)))) -∗ K ⟨⟩))
      ⊢ wp frame (wpE (defs₀ (F := F)) Variants.none c none) E (cc0_hist_kernel i arg1 harg1 arg2 harg2 arg3 harg3 arg4 harg4) K := by
  simp only [cc0_hist_kernel_eq_skeleton]; unfold cc0_hist_kernel_skel
  unfold owns
  iintro ⟨⟨%f0, %hf0, H0⟩, ⟨%f1, %hf1, H1⟩, ⟨%f2, %hf2, H2⟩, ⟨%ds, %fs, -, HS⟩, Hk⟩
  obtain rfl := harg1.eq_unread hf0; obtain rfl := harg2.eq_unread hf1
  obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS
  ipureintro
  sl_unfold_run_names
  rw [a_read_writes_unit _ _ a_hz2 inb_S1x128_S1x128_0_0, View.readCov_unit_zero _ a_hz2 inb_S1x128_S1x128_0_0]
  simp only [a_readAt_unread _ harg1 a_hz2 inb_S16384x2_S16384x2_0_0, a_readAt_unread _ harg2 a_hz2 inb_S16384x1_S16384x1_0_0]
  rfl

set_option maxHeartbeats 1000000 in
/-- The body at a point neither first nor last: the point's partial histogram is added to the accumulator; the output
    buffer is not touched. -/
theorem run0_B (c : Dev nD) (i : grid0.Coords)
    (arg1 : Memref sig .tc .vmem S16384x2 .f32) (harg1 : arg1.IsWhole)
    (arg2 : Memref sig .tc .vmem S16384x1 .i32) (harg2 : arg2.IsWhole)
    (arg3 : Memref sig .tc .vmem S1x128 .f32) (harg3 : arg3.IsWhole)
    (arg4 : Memref sig .tc .vmem S1x128 .f32) (harg4 : arg4.IsWhole)
    (hc0 : ¬cond0_first i) (hc1 : ¬cond0_last i)
    (x0 : Vec F S16384x2 .f32) (x1 : Vec F S16384x1 .i32) (xi : Vec F S1x128 .f32) (s : Vec F S1x128 .f32)
    (E : Set ℕ) (K : PUnit → sProp 𝕄) :
    iprop(owns (c : Thread nD τ) arg1 fullShare x0 ∗ owns (c : Thread nD τ) arg2 fullShare x1
        ∗ owns (c : Thread nD τ) arg3 fullShare xi ∗ owns (c : Thread nD τ) arg4 fullShare s
        ∗ (iprop(owns (c : Thread nD τ) arg1 fullShare x0 ∗ owns (c : Thread nD τ) arg2 fullShare x1
            ∗ owns (c : Thread nD τ) arg3 fullShare xi ∗ owns (c : Thread nD τ) arg4 fullShare (step0 x0 x1 s)) -∗ K ⟨⟩))
      ⊢ wp frame (wpE (defs₀ (F := F)) Variants.none c none) E (cc0_hist_kernel i arg1 harg1 arg2 harg2 arg3 harg3 arg4 harg4) K := by
  simp only [cc0_hist_kernel_eq_skeleton]; unfold cc0_hist_kernel_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1
  obtain rfl := harg3.eq_unread hf2; obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS
  ipureintro
  sl_unfold_run_names
  rw [a_read_writes_unit _ _ a_hz2 inb_S1x128_S1x128_0_0]
  simp only [a_readAt_unread _ harg1 a_hz2 inb_S16384x2_S16384x2_0_0, a_readAt_unread _ harg2 a_hz2 inb_S16384x1_S16384x1_0_0]
  rw [a_readAt_unread _ harg4 a_hz2 inb_S1x128_S1x128_0_0]
  rfl

set_option maxHeartbeats 1000000 in
/-- The body at the last point (not the first): the point's partial histogram is added to the accumulator, and the
    accumulator, read back, is stored into the output buffer. -/
theorem run0_C (c : Dev nD) (i : grid0.Coords)
    (arg1 : Memref sig .tc .vmem S16384x2 .f32) (harg1 : arg1.IsWhole)
    (arg2 : Memref sig .tc .vmem S16384x1 .i32) (harg2 : arg2.IsWhole)
    (arg3 : Memref sig .tc .vmem S1x128 .f32) (harg3 : arg3.IsWhole)
    (arg4 : Memref sig .tc .vmem S1x128 .f32) (harg4 : arg4.IsWhole)
    (hc0 : ¬cond0_first i) (hc1 : cond0_last i)
    (x0 : Vec F S16384x2 .f32) (x1 : Vec F S16384x1 .i32) (s : Vec F S1x128 .f32)
    (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare s
        ∗ (iprop(owns (c : Thread nD τ) arg1 fullShare x0 ∗ owns (c : Thread nD τ) arg2 fullShare x1
            ∗ owns (c : Thread nD τ) arg3 fullShare (step0 x0 x1 s) ∗ owns (c : Thread nD τ) arg4 fullShare (step0 x0 x1 s)) -∗ K ⟨⟩))
      ⊢ wp frame (wpE (defs₀ (F := F)) Variants.none c none) E (cc0_hist_kernel i arg1 harg1 arg2 harg2 arg3 harg3 arg4 harg4) K := by
  simp only [cc0_hist_kernel_eq_skeleton]; unfold cc0_hist_kernel_skel
  unfold owns
  iintro ⟨⟨%f0, %hf0, H0⟩, ⟨%f1, %hf1, H1⟩, ⟨%d2, %f2, -, H2⟩, ⟨%fs, %hfs, HS⟩, Hk⟩
  obtain rfl := harg1.eq_unread hf0; obtain rfl := harg2.eq_unread hf1
  obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_run_names
    rw [a_read_writes_unit _ _ a_hz2 inb_S1x128_S1x128_0_0, View.readCov_unit_zero _ a_hz2 inb_S1x128_S1x128_0_0]
    simp only [a_readAt_unread _ harg1 a_hz2 inb_S16384x2_S16384x2_0_0, a_readAt_unread _ harg2 a_hz2 inb_S16384x1_S16384x1_0_0]
    rw [a_readAt_unread _ harg4 a_hz2 inb_S1x128_S1x128_0_0]
    rfl
  iexists _; isplitr
  swap; · iexact HS
  ipureintro
  sl_unfold_run_names
  rw [a_read_writes_unit _ _ a_hz2 inb_S1x128_S1x128_0_0]
  simp only [a_readAt_unread _ harg1 a_hz2 inb_S16384x2_S16384x2_0_0, a_readAt_unread _ harg2 a_hz2 inb_S16384x1_S16384x1_0_0]
  rw [a_readAt_unread _ harg4 a_hz2 inb_S1x128_S1x128_0_0]
  rfl

section
variable (V : (c : Dev nD) → (b : Ref sig .tc) → Buf (Elt F) ((c : Thread nD τ).loc b))

/-! ## What the body finds in the inputs' buffers -/

/-- Each input's current buffer holds its block at every point (both are fetched at every point). -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

end

section
variable (V : (c : Dev nD) → (b : Ref sig .tc) → Buf (Elt F) ((c : Thread nD τ).loc b))

/-! ## The invariant and the accumulator, by the point -/

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (acc0 V c n hn) ∗ rest0 (F := F) c ∗ (∃ r, prngReg c r)) := rfl

theorem PhiS0_pos (c : Dev nD) (n : ℕ) (h : n ≤ cfg0.N) (hz : n ≠ 0) :
    PhiS0 V c n h = iprop(owns (c : Thread nD τ) scM0 fullShare (acc0 V c (n - 1) (by omega)) ∗ rest0 (F := F) c ∗ (∃ r, prngReg c r)) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-- At the first point the accumulator starts from the zero row. -/
theorem acc0_first (c : Dev nD) (t : Fin cfg0.N) (hz : t.val = 0) :
    acc0 V c t.val t.isLt = step0 (iblk0 V c 0 t) (iblk0 V c 1 t) (k0_pay2 (F := F)) := by
  obtain ⟨n, hn⟩ := t
  cases n with
  | zero => rfl
  | succ n => exact absurd hz (Nat.succ_ne_zero n)

/-- At any later point it starts from what the point before left. -/
theorem acc0_pos (c : Dev nD) (t : Fin cfg0.N) (hz : t.val ≠ 0) :
    acc0 V c t.val t.isLt = step0 (iblk0 V c 0 t) (iblk0 V c 1 t) (acc0 V c (t.val - 1) (Nat.lt_of_le_of_lt (Nat.sub_le _ _) t.isLt)) := by
  obtain ⟨n, hn⟩ := t
  cases n with
  | zero => exact absurd rfl hz
  | succ n => rfl

/-! ## The body obligation -/

set_option maxHeartbeats 4800000 in
/-- The body at any point, the windows one by one: the inputs' buffers hold their blocks; by the point's position the
    accumulator is found at anything (first point) or at what the point before left, and is left at this point's value;
    the output buffer is handed back untouched except at the last point, where it receives the accumulator. -/
theorem sound_body0 (c : Dev nD) (t : Fin cfg0.N) :
    iprop((dat0 V c).Φ t.castSucc ∗ (dat0 V c).owesAt () t.castSucc
        ∗ (∃ d, owns (c : Thread nD τ) (ms0_0 t) fullShare ((dat0 V c).before 0 t d))
        ∗ (∃ d, owns (c : Thread nD τ) (ms0_1 t) fullShare ((dat0 V c).before 1 t d))
        ∗ (∃ d, owns (c : Thread nD τ) (ms0_2 t) fullShare ((dat0 V c).before 2 t d)))
      ⊢ wp frame (wpE (defs₀ (F := F)) Variants.none c none) Set.univ (bodyAt0 t) (fun _ =>
          iprop((dat0 V c).Φ t.succ ∗ (dat0 V c).owesAt () t.succ
            ∗ (dat0 V c).leavesExact 0 t ∗ (dat0 V c).leavesExact 1 t ∗ (dat0 V c).leavesExact 2 t)) := by
  unfold bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 1024 := lt_of_lt_of_eq t.isLt (show cfg0.N = 1024 from N_0)
  by_cases h0 : t.val = 0
  · have h1 : ¬t.val = 1023 := by omega
    rw [Dat.leavesExact_idle (dat0 V c) 2 t (idleAt0_2 t (fun h => h1 ((hcond0_last t).mp h))) (noFlush0_2 t (fun h => h1 ((hcond0_last t).mp h)))]
    rw [acc0_first V c t h0]
    rw [PhiS0_castSucc V c t, PhiS0_zero V c _ _ h0, PhiA0_eq]
    iintro ⟨⟨⟨HS, Hr⟩, Hg⟩, Ho, ⟨%d0, H0⟩, ⟨%d1, H1⟩, ⟨%d2, H2⟩⟩
    iapply (run0_A c (grid0.coords t) (ms0_0 t) (hs0_0 t) (ms0_1 t) (hs0_1 t) (ms0_2 t) (hs0_2 t) scM0 (Memref.isWhole_whole _)
      ((hcond0_first t).mpr h0) (fun h => h1 ((hcond0_last t).mp h)) (iblk0 V c 0 t) (iblk0 V c 1 t) ((dat0 V c).before 2 t d2) Set.univ _)
    isplitl [H0]; · iexact H0
    isplitl [H1]; · iexact H1
    isplitl [H2]; · iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexists _; iexact H2
  · by_cases h1 : t.val = 1023
    · rw [show (dat0 V c).leavesExact 2 t = owns (c : Thread nD τ) (ms0_2 t) fullShare ((dat0 V c).after 2 t) from by
        unfold Dat.leavesExact; rw [liveAt0_2 t ((hcond0_last t).mpr h1)], after0_2]
      rw [acc0_pos V c t h0]
      rw [PhiS0_castSucc V c t, PhiS0_pos V c _ _ h0]
      iintro ⟨⟨HS, Hr, Hg⟩, Ho, ⟨%d0, H0⟩, ⟨%d1, H1⟩, ⟨%d2, H2⟩⟩
      iapply (run0_C c (grid0.coords t) (ms0_0 t) (hs0_0 t) (ms0_1 t) (hs0_1 t) (ms0_2 t) (hs0_2 t) scM0 (Memref.isWhole_whole _)
        (fun h => h0 ((hcond0_first t).mp h)) ((hcond0_last t).mpr h1) (iblk0 V c 0 t) (iblk0 V c 1 t)
        (acc0 V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
    · rw [Dat.leavesExact_idle (dat0 V c) 2 t (idleAt0_2 t (fun h => h1 ((hcond0_last t).mp h))) (noFlush0_2 t (fun h => h1 ((hcond0_last t).mp h)))]
      rw [acc0_pos V c t h0]
      rw [PhiS0_castSucc V c t, PhiS0_pos V c _ _ h0]
      iintro ⟨⟨HS, Hr, Hg⟩, Ho, ⟨%d0, H0⟩, ⟨%d1, H1⟩, ⟨%d2, H2⟩⟩
      iapply (run0_B c (grid0.coords t) (ms0_0 t) (hs0_0 t) (ms0_1 t) (hs0_1 t) (ms0_2 t) (hs0_2 t) scM0 (Memref.isWhole_whole _)
        (fun h => h0 ((hcond0_first t).mp h)) (fun h => h1 ((hcond0_last t).mp h)) (iblk0 V c 0 t) (iblk0 V c 1 t)
        ((dat0 V c).before 2 t d2) (acc0 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the launch's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨HS, Hr, Hg⟩
  isplitl [HS Hr]
  · isplitl [HS]; · iexists _; iexact HS
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 1024 := N_0; omega)

end

end Cert.KernelIdeal.Hand

end
-- ==== Proof.KI.Defs1.lean ====
/-
  Region 1 (the weighted-loss pass), at the buffer contents `V` the region is entered with: the block of each window at a
  grid point, what one grid point does to the accumulator (one element: the block's sum of weight × cross-entropy added
  to what the accumulator held), the accumulator after each point by recursion on the point, and the proof data of the
  pipeline: inputs left in place, the output block (stored at the last point only) and the carried accumulator both at
  that recursion.
-/
import proofs.«154215_j627065225459_1_alg».proof.Proof.Gen.KernelIdeal.Launch
import proofs.«154215_j627065225459_1_alg».proof.Proof.Gen.KernelIdeal.Skeleton
import proofs.«154215_j627065225459_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One grid point on the accumulator: the block's sum of weight × cross-entropy added to what the accumulator held. -/
def step1 (x0 : Vec F S16384x2 .f32) (x1 : Vec F S16384x1 .i32) (xb : Vec F S1x128 .f32) (s : Vec F S1x1 .f32) : Vec F S1x1 .f32 :=
  k1_pay1 (k1_pay7 x0 x1) (k1_pay8 x0 x1) 0#32 29#32 xb s

/-- The accumulator after grid point `n`: the first point starts from zero, every later one from what the point before left. -/
def acc1 (c : Dev nD) : (n : ℕ) → n < cfg1.N → Vec F S1x1 .f32
  | 0, h => step1 (iblk1 V c 0 ⟨0, h⟩) (iblk1 V c 1 ⟨0, h⟩) (iblk1 V c 2 ⟨0, h⟩) (k1_pay2 (F := F))
  | n + 1, h => step1 (iblk1 V c 0 ⟨n + 1, h⟩) (iblk1 V c 1 ⟨n + 1, h⟩) (iblk1 V c 2 ⟨n + 1, h⟩) (acc1 c n (Nat.lt_of_succ_lt h))

theorem acc1_zero (c : Dev nD) (h : 0 < cfg1.N) :
    acc1 V c 0 h = step1 (iblk1 V c 0 ⟨0, h⟩) (iblk1 V c 1 ⟨0, h⟩) (iblk1 V c 2 ⟨0, h⟩) (k1_pay2 (F := F)) := rfl
theorem acc1_succ (c : Dev nD) (n : ℕ) (h : n + 1 < cfg1.N) :
    acc1 V c (n + 1) h = step1 (iblk1 V c 0 ⟨n + 1, h⟩) (iblk1 V c 1 ⟨n + 1, h⟩) (iblk1 V c 2 ⟨n + 1, h⟩) (acc1 V c n (Nat.lt_of_succ_lt h)) := rfl

/-- The accumulator scratch, a whole scoped buffer of the kernel's own. -/
abbrev scM1 : Memref sig .tc .vmem S1x1 .f32 := Memref.whole cc1_scratch0

/-- The scoped buffers the region neither stages nor uses (the other region's), each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f))

/-- The region invariant before position `n`: before the first point every scoped buffer at anything; afterwards the
    accumulator at what the point before left, the other scoped buffers at anything, the generator register at some state. -/
def PhiS1 (c : Dev nD) : (n : ℕ) → n ≤ cfg1.N → sProp 𝕄
  | 0, _ => Pipeline.ΦA spec1 c
  | n + 1, hn => iprop(owns (c : Thread nD τ) scM1 fullShare (acc1 V c n hn) ∗ rest1 (F := F) c ∗ (∃ r, prngReg c r))

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = acc1 V c t.val t.isLt := by dsimp only [dat1]

end

end Cert.KernelIdeal.Hand

end
-- ==== Proof.KI.Body1.lean ====
/-
  Region 1 (the weighted-loss pass): the body obligation. The kernel's body on any whole staging memrefs, in each of
  the three cases its two conditionals leave on a grid of 1024 points — the first point (the accumulator is zeroed, then
  takes one step), a middle point (one step from what the point before left), the last point (one step, and the
  accumulator's value stored to the output block) —, each stated directly over the payloads: the accumulator ends at
  `step1` of the point's input blocks and of what it held. Then the conditions in closed form over the grid, where the
  output window is idle, what the input windows' buffers hold, and the obligation by cases on the point; and the
  invariant's two ends: the launch's invariant is the one before the first point, and the one after the last point gives
  the launch's back.
-/
import proofs.«154215_j627065225459_1_alg».proof.Proof.KI.Defs1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first conditional (the accumulator is zeroed): the grid coordinate is 0. -/
abbrev b_cond1_first (i : grid1.Coords) : Prop := (Scalar.cmpi .ne (Scalar.extui (Scalar.cmpi .eq (BitVec.ofNat 32 (i 0).val) 0#32)) 0#32) = 1#1
/-- The body's second conditional (the accumulator is copied to the output block): the grid coordinate is 1023. -/
abbrev b_cond1_last (i : grid1.Coords) : Prop := k1_cond2 i = 1#1

theorem b_zeros1 : (![0, 0] : Fin 2 → ℕ) = fun _ => 0 := by funext a; fin_cases a <;> rfl

/-- What a one-element buffer reads after a store through its whole rectangle, LAST of the stores: the payload. -/
theorem b_read_store1 {κ : Kind} {sp : Space} (v : View sig κ sp S1x1 .f32) (f : v.ty.Contents (Elt F))
    (inb : ∀ a, (![0, 0] : Fin 2 → ℕ) a + S1x1.size a ≤ S1x1.size a) (w : S1x1.Idx → Elt F .f32)
    (L : List (View.Piece (Elt F) S1x1 .f32)) :
    v.read (Elt F) (v.writes (Elt F) f ((⟨Rect.unit (s := S1x1) ![0, 0] S1x1.size inb, w⟩ : View.Piece (Elt F) S1x1 .f32) :: L)) = w := by
  have hcov : ∀ y : S1x1.Idx, ∃ p ∈ ((⟨Rect.unit (s := S1x1) ![0, 0] S1x1.size inb, w⟩ : View.Piece (Elt F) S1x1 .f32) :: L), y ∈ p.1.set :=
    fun y => ⟨_, List.mem_cons_self, View.mem_set_unit_zero (S := S1x1) b_zeros1 inb y⟩
  rw [View.read_writes_eq_canon v f _ hcov, View.canon_cons_unit_zero (S := S1x1) b_zeros1 inb w]

/-- A load through the whole rectangle of what one store through it left reads the payload. -/
theorem b_readCov_store1 {κ : Kind} {sp : Space} (v : View sig κ sp S1x1 .f32)
    (inb : ∀ a, (![0, 0] : Fin 2 → ℕ) a + S1x1.size a ≤ S1x1.size a) (w : S1x1.Idx → Elt F .f32) :
    v.readCov [(⟨Rect.unit (s := S1x1) ![0, 0] S1x1.size inb, w⟩ : View.Piece (Elt F) S1x1 .f32)] (Rect.unit (s := S1x1) ![0, 0] S1x1.size inb).toLoadRect = w :=
  View.readCov_unit_zero v b_zeros1 inb w

/-! ## The body, case by case, on any whole staging memrefs -/

set_option maxHeartbeats 1000000 in
/-- A point that is neither the first nor the last: from the inputs' buffers at their blocks, the output block at what it
    held and the accumulator at `s`, the body runs to the continuation with everything as it was but the accumulator,
    which is one step on from `s`. -/
theorem b_run1_mid (c : Dev nD) (i : grid1.Coords)
    (arg1 : Memref sig .tc .vmem S16384x2 .f32) (harg1 : arg1.IsWhole) (arg2 : Memref sig .tc .vmem S16384x1 .i32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S1x1 .f32) (harg5 : arg5.IsWhole)
    (hc0 : ¬b_cond1_first i) (hc1 : ¬b_cond1_last i)
    (x0 : Vec F S16384x2 .f32) (x1 : Vec F S16384x1 .i32) (xb : Vec F S1x128 .f32) (xi : Vec F S1x1 .f32) (s : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare xb
        ∗ owns (c : Thread nD τ) arg4 fullShare xi ∗ owns (c : Thread nD τ) arg5 fullShare s
        ∗ (iprop(owns (c : Thread nD τ) arg1 fullShare x0 ∗ owns (c : Thread nD τ) arg2 fullShare x1 ∗ owns (c : Thread nD τ) arg3 fullShare xb
            ∗ owns (c : Thread nD τ) arg4 fullShare xi ∗ owns (c : Thread nD τ) arg5 fullShare (step1 x0 x1 xb s)) -∗ K ⟨⟩))
      ⊢ wp frame (wpE (defs₀ (F := F)) Variants.none c none) E (cc1_final_kernel i arg1 harg1 arg2 harg2 arg3 harg3 arg4 harg4 arg5 harg5) K := by
  simp only [cc1_final_kernel_eq_skeleton]; unfold cc1_final_kernel_skel
  simp only [k1_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  refine (b_read_store1 _ _ _ _ _).trans ?_
  unfold b_run1_mid.sl.r b_run1_mid.sl.r_1 step1
  simp only [View.readAt_eq_ld, hf0, hf1, hf2, hfs, View.ld_unit_zero (S := S16384x2) b_zeros1, View.ld_unit_zero (S := S16384x1) b_zeros1,
    View.ld_unit_zero (S := S1x128) b_zeros1, View.ld_unit_zero (S := S1x1) b_zeros1]

set_option maxHeartbeats 1000000 in
/-- The first point: the accumulator, whatever it held, is zeroed and then takes one step from the zero row. -/
theorem b_run1_first (c : Dev nD) (i : grid1.Coords)
    (arg1 : Memref sig .tc .vmem S16384x2 .f32) (harg1 : arg1.IsWhole) (arg2 : Memref sig .tc .vmem S16384x1 .i32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S1x1 .f32) (harg5 : arg5.IsWhole)
    (hc0 : b_cond1_first i) (hc1 : ¬b_cond1_last i)
    (x0 : Vec F S16384x2 .f32) (x1 : Vec F S16384x1 .i32) (xb : Vec F S1x128 .f32) (xi : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare xb
        ∗ owns (c : Thread nD τ) arg4 fullShare xi ∗ (∃ d, owns (c : Thread nD τ) arg5 fullShare d)
        ∗ (iprop(owns (c : Thread nD τ) arg1 fullShare x0 ∗ owns (c : Thread nD τ) arg2 fullShare x1 ∗ owns (c : Thread nD τ) arg3 fullShare xb
            ∗ owns (c : Thread nD τ) arg4 fullShare xi ∗ owns (c : Thread nD τ) arg5 fullShare (step1 x0 x1 xb (k1_pay2 (F := F)))) -∗ K ⟨⟩))
      ⊢ wp frame (wpE (defs₀ (F := F)) Variants.none c none) E (cc1_final_kernel i arg1 harg1 arg2 harg2 arg3 harg3 arg4 harg4 arg5 harg5) K := by
  simp only [cc1_final_kernel_eq_skeleton]; unfold cc1_final_kernel_skel
  simp only [k1_part1_eq_skeleton]
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg1.eq_unread hf0; obtain rfl := harg2.eq_unread hf1; obtain rfl := harg3.eq_unread hf2
  obtain rfl := harg4.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  refine (b_read_store1 _ _ _ _ _).trans ?_
  unfold b_run1_first.sl.r b_run1_first.sl.r_1 b_run1_first.sl.v61 b_run1_first.sl.HS_1 step1
  rw [b_readCov_store1]
  simp only [View.readAt_eq_ld, hf0, hf1, hf2, View.ld_unit_zero (S := S16384x2) b_zeros1, View.ld_unit_zero (S := S16384x1) b_zeros1,
    View.ld_unit_zero (S := S1x128) b_zeros1]

set_option maxHeartbeats 1000000 in
/-- The last point (not the first): the accumulator takes one step from `s`, and the output block, whatever it held,
    is stored the accumulator's new value. -/
theorem b_run1_last (c : Dev nD) (i : grid1.Coords)
    (arg1 : Memref sig .tc .vmem S16384x2 .f32) (harg1 : arg1.IsWhole) (arg2 : Memref sig .tc .vmem S16384x1 .i32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S1x1 .f32) (harg5 : arg5.IsWhole)
    (hc0 : ¬b_cond1_first i) (hc1 : b_cond1_last i)
    (x0 : Vec F S16384x2 .f32) (x1 : Vec F S16384x1 .i32) (xb : Vec F S1x128 .f32) (s : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare xb
        ∗ (∃ d, owns (c : Thread nD τ) arg4 fullShare d) ∗ owns (c : Thread nD τ) arg5 fullShare s
        ∗ (iprop(owns (c : Thread nD τ) arg1 fullShare x0 ∗ owns (c : Thread nD τ) arg2 fullShare x1 ∗ owns (c : Thread nD τ) arg3 fullShare xb
            ∗ owns (c : Thread nD τ) arg4 fullShare (step1 x0 x1 xb s) ∗ owns (c : Thread nD τ) arg5 fullShare (step1 x0 x1 xb s)) -∗ K ⟨⟩))
      ⊢ wp frame (wpE (defs₀ (F := F)) Variants.none c none) E (cc1_final_kernel i arg1 harg1 arg2 harg2 arg3 harg3 arg4 harg4 arg5 harg5) K := by
  simp only [cc1_final_kernel_eq_skeleton]; unfold cc1_final_kernel_skel
  simp only [k1_part1_eq_skeleton]
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg1.eq_unread hf0; obtain rfl := harg2.eq_unread hf1; obtain rfl := harg3.eq_unread hf2
  obtain rfl := harg5.eq_unread hfs
  sl_exec (disch := first | exact hc0 | exact hc1)
  sl_step
  have hpay : k1_pay1 (b_run1_last.sl.r c arg1 harg1 arg2 harg2 x0 x1) (b_run1_last.sl.r_1 c arg1 harg1 arg2 harg2 x0 x1) (0#32) (29#32)
        (View.readAt (Elt F) arg3.view (Rect.unit (s := S1x128) ![0, 0] S1x128.size inb_S1x128_S1x128_0_0).toLoadRect (harg3.unread xb))
        (View.readAt (Elt F) arg5.view (Rect.unit (s := S1x1) ![0, 0] S1x1.size inb_S1x1_S1x1_0_0).toLoadRect (harg5.unread s))
      = step1 x0 x1 xb s := by
    unfold b_run1_last.sl.r b_run1_last.sl.r_1 step1
    simp only [View.readAt_eq_ld, hf0, hf1, hf2, hfs, View.ld_unit_zero (S := S16384x2) b_zeros1, View.ld_unit_zero (S := S16384x1) b_zeros1,
      View.ld_unit_zero (S := S1x128) b_zeros1, View.ld_unit_zero (S := S1x1) b_zeros1]
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    refine (b_read_store1 _ _ _ _ _).trans ?_
    unfold b_run1_last.sl.v69 b_run1_last.sl.HS_1
    exact (b_readCov_store1 _ _ _).trans hpay
  iexists _; isplitr
  swap; · iexact HS
  ipureintro
  unfold b_run1_last.sl.HS_1
  exact (b_read_store1 _ _ _ _ _).trans hpay

/-! ## The conditions in closed form, and where the output window is idle -/

/-- The first conditional holds at the first point only — decided over the grid. -/
theorem b_hcond1_first : ∀ t : Fin cfg1.N, b_cond1_first (grid1.coords t) ↔ t.val % 1024 = 0 :=
  (by decide +kernel : ∀ t : Fin grid1.N, b_cond1_first (grid1.coords t) ↔ t.val % 1024 = 0)
/-- The second conditional holds at the last point only — decided over the grid. -/
theorem b_hcond1_last : ∀ t : Fin cfg1.N, b_cond1_last (grid1.coords t) ↔ t.val % 1024 = 1023 :=
  (by decide +kernel : ∀ t : Fin grid1.N, b_cond1_last (grid1.coords t) ↔ t.val % 1024 = 1023)

/-- The input windows are never idle. -/
theorem b_liveAt1_0 : ∀ t : Fin cfg1.N, cfg1.idle 0 (grid1.coords t) = false := fun _ => rfl
theorem b_liveAt1_1 : ∀ t : Fin cfg1.N, cfg1.idle 1 (grid1.coords t) = false := fun _ => rfl
theorem b_liveAt1_2 : ∀ t : Fin cfg1.N, cfg1.idle 2 (grid1.coords t) = false := fun _ => rfl
/-- Where the second conditional fails the output window is idle (the body stores nothing into it), -/
theorem b_idleAt1_3 (t : Fin cfg1.N) (h : ¬b_cond1_last (grid1.coords t)) : cfg1.idle 3 (grid1.coords t) = true := by
  show (!(k1_cond2 (grid1.coords t) == 1#1)) = true
  rw [Bool.not_eq_true', beq_eq_false_iff_ne]; exact h
/-- and the pipeline does not write its block back; -/
theorem b_noFlush1_3 (t : Fin cfg1.N) (h : ¬b_cond1_last (grid1.coords t)) : (cfg1.win 3).flush t = false :=
  Bool.eq_false_iff.mpr fun hf => h ((b_hcond1_last t).mpr ((flush1_3 t).mp hf))
/-- where it holds the window is live. -/
theorem b_liveAt1_3 (t : Fin cfg1.N) (h : b_cond1_last (grid1.coords t)) : cfg1.idle 3 (grid1.coords t) = false := by
  show (!(k1_cond2 (grid1.coords t) == 1#1)) = false
  rw [Bool.not_eq_false', beq_iff_eq]; exact h

/-! ## The staging memrefs as the pipeline passes them -/

abbrev b_ms1_0 (t : Fin cfg1.N) : Memref sig .tc .vmem S16384x2 .f32 := win1_0.stage (cfg1.slots t 0)
abbrev b_hs1_0 (t : Fin cfg1.N) : (b_ms1_0 t).IsWhole := hstage1_0 ((cfg1.slots t 0).cast nbuf1_0)
abbrev b_ms1_1 (t : Fin cfg1.N) : Memref sig .tc .vmem S16384x1 .i32 := win1_1.stage (cfg1.slots t 1)
abbrev b_hs1_1 (t : Fin cfg1.N) : (b_ms1_1 t).IsWhole := hstage1_1 ((cfg1.slots t 1).cast nbuf1_1)
abbrev b_ms1_2 (t : Fin cfg1.N) : Memref sig .tc .vmem S1x128 .f32 := win1_2.stage (cfg1.slots t 2)
abbrev b_hs1_2 (t : Fin cfg1.N) : (b_ms1_2 t).IsWhole := hstage1_2 ((cfg1.slots t 2).cast nbuf1_2)
abbrev b_ms1_3 (t : Fin cfg1.N) : Memref sig .tc .vmem S1x1 .f32 := win1_3.stage (cfg1.slots t 3)
abbrev b_hs1_3 (t : Fin cfg1.N) : (b_ms1_3 t).IsWhole := hstage1_3 ((cfg1.slots t 3).cast nbuf1_3)

section
variable (V : (c : Dev nD) → (b : Ref sig .tc) → Buf (Elt F) ((c : Thread nD τ).loc b))

/-! ## What the body finds in the input windows -/

/-- Each input's current staging buffer holds its block at every point, fetched there or not (the third window is fetched
    at the first point only: its block index never moves). -/
theorem b_before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem b_before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem b_before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The accumulator and the invariant, point by point -/

theorem b_acc1_first (c : Dev nD) (t : Fin cfg1.N) (hz : t.val = 0) :
    acc1 V c t.val t.isLt = step1 (iblk1 V c 0 t) (iblk1 V c 1 t) (iblk1 V c 2 t) (k1_pay2 (F := F)) := by
  obtain ⟨n, hn⟩ := t
  cases n with
  | zero => exact acc1_zero V c hn
  | succ n => exact absurd hz (Nat.succ_ne_zero n)

theorem b_acc1_later (c : Dev nD) (t : Fin cfg1.N) (hz : t.val ≠ 0) :
    acc1 V c t.val t.isLt = step1 (iblk1 V c 0 t) (iblk1 V c 1 t) (iblk1 V c 2 t) (acc1 V c (t.val - 1) (Nat.lt_of_le_of_lt (Nat.sub_le _ _) t.isLt)) := by
  obtain ⟨n, hn⟩ := t
  cases n with
  | zero => exact absurd rfl hz
  | succ n => exact acc1_succ V c n hn

theorem b_PhiS1_zero (c : Dev nD) (n : ℕ) (h : n ≤ cfg1.N) (hz : n = 0) : PhiS1 V c n h = Pipeline.ΦA spec1 c := by
  subst hz; rfl
theorem b_PhiS1_succ (c : Dev nD) (n : ℕ) (hn : n < cfg1.N) :
    PhiS1 V c (n + 1) hn = iprop(owns (c : Thread nD τ) scM1 fullShare (acc1 V c n hn) ∗ rest1 (F := F) c ∗ (∃ r, prngReg c r)) := rfl
theorem b_PhiS1_pos (c : Dev nD) (n : ℕ) (h : n ≤ cfg1.N) (hz : n ≠ 0) :
    PhiS1 V c n h = iprop(owns (c : Thread nD τ) scM1 fullShare (acc1 V c (n - 1) (by omega)) ∗ rest1 (F := F) c ∗ (∃ r, prngReg c r)) := by
  cases n with
  | zero => exact absurd rfl hz
  | succ n => rfl
theorem b_Phi1_castSucc (c : Dev nD) (t : Fin cfg1.N) :
    (dat1 V c).Φ t.castSucc = PhiS1 V c t.val (Nat.le_of_lt t.isLt) := by
  dsimp only [dat1]; simp only [Fin.coe_castSucc]

end

/-- What the launch hands the region, with the accumulator as a memref owned at some contents and the other region's
    buffers gathered: the scoped buffers' chain reassociated. -/
theorem b_PhiA1_split (c : Dev nD) :
    (Pipeline.ΦA spec1 c : sProp 𝕄) ⊢ iprop((∃ d, owns (c : Thread nD τ) scM1 fullShare d) ∗ rest1 (F := F) c ∗ (∃ r, prngReg c r)) := by
  unfold Pipeline.ΦA rest1; rw [scopedRest1_eq]; simp only [scM1, owns_whole]
  iintro ⟨⟨HA, HB, HC, HD, HE, HG, HS⟩, Hg⟩
  isplitl [HS]; · iexact HS
  isplitl [HA HB HC HD HE HG]
  · isplitl [HA]; · iexact HA
    isplitl [HB]; · iexact HB
    isplitl [HC]; · iexact HC
    isplitl [HD]; · iexact HD
    isplitl [HE]; · iexact HE
    iexact HG
  iexact Hg

theorem b_PhiA1_join (c : Dev nD) :
    iprop((∃ d, owns (c : Thread nD τ) scM1 fullShare d) ∗ rest1 (F := F) c ∗ (∃ r, prngReg c r)) ⊢ (Pipeline.ΦA spec1 c : sProp 𝕄) := by
  unfold Pipeline.ΦA rest1; rw [scopedRest1_eq]; simp only [scM1, owns_whole]
  iintro ⟨HS, ⟨HA, HB, HC, HD, HE, HG⟩, Hg⟩
  isplitl [HA HB HC HD HE HG HS]
  · isplitl [HA]; · iexact HA
    isplitl [HB]; · iexact HB
    isplitl [HC]; · iexact HC
    isplitl [HD]; · iexact HD
    isplitl [HE]; · iexact HE
    isplitl [HG]; · iexact HG
    iexact HS
  iexact Hg

section
variable (V : (c : Dev nD) → (b : Ref sig .tc) → Buf (Elt F) ((c : Thread nD τ).loc b))

/-! ## The body obligation, at a generic point -/

/-- What the body is called with at point `t` (the obligation's precondition, the windows one by one), -/
def b_bodyPre1 (c : Dev nD) (t : Fin cfg1.N) : sProp 𝕄 :=
  iprop((dat1 V c).Φ t.castSucc ∗ (dat1 V c).owesAt () t.castSucc
    ∗ (∃ d, owns (c : Thread nD τ) (b_ms1_0 t) fullShare ((dat1 V c).before 0 t d))
    ∗ (∃ d, owns (c : Thread nD τ) (b_ms1_1 t) fullShare ((dat1 V c).before 1 t d))
    ∗ (∃ d, owns (c : Thread nD τ) (b_ms1_2 t) fullShare ((dat1 V c).before 2 t d))
    ∗ (∃ d, owns (c : Thread nD τ) (b_ms1_3 t) fullShare ((dat1 V c).before 3 t d)))

/-- and what it returns. -/
def b_bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the closed forms say which of the three cases the point
    is in. At the first point the invariant hands the body the accumulator at anything (the launch's invariant,
    reassociated) and takes it back at one step from the zero row; at a later point it hands it over at what the point
    before left and takes it back one step on. Where the second conditional fails the output window is idle and its
    buffer goes back as it came; at the last point it goes back at the accumulator's value. -/
theorem b_sound_body1 (c : Dev nD) (t : Fin cfg1.N) :
    b_bodyPre1 V c t ⊢ wp frame (wpE (defs₀ (F := F)) Variants.none c none) Set.univ (bodyAt1 t) (fun _ => b_bodyPost1 V c t) := by
  unfold b_bodyPre1 b_bodyPost1 bodyAt1
  simp only [b_before1_0, b_before1_1, b_before1_2]
  rw [show (dat1 V c).owesAt () t.succ = (dat1 V c).owesAt () t.castSucc from rfl]
  rw [show (dat1 V c).Φ t.succ = PhiS1 V c (t.val + 1) t.isLt from rfl, b_PhiS1_succ]
  rw [show (dat1 V c).leavesExact 0 t = owns (c : Thread nD τ) (b_ms1_0 t) fullShare ((dat1 V c).after 0 t) from by
    unfold Dat.leavesExact; rw [b_liveAt1_0 t], after1_0]
  rw [show (dat1 V c).leavesExact 1 t = owns (c : Thread nD τ) (b_ms1_1 t) fullShare ((dat1 V c).after 1 t) from by
    unfold Dat.leavesExact; rw [b_liveAt1_1 t], after1_1]
  rw [show (dat1 V c).leavesExact 2 t = owns (c : Thread nD τ) (b_ms1_2 t) fullShare ((dat1 V c).after 2 t) from by
    unfold Dat.leavesExact; rw [b_liveAt1_2 t], after1_2]
  rw [b_Phi1_castSucc V c t]
  have hN : t.val < 1024 := lt_of_lt_of_eq t.isLt (show cfg1.N = 1024 from N_1)
  by_cases hz : t.val = 0
  · have hc0 : b_cond1_first (grid1.coords t) := (b_hcond1_first t).mpr (by omega)
    have hc1 : ¬b_cond1_last (grid1.coords t) := fun h => by have := (b_hcond1_last t).mp h; omega
    rw [Dat.leavesExact_idle (dat1 V c) 3 t (b_idleAt1_3 t hc1) (b_noFlush1_3 t hc1)]
    rw [b_acc1_first V c t hz, b_PhiS1_zero V c _ _ hz]
    iintro ⟨HΦ, Ho, ⟨%d0, H0⟩, ⟨%d1, H1⟩, ⟨%d2, H2⟩, ⟨%d3, H3⟩⟩
    ihave HΦ' := b_PhiA1_split c $$ HΦ
    icases HΦ' with ⟨HS, Hr, Hg⟩
    iapply (b_run1_first c (grid1.coords t) (b_ms1_0 t) (b_hs1_0 t) (b_ms1_1 t) (b_hs1_1 t) (b_ms1_2 t) (b_hs1_2 t) (b_ms1_3 t) (b_hs1_3 t)
      scM1 (Memref.isWhole_whole _) hc0 hc1 (iblk1 V c 0 t) (iblk1 V c 1 t) (iblk1 V c 2 t) ((dat1 V c).before 3 t d3) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    iexists _; iexact H3
  · have hc0 : ¬b_cond1_first (grid1.coords t) := fun h => hz (by have := (b_hcond1_first t).mp h; omega)
    rw [b_acc1_later V c t hz, b_PhiS1_pos V c _ _ hz]
    by_cases hl : t.val = 1023
    · have hc1 : b_cond1_last (grid1.coords t) := (b_hcond1_last t).mpr (by omega)
      rw [show (dat1 V c).leavesExact 3 t = owns (c : Thread nD τ) (b_ms1_3 t) fullShare ((dat1 V c).after 3 t) from by
        unfold Dat.leavesExact; rw [b_liveAt1_3 t hc1], after1_3, b_acc1_later V c t hz]
      iintro ⟨⟨HS, Hr, Hg⟩, Ho, ⟨%d0, H0⟩, ⟨%d1, H1⟩, ⟨%d2, H2⟩, ⟨%d3, H3⟩⟩
      iapply (b_run1_last c (grid1.coords t) (b_ms1_0 t) (b_hs1_0 t) (b_ms1_1 t) (b_hs1_1 t) (b_ms1_2 t) (b_hs1_2 t) (b_ms1_3 t) (b_hs1_3 t)
        scM1 (Memref.isWhole_whole _) hc0 hc1 (iblk1 V c 0 t) (iblk1 V c 1 t) (iblk1 V c 2 t)
        (acc1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · have hc1 : ¬b_cond1_last (grid1.coords t) := fun h => hl (by have := (b_hcond1_last t).mp h; omega)
      rw [Dat.leavesExact_idle (dat1 V c) 3 t (b_idleAt1_3 t hc1) (b_noFlush1_3 t hc1)]
      iintro ⟨⟨HS, Hr, Hg⟩, Ho, ⟨%d0, H0⟩, ⟨%d1, H1⟩, ⟨%d2, H2⟩, ⟨%d3, H3⟩⟩
      iapply (b_run1_mid c (grid1.coords t) (b_ms1_0 t) (b_hs1_0 t) (b_ms1_1 t) (b_hs1_1 t) (b_ms1_2 t) (b_hs1_2 t) (b_ms1_3 t) (b_hs1_3 t)
        scM1 (Memref.isWhole_whole _) hc0 hc1 (iblk1 V c 0 t) (iblk1 V c 1 t) (iblk1 V c 2 t) ((dat1 V c).before 3 t d3)
        (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact b_sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, b_PhiS1_zero V c 0 _ rfl]
  try exact Idealize.SL.BI.Entails.refl _

/-- After any point but the first the invariant gives the launch's back: the accumulator's named contents are forgotten. -/
theorem b_Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, b_PhiS1_pos V c _ _ ht]
  refine BIBase.Entails.trans ?_ (b_PhiA1_join c)
  iintro ⟨HS, Hr, Hg⟩
  isplitl [HS]; · iexists _; iexact HS
  isplitl [Hr]; · iexact Hr
  iexact Hg

/-- The same after the last point. -/
theorem hout1 (c : Dev nD) : (dat1 V c).Φ (Fin.last cfg1.N) ⊢ Pipeline.ΦA spec1 c :=
  b_Phi1_out V c _ (by rw [Fin.val_last]; have : cfg1.N = 1024 := N_1; omega)

end

end Cert.KernelIdeal.Hand

end
-- ==== Proof.KI.Run.lean ====
/-
  The run of @main as a list of segments: the contents of every unscoped buffer at each boundary between two items of
  @main, by a fold from the launch memory (a stretch of host operations leaves what its operations compute, a kernel
  region leaves its windows' arrays at what the pipeline's write-backs fold to and every other buffer as entered); each
  argument array read back through the fold to its launch contents; every host stretch and every region as a segment over
  the thread state "every unscoped buffer at the boundary's contents, the generator register at some state, nothing
  owed"; and the launch over those segments, whose post says every unscoped buffer ends at the last boundary's
  contents. What the two kernel bodies contribute (the body obligation of each region and the two entailments tying the
  region invariant's first and last positions to the scoped buffers and the generator register) is taken as a hypothesis.
-/
import proofs.«154215_j627065225459_1_alg».proof.Proof.KI.Defs0
import proofs.«154215_j627065225459_1_alg».proof.Proof.KI.Defs1
import proofs.«154215_j627065225459_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the two kernel bodies contribute to the run, at any entry contents `V` of a region: the body obligation at every
    grid point, the region invariant's first position from the scoped buffers no window stages and the generator
    register, and those back from its last position. -/
structure BodyFacts (F : FTy → Type) [FloatOps F] : Prop where
  b0 : ∀ (V : (c : Dev nD) → (b : Ref sig .tc) → Buf (Elt F) ((c : Thread nD τ).loc b)) (c : Dev nD),
    BodyObligation (dat0 (F := F) V c) (defs₀ (F := F)) Variants.none () Set.univ
  in0 : ∀ (V : (c : Dev nD) → (b : Ref sig .tc) → Buf (Elt F) ((c : Thread nD τ).loc b)) (c : Dev nD),
    Pipeline.ΦA spec0 c ⊢ (dat0 (F := F) V c).Φ 0
  out0 : ∀ (V : (c : Dev nD) → (b : Ref sig .tc) → Buf (Elt F) ((c : Thread nD τ).loc b)) (c : Dev nD),
    (dat0 (F := F) V c).Φ (Fin.last cfg0.N) ⊢ Pipeline.ΦA spec0 c
  b1 : ∀ (V : (c : Dev nD) → (b : Ref sig .tc) → Buf (Elt F) ((c : Thread nD τ).loc b)) (c : Dev nD),
    BodyObligation (dat1 (F := F) V c) (defs₀ (F := F)) Variants.none () Set.univ
  in1 : ∀ (V : (c : Dev nD) → (b : Ref sig .tc) → Buf (Elt F) ((c : Thread nD τ).loc b)) (c : Dev nD),
    Pipeline.ΦA spec1 c ⊢ (dat1 (F := F) V c).Φ 0
  out1 : ∀ (V : (c : Dev nD) → (b : Ref sig .tc) → Buf (Elt F) ((c : Thread nD τ).loc b)) (c : Dev nD),
    (dat1 (F := F) V c).Φ (Fin.last cfg1.N) ⊢ Pipeline.ΦA spec1 c

variable (m : (ℓ : Loc nD τ sig) → Buf (Elt F) ℓ)

/-! ## The buffer contents at each boundary: a fold through @main -/

/-- Core `c`'s buffers at launch. -/
abbrev W0 (c : Dev nD) : Valuation τ sig (Elt F) := fun b => m (c, b)
/-- After the first host stretch (region 0's entry). -/
abbrev W1 (c : Dev nD) : Valuation τ sig (Elt F) := StableHlo.after hostOps0 (W0 m c)
/-- The same read at the TensorCore's references (what region 0's proof data take). -/
abbrev V1 : (c : Dev nD) → (b : Ref sig .tc) → Buf (Elt F) ((c : Thread nD τ).loc b) := fun c b => W1 m c b
/-- At region 0's exit: its arrays at what the pipeline leaves (the inputs as entered, the output's write-backs folded),
    every other buffer as entered. -/
def W2 (c : Dev nD) : Valuation τ sig (Elt F) :=
  Pipeline.withArrays spec0 c (W1 m c) fun w => (dat0 (V1 m) c).arrAt w cfg0.N
/-- After each of the five host stretches between the regions (the last is region 1's entry). -/
abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)
abbrev W6 (c : Dev nD) : Valuation τ sig (Elt F) := StableHlo.after hostOps1_3 (W5 m c)
abbrev W7 (c : Dev nD) : Valuation τ sig (Elt F) := StableHlo.after hostOps1_4 (W6 m c)
/-- The same read at the TensorCore's references (what region 1's proof data take). -/
abbrev V7 : (c : Dev nD) → (b : Ref sig .tc) → Buf (Elt F) ((c : Thread nD τ).loc b) := fun c b => W7 m c b
/-- At region 1's exit: its arrays at what the pipeline leaves, every other buffer as entered. -/
def W8 (c : Dev nD) : Valuation τ sig (Elt F) :=
  Pipeline.withArrays spec1 c (W7 m c) fun w => (dat1 (V7 m) c).arrAt w cfg1.N
/-- After the last host stretch: the contents @main returns with. -/
abbrev W9 (c : Dev nD) : Valuation τ sig (Elt F) := StableHlo.after hostOps2 (W8 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W8_arr (c : Dev nD) (w : Fin cfg1.W) :
    W8 m c (Proc.devRef .tc (Pipeline.arrRef spec1 w)) = (dat1 (V7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb

/-- At a region's exit each of its arrays holds what the pipeline leaves, and every other buffer what it held at entry. -/
theorem c_hF0 (c : Dev nD) (w : Fin cfg0.W) :
    (dat0 (V1 m) c).arrAt w cfg0.N = (fun b : Ref sig .tc => W2 m c b) (Pipeline.arrRef spec0 w) :=
  (W2_arr m c w).symm
theorem c_hrest0 (c : Dev nD) : ∀ b : Ref sig .tc, b ∉ Finset.univ.image (Pipeline.arrRef spec0) → W2 m c b = V1 m c b :=
  fun b hb => W2_of_ne m c b fun w e => hb (Finset.mem_image.mpr ⟨w, Finset.mem_univ _, e⟩)
theorem c_hF1 (c : Dev nD) (w : Fin cfg1.W) :
    (dat1 (V7 m) c).arrAt w cfg1.N = (fun b : Ref sig .tc => W8 m c b) (Pipeline.arrRef spec1 w) :=
  (W8_arr m c w).symm
theorem c_hrest1 (c : Dev nD) : ∀ b : Ref sig .tc, b ∉ Finset.univ.image (Pipeline.arrRef spec1) → W8 m c b = V7 m c b :=
  fun b hb => W8_of_ne m c b fun w e => hb (Finset.mem_image.mpr ⟨w, Finset.mem_univ _, e⟩)

/-! ### The arguments end as launched: no host operation writes one, and a region reads it through an input window
    (whose array the pipeline leaves as entered) or does not touch it -/

theorem W9_main_arg0 (c : Dev nD) : W9 m c (Proc.devRef .tc main_arg0) = m ((c : Thread nD τ).loc main_arg0) :=
  calc W9 m c (Proc.devRef .tc main_arg0)
    _ = W8 m c (Proc.devRef .tc main_arg0) := StableHlo.after_of_writes_sub hostOps2 _ hostOps2_writes (by decide)
    _ = W7 m c (Proc.devRef .tc main_arg0) := (W8_arr m c 0).trans (((dat1 (V7 m) c).arrAt_in 0 rfl _).trans (A_eq1 (V7 m) c 0))
    _ = W6 m c (Proc.devRef .tc main_arg0) := StableHlo.after_of_writes_sub hostOps1_4 _ hostOps1_4_writes (by decide)
    _ = W5 m c (Proc.devRef .tc main_arg0) := StableHlo.after_of_writes_sub hostOps1_3 _ hostOps1_3_writes (by decide)
    _ = W4 m c (Proc.devRef .tc main_arg0) := StableHlo.after_of_writes_sub hostOps1_2 _ hostOps1_2_writes (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl

theorem W9_main_arg1 (c : Dev nD) : W9 m c (Proc.devRef .tc main_arg1) = m ((c : Thread nD τ).loc main_arg1) :=
  calc W9 m c (Proc.devRef .tc main_arg1)
    _ = W8 m c (Proc.devRef .tc main_arg1) := StableHlo.after_of_writes_sub hostOps2 _ hostOps2_writes (by decide)
    _ = W7 m c (Proc.devRef .tc main_arg1) := W8_of_ne m c main_arg1 (by decide)
    _ = W6 m c (Proc.devRef .tc main_arg1) := StableHlo.after_of_writes_sub hostOps1_4 _ hostOps1_4_writes (by decide)
    _ = W5 m c (Proc.devRef .tc main_arg1) := StableHlo.after_of_writes_sub hostOps1_3 _ hostOps1_3_writes (by decide)
    _ = W4 m c (Proc.devRef .tc main_arg1) := StableHlo.after_of_writes_sub hostOps1_2 _ hostOps1_2_writes (by decide)
    _ = W3 m c (Proc.devRef .tc main_arg1) := StableHlo.after_of_writes_sub hostOps1_1 _ hostOps1_1_writes (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-! ## The proof data family and the thread state -/

/-- Every pipeline's proof data, each at its region's entry contents (a literal `match`, so that the pinned
    configuration at a numeral reduces to the printed one). -/
def c_pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V7 m) c
abbrev c_𝒱₀ : Variants := Variants.none
/-- No core owes another anything: no level is assigned. -/
abbrev c_L : GSem nD τ sig → Finset Unit := fun _ => ∅
abbrev c_lv : GSem nD τ sig → Unit → ℕ := fun _ _ => 0
/-- What rides beside the buffers through every segment: the core's generator register at some state and its dues, at
    nothing. -/
abbrev c_R (c : Dev nD) : sProp 𝕄 := iprop((∃ r, prngReg c r) ∗ ∃ W, owes (c : Thread nD τ) (0 : CellTallies nD τ sig Unit) W)
/-- A host stretch as a segment over the unscoped references from the contents `W`, `c_R` riding along: it ends with
    those references at what the stretch's operations leave, the next boundary's contents by name. -/
abbrev c_hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ c_𝒱₀ c_L c_lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W c_R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev c_Tₙ (c : Dev nD) : sProp 𝕄 := iprop(StableHlo.held (c : Thread nD τ) (Pipeline.ucRefs τ sig) (W9 m c) ∗ ∃ r, prngReg c r)

/-! ## The regions as segments -/

-- applying a library lemma stated over the pinned configuration unifies with it only when unification may unfold plain
-- definitions in a metavariable's type
set_option backward.isDefEq.respectTransparency.types false in
/-- Region 0 over the thread state: entered from every unscoped buffer at `W1`, left at `W2`. Its arrays are
    split out of the unscoped buffers at entry and put back at the exit contents; the generator register and the scoped
    buffers no window stages go into the region invariant's first position and come back from its last one, by the two
    entailments of the body's facts; nothing is owed; the kernel has no semaphore of its own. -/
def c_reg0 (H : BodyFacts F) : Pipeline.RegionSeg (pcfgs (F := F)) adm (c_pdats m) () defs₀ c_𝒱₀ c_L c_lv 0 where
  win := launch0.win.to₀
  block_pos := launch0.block_pos
  stage_whole := launch0.stage_whole
  K := PEmpty
  osem k := k.elim
  ho := Pipeline.OwnSemFacts.none _
  hbody c := (H.b0 (V1 m) c).loose
  hwaits := Pipeline.hwaits_of_owed_zero _ _ _ _ c_L c_lv 0 fun _ _ => rfl
  pre c := iprop(StableHlo.held (c : Thread nD τ) (Pipeline.ucRefs τ sig) (W1 m c) ∗ c_R c)
  post c := iprop(StableHlo.held (c : Thread nD τ) (Pipeline.ucRefs τ sig) (W2 m c) ∗ c_R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (c_pdats m) launch0.win launch0.arr_whole c
      ((c_pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show (_ : sProp 𝕄) ⊢ Pipeline.ΦA spec0 c from ?_).trans (H.in0 (V1 m) c)
    unfold Pipeline.ΦA
    iintro ⟨Hp, -, Hr⟩
    isplitl [Hr]; · iexact Hr
    iexact Hp
  hout c := by
    refine (H.out0 (V1 m) c).trans (show Pipeline.ΦA spec0 c ⊢ (_ : sProp 𝕄) from ?_)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (c_pdats m) ((c_pdats m 0 c).share_full fun _ => rfl)
      (V1 m c) (fun b => W2 m c b) ((c_pdats m 0 c).arrAt · cfg0.N) (c_hF0 m c) (c_hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with it only when unification may unfold plain
-- definitions in a metavariable's type
set_option backward.isDefEq.respectTransparency.types false in
/-- Region 1 over the thread state: entered from every unscoped buffer at `W7`, left at `W8`. Its arrays are
    split out of the unscoped buffers at entry and put back at the exit contents; the generator register and the scoped
    buffers no window stages go into the region invariant's first position and come back from its last one, by the two
    entailments of the body's facts; nothing is owed; the kernel has no semaphore of its own. -/
def c_reg1 (H : BodyFacts F) : Pipeline.RegionSeg (pcfgs (F := F)) adm (c_pdats m) () defs₀ c_𝒱₀ c_L c_lv 1 where
  win := launch1.win.to₀
  block_pos := launch1.block_pos
  stage_whole := launch1.stage_whole
  K := PEmpty
  osem k := k.elim
  ho := Pipeline.OwnSemFacts.none _
  hbody c := (H.b1 (V7 m) c).loose
  hwaits := Pipeline.hwaits_of_owed_zero _ _ _ _ c_L c_lv 1 fun _ _ => rfl
  pre c := iprop(StableHlo.held (c : Thread nD τ) (Pipeline.ucRefs τ sig) (W7 m c) ∗ c_R c)
  post c := iprop(StableHlo.held (c : Thread nD τ) (Pipeline.ucRefs τ sig) (W8 m c) ∗ c_R c)
  X c := iprop(∃ r, prngReg c r)
  Y c := iprop(∃ r, prngReg c r)
  Z c := Pipeline.unscopedRest (Ix := Unit) (Name := ℕ) (U := UR sig nD τ) (Lvl := ℕ) spec1 c (V7 m c)
  hentry c := by
    rw [Pipeline.ownSems0_none]
    have hsplit := Pipeline.arrays_of_unscopedBufs (p := 1) (pcfgs (F := F)) adm (c_pdats m) launch1.win launch1.arr_whole c
      ((c_pdats m 1 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show (_ : sProp 𝕄) ⊢ Pipeline.ΦA spec1 c from ?_).trans (H.in1 (V7 m) c)
    unfold Pipeline.ΦA
    iintro ⟨Hp, -, Hr⟩
    isplitl [Hr]; · iexact Hr
    iexact Hp
  hout c := by
    refine (H.out1 (V7 m) c).trans (show Pipeline.ΦA spec1 c ⊢ (_ : sProp 𝕄) from ?_)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (c_pdats m) ((c_pdats m 1 c).share_full fun _ => rfl)
      (V7 m c) (fun b => W8 m c b) ((c_pdats m 1 c).arrAt · cfg1.N) (c_hF1 m c) (c_hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's nine segments in order: a host segment per stretch from its boundary's contents, a region per kernel call. -/
abbrev c_segs (H : BodyFacts F) : List (Pipeline.Seg (pcfgs (F := F)) adm (c_pdats m) () defs₀ c_𝒱₀ c_L c_lv) :=
  [ .host (c_hseg hostOps0 hostOps0_sub hostOps0_fresh (W0 m)),
    .region (c_reg0 m H),
    .host (c_hseg hostOps1 hostOps1_sub hostOps1_fresh (W2 m)),
    .host (c_hseg hostOps1_1 hostOps1_1_sub hostOps1_1_fresh (W3 m)),
    .host (c_hseg hostOps1_2 hostOps1_2_sub hostOps1_2_fresh (W4 m)),
    .host (c_hseg hostOps1_3 hostOps1_3_sub hostOps1_3_fresh (W5 m)),
    .host (c_hseg hostOps1_4 hostOps1_4_sub hostOps1_4_fresh (W6 m)),
    .region (c_reg1 m H),
    .host (c_hseg hostOps2 hostOps2_sub hostOps2_fresh (W8 m)) ]

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has every unscoped buffer of every core at the last
    boundary's contents `W9`. The launch over the segments: @main is the chain of the segments' fragments; the thread
    states chain by name; the first one is made from what the launch deals; the last one is read against the final state. -/
theorem run_all (H : BodyFacts F) (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W9 m c b) :=
  Pipeline.θ_run_regions_kit (pcfgs (F := F)) adm (c_pdats m) () cellOf_inj emb₁ defs₀ c_𝒱₀ c_L c_lv m ρ main (c_segs m H)
    (fun c Q => by
      rewrite [main_chain c, Pipeline.Seg.run_eq_chain,
        show (c_segs m H).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      exact .rfl)
    (by simp only [c_segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ c_R c)) (Tₙ := c_Tₙ m)
    (hch := ⟨fun _ => .rfl, fun _ => .rfl, fun _ => .rfl, fun _ => .rfl, fun _ => .rfl, fun _ => .rfl, fun _ => .rfl,
      fun _ => .rfl, fun _ => .rfl, fun c => by
        show (iprop(StableHlo.held (c : Thread nD τ) (Pipeline.ucRefs τ sig) (W9 m c) ∗ c_R c) : sProp 𝕄)
          ⊢ iprop(c_Tₙ m c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach c_L c_lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

/-- info: 'Cert.KernelIdeal.Hand.run_all' depends on axioms: [propext, Classical.choice, Quot.sound] -/
#guard_msgs in #print axioms run_all

end Cert.KernelIdeal.Hand

end
-- ==== Proof.Spec.lean ====
/-
  The loss both programs compute, as ONE function of the two arguments read row by row, on the extended reals.

  Per row (two logits x₀ x₁, an integer label t read as a real τ): the softmax by hand — m the larger logit,
  eₖ = exp (xₖ − m), d = e₀ + e₁, pₖ = eₖ / d —, the probability of the labelled class s = p₀ (1 − τ) + p₁ τ, its
  distance from one g = |s − 1|, the bin ⌊30 g⌋ clamped to [0, 29], and the cross-entropy
  −(ℓ₀ (1 − τ) + ℓ₁ τ) with ℓₖ = (xₖ − m) − log d.
  Over all rows: the bins' counts; per bin the weight 2²⁴ / (¼ · count) where the count is positive, 0 elsewhere,
  divided by the number of occupied bins (at least one); and the mean over the rows of weight(bin) × cross-entropy.
  The aggregate is stated over an ARBITRARY family of bins and of cross-entropies indexed by the row number.
-/
import Idealize.ShloMosaic.PureOps.Ideal
import Idealize.ShloMosaic.PureOps.Ideal.Laws
import Idealize.ShloMosaic.Lib.ValueIdx

noncomputable section

namespace Cert.Spec

open Idealize.ShloMosaic

/-- The number of rows. -/
abbrev NR : ℕ := 16777216

/-! ## The literals, as the words both programs print -/

abbrev one : EReal := Ideal.ofBits .f32 0x3F800000#32
abbrev thirty : EReal := Ideal.ofBits .f32 0x41F00000#32
abbrev quarter : EReal := Ideal.ofBits .f32 0x3E800000#32
abbrev big : EReal := Ideal.ofBits .f32 0x4B800000#32
abbrev zero : EReal := Ideal.ofBits .f32 0x00000000#32

/-! ## One row -/

/-- The label as a real. -/
def tf (t : BitVec 32) : EReal := FloatOps.sitofp (F := Ideal) .f32 t
/-- exp (xₖ − max x₀ x₁). -/
def ex (x0 x1 xk : EReal) : EReal := Ideal.exp (xk - max x0 x1)
def den (x0 x1 : EReal) : EReal := ex x0 x1 x0 + ex x0 x1 x1
def p (x0 x1 xk : EReal) : EReal := Ideal.div (ex x0 x1 xk) (den x0 x1)
/-- The probability of the labelled class. -/
def s (x0 x1 : EReal) (t : BitVec 32) : EReal := p x0 x1 x0 * (one - tf t) + p x0 x1 x1 * tf t
/-- |s − 1|. -/
def g (x0 x1 : EReal) (t : BitVec 32) : EReal := max (s x0 x1 t - one) (-(s x0 x1 t - one))
/-- The row's bin: ⌊30 g⌋ as a signed word, clamped to [0, 29]. -/
def bin (x0 x1 : EReal) (t : BitVec 32) : BitVec 32 :=
  IntOp.minsi 29#32 (IntOp.maxsi 0#32 (Ideal.fptosi 32 (g x0 x1 t * thirty)))
/-- log pₖ. -/
def lp (x0 x1 xk : EReal) : EReal := (xk - max x0 x1) - Ideal.log (den x0 x1)
/-- The row's cross-entropy. -/
def ce (x0 x1 : EReal) (t : BitVec 32) : EReal := -(lp x0 x1 x0 * (one - tf t) + lp x0 x1 x1 * tf t)

/-! ## All rows -/

/-- 1 where the two words agree, 0 elsewhere, as both programs compute it (an `i1` comparison widened and converted). -/
def ind (a l : BitVec 32) : EReal := FloatOps.sitofp (F := Ideal) .f32 ((IntOp.cmpi .eq a l).setWidth 32)
/-- How many rows fall in bin `l`. -/
def cnt (b : Fin NR → BitVec 32) (l : BitVec 32) : EReal := ∑ j : Fin NR, ind (b j) l
/-- Whether a count is positive. -/
def nz (c : EReal) : BitVec 1 := FloatOps.cmpf (F := Ideal) (φ := .f32) .ogt c zero
/-- The weight of a bin before normalisation: 2²⁴ / (¼ · count) where the count is positive, 0 elsewhere. -/
def beta1 (c : EReal) : EReal :=
  Scalar.select (nz c) (Ideal.div big (Scalar.select (nz c) (quarter * c) one)) zero
/-- The number of occupied bins, and at least one. -/
def nnz (cn : Fin 30 → EReal) : EReal := ∑ l : Fin 30, FloatOps.uitofp (F := Ideal) .f32 (nz (cn l))
def nmax (cn : Fin 30 → EReal) : EReal := max (nnz cn) one
/-- The weight of bin `l`. -/
def beta (cn : Fin 30 → EReal) (l : Fin 30) : EReal := Ideal.div (beta1 (cn l)) (nmax cn)
/-- The thirty counts of a family of bins. -/
def cnts (b : Fin NR → BitVec 32) : Fin 30 → EReal := fun l => cnt b (BitVec.ofNat 32 l.val)
/-- The weight of the bin a word names (0 for a word that names none). -/
def betaAt (b : Fin NR → BitVec 32) (a : BitVec 32) : EReal :=
  if h : a.toNat < 30 then beta (cnts b) ⟨a.toNat, h⟩ else 0
/-- The loss: the mean over the rows of weight(bin) × cross-entropy. -/
def G (b : Fin NR → BitVec 32) (w : Fin NR → EReal) : EReal :=
  Ideal.div (∑ j : Fin NR, betaAt b (b j) * w j) big

/-! ## The loss of two argument arrays -/

/-- The logits, 2²⁴ rows of two, and the labels. -/
abbrev SX : Shape := ⟨2, ![16777216, 2]⟩
abbrev ST : Shape := ⟨1, ![16777216]⟩

/-- Row `j`'s bin and cross-entropy, read off the argument arrays. -/
def binOf (X : SX.Idx → EReal) (T : ST.Idx → BitVec 32) (j : Fin NR) : BitVec 32 :=
  bin (X (ValueIdx.ix2 j (0 : Fin 2))) (X (ValueIdx.ix2 j (1 : Fin 2))) (T (ValueIdx.ix1 j))
def ceOf (X : SX.Idx → EReal) (T : ST.Idx → BitVec 32) (j : Fin NR) : EReal :=
  ce (X (ValueIdx.ix2 j (0 : Fin 2))) (X (ValueIdx.ix2 j (1 : Fin 2))) (T (ValueIdx.ix1 j))
/-- The loss of the two argument arrays. -/
def loss (X : SX.Idx → EReal) (T : ST.Idx → BitVec 32) : EReal := G (binOf X T) (ceOf X T)

end Cert.Spec

end
-- ==== Proof.LibRowMax.lean ====
/-
  A maximum along the columns of a matrix, read at an index.

  A lane maximum of an `a × b` matrix over its columns (axis 1), taken from the accumulator's value (the word of −∞),
  reads at row `p` the fold of `max` from that value over the `b` entries of row `p`: the reduced index with each
  column coordinate inserted is the matrix index `(p, k)`.
-/
import Idealize.ShloMosaic.PureOps.Ideal.Laws
import Idealize.ShloMosaic.Lib.ValueIdx

noncomputable section

namespace Cert.RowMax

open Idealize.ShloMosaic Idealize.ShloMosaic.ValueIdx

/-- A lane maximum of a matrix over its columns (axis 1), at row `p`: the fold of `max` from the accumulator's value
    over that row. -/
theorem max_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => Finset.fold max (Ideal.ofBits φ acc) f (Finset.univ : Finset (Fin b)))
      (funext fun k => congrArg src (funext fun ax => Fin.ext (by
        match ax with
        | ⟨0, _⟩ => rfl
        | ⟨1, _⟩ => rfl))))

end Cert.RowMax

end
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.KI.PayVal.lean ====
/-
  One grid point of each region, read at an index on the extended reals, over arbitrary block contents.

  Both regions start from the same row computation.  For a row r of a block with logits x₀ = x0 (r,0), x₁ = x0 (r,1)
  and label t = x1 (r,0): the row maximum kept as a column is max x₀ x₁ (a fold of max from −∞ over two entries); the
  exponentials are exp (xₖ − max x₀ x₁); their row sum kept as a column is the denominator; the quotient is the softmax;
  the probability of the labelled class, its distance from one, thirty times that distance truncated to a word and the
  clamp to [0, 29] give the row's bin, and the log-softmax gives the row's cross-entropy (the program's 0 − y is −y).
  A bin column compared with the lane numbers 0 … 127 and converted is the one-hot row of the bin.
  Region 0 adds to lane l of its accumulator the number of rows of the block whose bin is l; region 1 adds to its one
  accumulator the sum over the rows of (the one-hot row · the weight row) × the cross-entropy.
-/
import proofs.«154215_j627065225459_1_alg».proof.Proof.KI.Defs0
import proofs.«154215_j627065225459_1_alg».proof.Proof.KI.Defs1
import proofs.«154215_j627065225459_1_alg».proof.Proof.Spec
import proofs.«154215_j627065225459_1_alg».proof.Proof.LibRowMax
import proofs.«154215_j627065225459_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandV

open Cert.KernelIdeal Cert.KernelIdeal.Gen Cert.KernelIdeal.Hand
open Idealize.ShloMosaic Idealize.ShloMosaic.ValueIdx
open Cert.Keepdims Cert.RowMax

/-! ## A row's bin and cross-entropy, read off a block -/

/-- Row `r`'s bin, from the block's two logits and label. -/
def g_rowBin (x0 : Vec Ideal S16384x2 .f32) (x1 : Vec Ideal S16384x1 .i32) (r : Fin 16384) : BitVec 32 :=
  Cert.Spec.bin (x0 (ix2 r (0 : Fin 2))) (x0 (ix2 r (1 : Fin 2))) (x1 (ix2 r (0 : Fin 1)))
/-- Row `r`'s cross-entropy, from the block's two logits and label. -/
def g_rowCe (x0 : Vec Ideal S16384x2 .f32) (x1 : Vec Ideal S16384x1 .i32) (r : Fin 16384) : EReal :=
  Cert.Spec.ce (x0 (ix2 r (0 : Fin 2))) (x0 (ix2 r (1 : Fin 2))) (x1 (ix2 r (0 : Fin 1)))

/-! ## The shared row computation -/

/-- The word of −∞ is the bottom of the extended reals. -/
theorem g_ofBits_neg_inf : Ideal.ofBits .f32 0xFF800000#32 = ⊥ := by simp [Ideal.ofBits, Ideal.ieee]

/-- A fold of max from the bottom over two entries is the larger of the two. -/
theorem g_fold_max_two (f : Fin 2 → EReal) : (Finset.univ : Finset (Fin 2)).fold max ⊥ f = max (f 0) (f 1) := by
  have h : (Finset.univ : Finset (Fin 2)) = insert 0 {1} := by decide
  rw [h, Finset.fold_insert (by decide), Finset.fold_singleton, max_bot_right]

/-- The label column converted: the label as a real. -/
theorem g_pay3_apply (x1 : Vec Ideal S16384x1 .i32) (r : Fin 16384) (u : Fin 1) :
    k1_pay3 (F := Ideal) x1 (ix2 r u) = Cert.Spec.tf (x1 (ix2 r u)) := by
  unfold k1_pay3
  show FloatOps.sitofp (F := Ideal) .f32 (shapeCast S16384x1 x1 shapeCasts_S16384x1_S16384x1 (ix2 r u)) = _
  rw [shapeCast_self]
  rfl

/-- The row maximum kept as a column. -/
theorem g_pay4_apply (x0 : Vec Ideal S16384x2 .f32) (r : Fin 16384) (u : Fin 1) :
    k1_pay4 (F := Ideal) x0 (ix2 r u) = max (x0 (ix2 r (0 : Fin 2))) (x0 (ix2 r (1 : Fin 2))) := by
  unfold k1_pay4
  refine (shapeCast_a_a1_apply _ shapeCasts_S16384_S16384x1 r u).trans ?_
  refine (max_axis1_apply (φ := .f32) x0 0xFF800000#32 reduces_S16384x2_S16384 (.inl rfl) rfl r).trans ?_
  rw [g_ofBits_neg_inf]
  exact g_fold_max_two _

/-- The exponentials of the logits less the row maximum. -/
theorem g_pay5_apply (x0 : Vec Ideal S16384x2 .f32) (r : Fin 16384) (k : Fin 2) :
    k1_pay5 (F := Ideal) x0 (ix2 r k)
      = Cert.Spec.ex (x0 (ix2 r (0 : Fin 2))) (x0 (ix2 r (1 : Fin 2))) (x0 (ix2 r k)) := by
  unfold k1_pay5
  show Ideal.exp (x0 (ix2 r k) - broadcastTo S16384x2 (k1_pay4 (F := Ideal) x0) broadcasts_S16384x1_S16384x2 (ix2 r k)) = _
  rw [broadcastTo_a1_ab_apply, g_pay4_apply]
  rfl

/-- The row sum of the exponentials kept as a column: the denominator. -/
theorem g_pay6_apply (x0 : Vec Ideal S16384x2 .f32) (r : Fin 16384) (u : Fin 1) :
    k1_pay6 (F := Ideal) x0 (ix2 r u) = Cert.Spec.den (x0 (ix2 r (0 : Fin 2))) (x0 (ix2 r (1 : Fin 2))) := by
  unfold k1_pay6
  refine (shapeCast_a_a1_apply _ shapeCasts_S16384_S16384x1 r u).trans ?_
  refine (sum_axis1_apply (φ := .f32) (k1_pay5 (F := Ideal) x0) 0x00000000#32 reduces_S16384x2_S16384 (.inl rfl) rfl r).trans ?_
  rw [Fin.sum_univ_two, g_pay5_apply, g_pay5_apply]
  rfl

/-- A logarithm at an index is the logarithm of the element. -/
theorem g_log_apply {s : Shape} (v : FVec Ideal s .f32) (i : s.Idx) : log v i = Ideal.log (v i) := rfl

/-- The softmax of a block. -/
def g_P (x0 : Vec Ideal S16384x2 .f32) : FVec Ideal S16384x2 .f32 :=
  divf (k1_pay5 (F := Ideal) x0) (broadcastTo S16384x2 (k1_pay6 (F := Ideal) x0) broadcasts_S16384x1_S16384x2)

theorem g_P_apply (x0 : Vec Ideal S16384x2 .f32) (r : Fin 16384) (k : Fin 2) :
    g_P x0 (ix2 r k) = Cert.Spec.p (x0 (ix2 r (0 : Fin 2))) (x0 (ix2 r (1 : Fin 2))) (x0 (ix2 r k)) := by
  unfold g_P
  rw [divf_apply, broadcastTo_a1_ab_apply, g_pay5_apply, g_pay6_apply]
  rfl

/-- The log-softmax of a block. -/
def g_L (x0 : Vec Ideal S16384x2 .f32) : FVec Ideal S16384x2 .f32 :=
  subf (subf x0 (broadcastTo S16384x2 (k1_pay4 (F := Ideal) x0) broadcasts_S16384x1_S16384x2))
    (broadcastTo S16384x2 (log (k1_pay6 (F := Ideal) x0)) broadcasts_S16384x1_S16384x2)

theorem g_L_apply (x0 : Vec Ideal S16384x2 .f32) (r : Fin 16384) (k : Fin 2) :
    g_L x0 (ix2 r k) = Cert.Spec.lp (x0 (ix2 r (0 : Fin 2))) (x0 (ix2 r (1 : Fin 2))) (x0 (ix2 r k)) := by
  unfold g_L
  rw [subf_apply, subf_apply, broadcastTo_a1_ab_apply, broadcastTo_a1_ab_apply, g_log_apply, g_pay4_apply, g_pay6_apply]
  rfl

/-- The two columns of a two-column array weighted by one minus the label and by the label, and added. -/
def g_mix (v : FVec Ideal S16384x2 .f32) (x1 : Vec Ideal S16384x1 .i32) : FVec Ideal S16384x1 .f32 :=
  addf
    (mulf (extractStridedSlice S16384x1 ![0, 0] v slices_S16384x2_o0_0_S16384x1)
      (subf (broadcast S16384x1 (Scalar.ofBits (F := Ideal) .f32 0x3F800000#32)) (k1_pay3 (F := Ideal) x1)))
    (mulf (extractStridedSlice S16384x1 ![0, 1] v slices_S16384x2_o0_1_S16384x1) (k1_pay3 (F := Ideal) x1))

theorem g_mix_apply (v : FVec Ideal S16384x2 .f32) (x1 : Vec Ideal S16384x1 .i32) (r : Fin 16384) :
    g_mix v x1 (ix2 r (0 : Fin 1))
      = v (ix2 r (0 : Fin 2)) * (Cert.Spec.one - Cert.Spec.tf (x1 (ix2 r (0 : Fin 1))))
        + v (ix2 r (1 : Fin 2)) * Cert.Spec.tf (x1 (ix2 r (0 : Fin 1))) := by
  unfold g_mix
  show extractStridedSlice S16384x1 ![0, 0] v slices_S16384x2_o0_0_S16384x1 (ix2 r (0 : Fin 1))
        * (Ideal.ofBits .f32 0x3F800000#32 - k1_pay3 (F := Ideal) x1 (ix2 r (0 : Fin 1)))
      + extractStridedSlice S16384x1 ![0, 1] v slices_S16384x2_o0_1_S16384x1 (ix2 r (0 : Fin 1))
        * k1_pay3 (F := Ideal) x1 (ix2 r (0 : Fin 1)) = _
  rw [slice2_axis1_apply 0 v slices_S16384x2_o0_0_S16384x1 r (0 : Fin 1) (0 : Fin 2) rfl,
    slice2_axis1_apply 1 v slices_S16384x2_o0_1_S16384x1 r (0 : Fin 1) (1 : Fin 2) rfl, g_pay3_apply]

/-- The truncated word is computed from the softmax by the mix, the distance from one and the factor thirty. -/
theorem g_pay8_eq (x0 : Vec Ideal S16384x2 .f32) (x1 : Vec Ideal S16384x1 .i32) :
    k1_pay8 (F := Ideal) x0 x1
      = fptosi 32 (mulf (absf (subf (g_mix (g_P x0) x1) (broadcast S16384x1 (Scalar.ofBits (F := Ideal) .f32 0x3F800000#32))))
          (broadcast S16384x1 (Scalar.ofBits (F := Ideal) .f32 0x41F00000#32))) := rfl

/-- Thirty times a row's distance from one, truncated to a word. -/
theorem g_pay8_apply (x0 : Vec Ideal S16384x2 .f32) (x1 : Vec Ideal S16384x1 .i32) (r : Fin 16384) :
    k1_pay8 (F := Ideal) x0 x1 (ix2 r (0 : Fin 1))
      = Ideal.fptosi 32 (Cert.Spec.g (x0 (ix2 r (0 : Fin 2))) (x0 (ix2 r (1 : Fin 2))) (x1 (ix2 r (0 : Fin 1)))
          * Cert.Spec.thirty) := by
  rw [g_pay8_eq]
  show Ideal.fptosi 32
      (max (g_mix (g_P x0) x1 (ix2 r (0 : Fin 1)) - Ideal.ofBits .f32 0x3F800000#32)
          (-(g_mix (g_P x0) x1 (ix2 r (0 : Fin 1)) - Ideal.ofBits .f32 0x3F800000#32))
        * Ideal.ofBits .f32 0x41F00000#32) = _
  rw [g_mix_apply, g_P_apply, g_P_apply]
  rfl

/-- The bin column of a block: the truncated word clamped to [0, 29]. -/
def g_binvec (x0 : Vec Ideal S16384x2 .f32) (x1 : Vec Ideal S16384x1 .i32) : IVec S16384x1 32 :=
  minsi (broadcast S16384x1 29#32) (maxsi (broadcast S16384x1 0#32) (k1_pay8 (F := Ideal) x0 x1))

theorem g_binvec_apply (x0 : Vec Ideal S16384x2 .f32) (x1 : Vec Ideal S16384x1 .i32) (r : Fin 16384) :
    g_binvec x0 x1 (ix2 r (0 : Fin 1)) = g_rowBin x0 x1 r := by
  unfold g_binvec
  show IntOp.minsi 29#32 (IntOp.maxsi 0#32 (k1_pay8 (F := Ideal) x0 x1 (ix2 r (0 : Fin 1)))) = _
  rw [g_pay8_apply]
  rfl

/-- The cross-entropy column is zero less the mix of the log-softmax. -/
theorem g_pay7_eq (x0 : Vec Ideal S16384x2 .f32) (x1 : Vec Ideal S16384x1 .i32) :
    k1_pay7 (F := Ideal) x0 x1
      = subf (broadcast S16384x1 (Scalar.ofBits (F := Ideal) .f32 0x00000000#32)) (g_mix (g_L x0) x1) := rfl

/-- A row's cross-entropy. -/
theorem g_pay7_apply (x0 : Vec Ideal S16384x2 .f32) (x1 : Vec Ideal S16384x1 .i32) (r : Fin 16384) :
    k1_pay7 (F := Ideal) x0 x1 (ix2 r (0 : Fin 1)) = g_rowCe x0 x1 r := by
  rw [g_pay7_eq]
  show Ideal.ofBits .f32 0x00000000#32 - g_mix (g_L x0) x1 (ix2 r (0 : Fin 1)) = _
  rw [g_mix_apply, g_L_apply, g_L_apply, Ideal.ofBits_zero_f32, zero_sub]
  rfl

/-! ## The one-hot rows -/

/-- A bin column compared with the lane numbers and converted. -/
def g_onehot (b : IVec S16384x1 32) : FVec Ideal S16384x128 .f32 :=
  sitofp .f32 (extui 32 (cmpi .eq (broadcastTo S16384x128 b broadcasts_S16384x1_S16384x128)
    (iota .tc S16384x128 32 [1] iota_S16384x128_d1_w32)) natLt_1_32)

/-- At row r and lane l it is 1 where row r's bin is l, 0 elsewhere. -/
theorem g_onehot_apply (b : IVec S16384x1 32) (r : Fin 16384) (l : Fin 128) :
    g_onehot b (ix2 r l) = Cert.Spec.ind (b (ix2 r (0 : Fin 1))) (BitVec.ofNat 32 l.val) := by
  unfold g_onehot
  show FloatOps.sitofp (F := Ideal) .f32
      ((IntOp.cmpi .eq (broadcastTo S16384x128 b broadcasts_S16384x1_S16384x128 (ix2 r l))
        (iota .tc S16384x128 32 [1] iota_S16384x128_d1_w32 (ix2 r l))).setWidth 32) = _
  rw [broadcastTo_a1_ab_apply, iota_single_apply]
  rfl

/-! ## Region 0: one grid point on the histogram row -/

/-- The point's histogram row is the accumulator plus the column sums of the one-hot rows. -/
theorem g_pay3_0_eq (x0 : Vec Ideal S16384x2 .f32) (x1 : Vec Ideal S16384x1 .i32) (s0 : Vec Ideal S1x128 .f32) :
    k0_pay3 (F := Ideal) x0 x1 s0
      = addf s0 (shapeCast S1x128
          (multiReduction .add [0] S128 (g_onehot (g_binvec x0 x1)) 0x00000000#32 reduces_S16384x128_S128 (.inl rfl) rfl)
          shapeCasts_S128_S1x128) := rfl

/-- One grid point adds to lane l the number of the block's rows whose bin is l. -/
theorem step0_apply (x0 : Vec Ideal S16384x2 .f32) (x1 : Vec Ideal S16384x1 .i32) (s0 : Vec Ideal S1x128 .f32)
    (l : Fin 128) :
    step0 (F := Ideal) x0 x1 s0 (ix2 (0 : Fin 1) l)
      = s0 (ix2 (0 : Fin 1) l) + ∑ r : Fin 16384, Cert.Spec.ind (g_rowBin x0 x1 r) (BitVec.ofNat 32 l.val) := by
  unfold step0 k0_pay1
  show shapeCast S1x128 (k0_pay3 (F := Ideal) x0 x1 s0) shapeCasts_S1x128_S1x128 (ix2 (0 : Fin 1) l) = _
  rw [shapeCast_self, g_pay3_0_eq]
  show s0 (ix2 (0 : Fin 1) l) + shapeCast S1x128
      (multiReduction .add [0] S128 (g_onehot (g_binvec x0 x1)) 0x00000000#32 reduces_S16384x128_S128 (.inl rfl) rfl)
      shapeCasts_S128_S1x128 (ix2 (0 : Fin 1) l) = _
  refine congrArg (fun z => s0 (ix2 (0 : Fin 1) l) + z) ?_
  refine (shapeCast_a_1a_apply _ shapeCasts_S128_S1x128 (0 : Fin 1) l).trans ?_
  refine (sum_axis0_apply (φ := .f32) (g_onehot (g_binvec x0 x1)) 0x00000000#32 reduces_S16384x128_S128 (.inl rfl) rfl l).trans ?_
  refine Finset.sum_congr rfl fun r _ => ?_
  rw [g_onehot_apply, g_binvec_apply]

/-- The first point's starting row is zero in every lane. -/
theorem pay2_0_apply (l : Fin 128) : k0_pay2 (F := Ideal) (ix2 (0 : Fin 1) l) = 0 := by
  unfold k0_pay2
  show shapeCast S1x128 (broadcast S1x128 (Scalar.ofBits (F := Ideal) .f32 0x00000000#32)) shapeCasts_S1x128_S1x128
      (ix2 (0 : Fin 1) l) = _
  rw [shapeCast_self]
  exact Ideal.ofBits_zero_f32

/-! ## Region 1: one grid point on the weighted sum -/

/-- The point's sum is the accumulator plus the sum over the rows of (one-hot row · weight row) × cross-entropy. -/
theorem g_pay1_1_eq (x0 : Vec Ideal S16384x2 .f32) (x1 : Vec Ideal S16384x1 .i32) (xb : Vec Ideal S1x128 .f32)
    (s1 : Vec Ideal S1x1 .f32) :
    step1 (F := Ideal) x0 x1 xb s1
      = shapeCast S1x1 (addf s1 (shapeCast S1x1
          (multiReduction .add [0] S1
            (mulf (shapeCast S16384x1
              (multiReduction .add [1] S16384
                (mulf (g_onehot (g_binvec x0 x1))
                  (broadcastTo S16384x128 (shapeCast S1x128 xb shapeCasts_S1x128_S1x128) broadcasts_S1x128_S16384x128))
                0x00000000#32 reduces_S16384x128_S16384 (.inl rfl) rfl)
              shapeCasts_S16384_S16384x1) (k1_pay7 (F := Ideal) x0 x1))
            0x00000000#32 reduces_S16384x1_S1 (.inl rfl) rfl)
          shapeCasts_S1_S1x1)) shapeCasts_S1x1_S1x1 := rfl

/-- A row's weight: the one-hot row against the weight row, summed over the lanes and kept as a column. -/
theorem g_beta_apply (b : IVec S16384x1 32) (xb : Vec Ideal S1x128 .f32) (r : Fin 16384) (u : Fin 1) :
    shapeCast S16384x1
        (multiReduction .add [1] S16384
          (mulf (g_onehot b)
            (broadcastTo S16384x128 (shapeCast S1x128 xb shapeCasts_S1x128_S1x128) broadcasts_S1x128_S16384x128))
          0x00000000#32 reduces_S16384x128_S16384 (.inl rfl) rfl)
        shapeCasts_S16384_S16384x1 (ix2 r u)
      = ∑ l : Fin 128, Cert.Spec.ind (b (ix2 r (0 : Fin 1))) (BitVec.ofNat 32 l.val) * xb (ix2 (0 : Fin 1) l) := by
  refine (shapeCast_a_a1_apply _ shapeCasts_S16384_S16384x1 r u).trans ?_
  refine (sum_axis1_apply (φ := .f32) _ 0x00000000#32 reduces_S16384x128_S16384 (.inl rfl) rfl r).trans ?_
  refine Finset.sum_congr rfl fun l _ => ?_
  show g_onehot b (ix2 r l)
      * broadcastTo S16384x128 (shapeCast S1x128 xb shapeCasts_S1x128_S1x128) broadcasts_S1x128_S16384x128 (ix2 r l) = _
  rw [broadcastTo_1b_ab_apply, shapeCast_self, g_onehot_apply]

/-- One grid point adds the block's sum of weight × cross-entropy. -/
theorem step1_apply (x0 : Vec Ideal S16384x2 .f32) (x1 : Vec Ideal S16384x1 .i32) (xb : Vec Ideal S1x128 .f32)
    (s1 : Vec Ideal S1x1 .f32) :
    step1 (F := Ideal) x0 x1 xb s1 (ix2 (0 : Fin 1) (0 : Fin 1))
      = s1 (ix2 (0 : Fin 1) (0 : Fin 1))
        + ∑ r : Fin 16384, (∑ l : Fin 128, Cert.Spec.ind (g_rowBin x0 x1 r) (BitVec.ofNat 32 l.val) * xb (ix2 (0 : Fin 1) l))
            * g_rowCe x0 x1 r := by
  rw [g_pay1_1_eq, shapeCast_self]
  show s1 (ix2 (0 : Fin 1) (0 : Fin 1)) + shapeCast S1x1 _ shapeCasts_S1_S1x1 (ix2 (0 : Fin 1) (0 : Fin 1)) = _
  refine congrArg (fun z => s1 (ix2 (0 : Fin 1) (0 : Fin 1)) + z) ?_
  refine (shapeCast_a_1a_apply _ shapeCasts_S1_S1x1 (0 : Fin 1) (0 : Fin 1)).trans ?_
  refine (sum_axis0_apply (φ := .f32) _ 0x00000000#32 reduces_S16384x1_S1 (.inl rfl) rfl (0 : Fin 1)).trans ?_
  refine Finset.sum_congr rfl fun r _ => ?_
  show shapeCast S16384x1 _ shapeCasts_S16384_S16384x1 (ix2 r (0 : Fin 1)) * k1_pay7 (F := Ideal) x0 x1 (ix2 r (0 : Fin 1)) = _
  rw [g_beta_apply, g_binvec_apply, g_pay7_apply]

/-- The first point's starting value is zero. -/
theorem pay2_1_apply : k1_pay2 (F := Ideal) (ix2 (0 : Fin 1) (0 : Fin 1)) = 0 := by
  unfold k1_pay2
  show shapeCast S1x1 (broadcast S1x1 (Scalar.ofBits (F := Ideal) .f32 0x00000000#32)) shapeCasts_S1x1_S1x1
      (ix2 (0 : Fin 1) (0 : Fin 1)) = _
  rw [shapeCast_self]
  exact Ideal.ofBits_zero_f32

end Cert.KernelIdeal.HandV

end
-- ==== Proof.KI.HostVal.lean ====
/-
  The host computation around the two regions, read at an index, at the ideal values (floats as extended reals, every
  operation exact), over an ARBITRARY valuation `W` of the buffers at the stretch's entry.

  Before region 0 the labels are reshaped to a column: row `j` of the column is label `j`.
  Between the regions thirty-two operations turn the histogram row (1 × 128) into the padded weights (1 × 128): with
  c the row's first thirty lanes, lane l < 30 of the result is
      ( 2²⁴ / (¼ · c l)  where c l > 0,  0 elsewhere )  /  max (number of l with c l > 0) 1,
  and every lane from thirty on is zero. The sum of the thirty indicators is the host's reduction from the zero word;
  the padding is a write of the thirty-vector over lanes 0 … 29 of a zero row — thirty point writes at thirty different
  lanes, so each lane below thirty meets exactly one of them and each lane from thirty on none.
  After region 1 the weighted sum's one entry is divided by 2²⁴.
  The two arguments (and, between the regions, the labels' column) pass through every stretch untouched.
-/
import proofs.«154215_j627065225459_1_alg».proof.Proof.Gen.KernelIdeal.Launch
import proofs.«154215_j627065225459_1_alg».proof.Proof.Gen.KernelIdeal.Regions
import proofs.«154215_j627065225459_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import Idealize.ShloMosaic.Lib.Tactic

set_option maxRecDepth 16384

noncomputable section

namespace Cert.KernelIdeal.HandV

open Cert.KernelIdeal Cert.KernelIdeal.Gen
open Idealize.ShloMosaic Idealize.ShloMosaic.ValueIdx Idealize.ShloMosaic.StableHlo

variable (W : Valuation τ sig (Elt Ideal))

/-! ## The three short stretches' ends: the labels' reshape before region 0, the quotient after region 1 -/

theorem pre_arg0 : after (hostOps0 (F := Ideal)) W (Proc.devRef .tc main_arg0) = W (Proc.devRef .tc main_arg0) := by
  after_results_simp

theorem pre_arg1 : after (hostOps0 (F := Ideal)) W (Proc.devRef .tc main_arg1) = W (Proc.devRef .tc main_arg1) := by
  after_results_simp

/-- The labels as a column: row `j` of the column is label `j`. -/
theorem pre_v0 (j : Fin 16777216) :
    after (hostOps0 (F := Ideal)) W (Proc.devRef .tc main_v0) (ix2 j (0 : Fin 1)) = W (Proc.devRef .tc main_arg1) (ix1 j) := by
  after_results_simp
  refine (shapeCast_apply _ _ (ix2 j (0 : Fin 1)) (ix1 j) ?_).trans rfl
  rw [Shape.rowMajor_val_one, Shape.rowMajor_val_two]
  show j.val = j.val * 1 + 0
  omega

theorem tail_arg0 : after (hostOps2 (F := Ideal)) W (Proc.devRef .tc main_arg0) = W (Proc.devRef .tc main_arg0) := by
  after_results_simp

theorem tail_arg1 : after (hostOps2 (F := Ideal)) W (Proc.devRef .tc main_arg1) = W (Proc.devRef .tc main_arg1) := by
  after_results_simp

/-- The result: the weighted sum's one entry over 2²⁴. -/
theorem tail_v23 :
    after (hostOps2 (F := Ideal)) W (Proc.devRef .tc main_v23) ix0
      = Ideal.div (W (Proc.devRef .tc main_v21) (ix2 (0 : Fin 1) (0 : Fin 1))) Cert.Spec.big := by
  after_results_simp
  refine (hostDivf_apply _ _ _).trans ?_
  refine congrArg₂ Ideal.div ?_ rfl
  refine (shapeCast_apply _ _ ix0 (ix2 (0 : Fin 1) (0 : Fin 1)) ?_).trans rfl
  rw [Shape.rowMajor_val_two]
  rfl

/-! ## The histogram's thirty counts, and the first stretch read at an index -/

/-- The thirty counts: the histogram row's first thirty lanes. -/
def cW : Fin 30 → EReal := fun b => W (Proc.devRef .tc main_v1) (ix2 (0 : Fin 1) (⟨b.val, by omega⟩ : Fin 128))

/-- The slice [0:1, 0:30] of a row of 128, flattened, reads the row's lane `b`. -/
theorem h_slice_read (x : S1x128.Idx → EReal) (b : Fin 30) :
    shapeCast S30 (extractStridedSlice S1x30 ![0, 0] x slices_S1x128_S1x30_0_0) shapeCasts_S1x30_S30 (ix1 b)
      = x (ix2 (0 : Fin 1) (⟨b.val, by omega⟩ : Fin 128)) := by
  refine (shapeCast_apply _ _ (ix1 b) (ix2 (0 : Fin 1) b) ?_).trans ?_
  · rw [Shape.rowMajor_val_one, Shape.rowMajor_val_two]
    show 0 * 30 + b.val = b.val
    omega
  · refine extractStridedSlice_apply _ _ _ _ _ fun a => ?_
    match a with
    | ⟨0, _⟩ => rfl
    | ⟨1, _⟩ => show b.val = 0 + b.val; omega

theorem s1_v3 (b : Fin 30) : after (hostOps1 (F := Ideal)) W (Proc.devRef .tc main_v3) (ix1 b) = cW W b := by
  after_results_simp
  exact h_slice_read _ b

theorem s1_v5 (b : Fin 30) :
    after (hostOps1 (F := Ideal)) W (Proc.devRef .tc main_v5) (ix1 b) = Cert.Spec.quarter * cW W b := by
  after_results_simp
  refine (mulf_apply _ _ _).trans ?_
  refine congrArg₂ (· * ·) ?_ (h_slice_read _ b)
  exact broadcastInDim_scalar_apply _ _ _

/-- A rank-one index is its one coordinate. -/
def h_idx1Equiv (n : Nat) : Fin n ≃ (⟨1, ![n]⟩ : Shape).Idx where
  toFun := ix1
  invFun := fun j => j 0
  left_inv := fun _ => rfl
  right_inv := fun j => (eq_ix1 j).symm

/-- Whether lane `b`'s count is positive, as the program compares the flattened slice with a row of zero words. -/
theorem h_nz_read (x : S1x128.Idx → EReal) (b : Fin 30) :
    cmpf (F := Ideal) (φ := .f32) .ogt
        (fun i => shapeCast S30 (extractStridedSlice S1x30 ![0, 0] x slices_S1x128_S1x30_0_0) shapeCasts_S1x30_S30 i)
        (broadcastInDim S30 ![] bcast_S_S30 (constant S_ .f32 0x00000000#32)) (ix1 b)
      = Cert.Spec.nz (x (ix2 (0 : Fin 1) (⟨b.val, by omega⟩ : Fin 128))) := by
  refine (cmpf_apply _ _ _ _).trans ?_
  unfold Cert.Spec.nz
  refine congrArg₂ (FloatOps.cmpf (F := Ideal) (φ := .f32) .ogt) (h_slice_read _ b) ?_
  exact broadcastInDim_scalar_apply _ _ _

theorem s1_v7 (b : Fin 30) :
    after (hostOps1 (F := Ideal)) W (Proc.devRef .tc main_v7) (ix1 b) = Cert.Spec.nz (cW W b) := by
  after_results_simp
  exact h_nz_read _ b

/-- The number of occupied bins: the zero word plus the thirty indicators. -/
theorem s1_v9 : after (hostOps1 (F := Ideal)) W (Proc.devRef .tc main_v9) ix0 = Cert.Spec.nnz (cW W) := by
  after_results_simp
  refine (hostReduceAdd_apply _ _ _ _ _).trans ?_
  refine (Ideal.hostReduceAdd_total reducesTo_S30_S_d0 (fun b => b.elim0) _ _ _).trans ?_
  refine (congrArg₂ (· + ·) Ideal.ofBits_zero_f32 (Equiv.sum_comp (h_idx1Equiv 30) _).symm).trans ?_
  rw [zero_add]
  unfold Cert.Spec.nnz
  refine Finset.sum_congr rfl fun k _ => ?_
  exact congrArg (FloatOps.uitofp (F := Ideal) .f32) (h_nz_read _ k)

theorem s1_cst2 : after (hostOps1 (F := Ideal)) W (Proc.devRef .tc main_cst_2) ix0 = Cert.Spec.one := by
  after_results_simp
  rfl

theorem s1_arg0 : after (hostOps1 (F := Ideal)) W (Proc.devRef .tc main_arg0) = W (Proc.devRef .tc main_arg0) := by
  after_results_simp
theorem s1_arg1 : after (hostOps1 (F := Ideal)) W (Proc.devRef .tc main_arg1) = W (Proc.devRef .tc main_arg1) := by
  after_results_simp
theorem s1_v0 : after (hostOps1 (F := Ideal)) W (Proc.devRef .tc main_v0) = W (Proc.devRef .tc main_v0) := by
  after_results_simp

/-! ## A prefix write into a row, read at a lane -/

section Fold
variable {ι I α : Type} [DecidableEq I]

/-- A run of point updates leaves alone an entry none of them aims at. -/
theorem h_fold_other (tgt : ι → I) (val : ι → α) (i' : I) :
    ∀ (ns : List ι) (x : I → α), (∀ n ∈ ns, tgt n ≠ i') →
      (ns.foldl (fun r n => fun j => if j = tgt n then val n else r j) x) i' = x i'
  | [], _, _ => rfl
  | n :: ns, x, h => by
    rw [List.foldl_cons, h_fold_other tgt val i' ns _ (fun m hm => h m (List.mem_cons_of_mem _ hm))]
    exact if_neg (fun e => h n List.mem_cons_self e.symm)

/-- A run of point updates at pairwise distinct entries leaves at each entry aimed at its own update. -/
theorem h_fold_hit (tgt : ι → I) (htgt : Function.Injective tgt) (val : ι → α) (n₀ : ι) :
    ∀ (ns : List ι) (x : I → α), ns.Nodup → n₀ ∈ ns →
      (ns.foldl (fun r n => fun j => if j = tgt n then val n else r j) x) (tgt n₀) = val n₀
  | [], _, _, h => absurd h List.not_mem_nil
  | n :: ns, x, hnd, h => by
    rw [List.foldl_cons]
    rcases List.mem_cons.mp h with rfl | hin
    · rw [h_fold_other tgt val (tgt n₀) ns _ (fun m hm e => (List.nodup_cons.mp hnd).1 (htgt e ▸ hm))]
      exact if_pos rfl
    · exact h_fold_hit tgt htgt val n₀ ns _ (List.nodup_cons.mp hnd).2 hin
end Fold

theorem h_sc_start (j : S30.Idx) (idx : S1.Idx → BitVec 32) :
    scatter_S128_S1_S30_0_n_0_0.start j idx 0 = (idx (ix1 0)).toInt := by
  unfold ScatterDims.start
  rw [dif_pos (show (0 : Fin 1) ∈ scatter_S128_S1_S30_0_n_0_0.scatterDimsToOperandDims from List.mem_singleton.mpr rfl)]
  refine congrArg (fun k => (idx k).toInt) ?_
  funext b
  match b with
  | ⟨0, _⟩ => rfl

theorem h_sc_window (j : S30.Idx) : scatter_S128_S1_S30_0_n_0_0.window j 0 = (j 0).val := by
  unfold ScatterDims.window
  rw [dif_pos (show (0 : Fin 1) ∈ scatter_S128_S1_S30_0_n_0_0.sKept from by decide)]
  rfl

/-- With the start word zero, update lane `k` lands on operand lane `k`. -/
theorem h_sc_result (idx : S1.Idx → BitVec 32) (hidx : idx (ix1 0) = 0#32) (k : Fin 30) :
    scatter_S128_S1_S30_0_n_0_0.resultIdx? (ix1 k) idx = some (ix1 (⟨k.val, by omega⟩ : Fin 128)) := by
  have hsum : ∀ a : Fin 1, scatter_S128_S1_S30_0_n_0_0.start (ix1 k) idx a + scatter_S128_S1_S30_0_n_0_0.window (ix1 k) a
      = (k.val : Int) := by
    intro a
    obtain rfl : a = 0 := Subsingleton.elim _ _
    rw [h_sc_start, h_sc_window, hidx]
    show (0#32 : BitVec 32).toInt + (k.val : Int) = (k.val : Int)
    rw [show (0#32 : BitVec 32).toInt = 0 from by decide, zero_add]
  unfold ScatterDims.resultIdx?
  rw [dif_pos (fun a => by
    rw [hsum a]
    obtain rfl : a = 0 := Subsingleton.elim _ _
    refine ⟨by omega, ?_⟩
    show (k.val : Int) < (128 : Nat)
    have := k.isLt
    omega)]
  refine congrArg some (funext fun a => Fin.ext ?_)
  show (scatter_S128_S1_S30_0_n_0_0.start (ix1 k) idx a + scatter_S128_S1_S30_0_n_0_0.window (ix1 k) a).toNat = _
  rw [hsum a]
  obtain rfl : a = 0 := Subsingleton.elim _ _
  exact Int.toNat_natCast _

/-- A thirty-vector written over the first lanes of a row of 128 from lane zero: lane `l` reads the vector's entry
    `l` below thirty and the row's own entry from thirty on. The thirty writes aim at thirty different lanes, so the
    order in which they are made does not matter: each lane below thirty meets exactly one. -/
theorem h_scatter_prefix (z : S128.Idx → EReal) (u : S30.Idx → EReal) (idx : S1.Idx → BitVec 32)
    (hidx : idx (ix1 0) = 0#32) (l : Fin 128) :
    Host.scatter scatter_S128_S1_S30_0_n_0_0 (fun _ b => b) z idx u (ix1 l)
      = if h : l.val < 30 then u (ix1 (⟨l.val, h⟩ : Fin 30)) else z (ix1 l) := by
  have hnum : S30.numel = 30 := Shape.numel_rank1 _
  have hsym : ∀ n : Fin S30.numel, S30.rowMajor.symm n = ix1 (⟨n.val, by have := n.isLt; omega⟩ : Fin 30) := fun n => by
    rw [Equiv.symm_apply_eq]
    exact Fin.ext (by rw [Shape.rowMajor_val_one])
  let tgt : Fin S30.numel → S128.Idx := fun n => ix1 (⟨n.val, by have := n.isLt; omega⟩ : Fin 128)
  let val : Fin S30.numel → EReal := fun n => u (ix1 (⟨n.val, by have := n.isLt; omega⟩ : Fin 30))
  have htgt : Function.Injective tgt := fun a b e => by
    have e0 := congrArg Fin.val (congrFun e 0)
    exact Fin.ext e0
  have hfold : Host.scatter scatter_S128_S1_S30_0_n_0_0 (fun _ b => b) z idx u
      = (List.finRange S30.numel).foldl (fun r n => fun j => if j = tgt n then val n else r j) z := by
    unfold Host.scatter
    simp only [hsym, h_sc_result idx hidx]
    rfl
  rw [hfold]
  by_cases h : l.val < 30
  · rw [dif_pos h]
    exact h_fold_hit tgt htgt val (⟨l.val, by omega⟩ : Fin S30.numel) _ z (List.nodup_finRange _) (List.mem_finRange _)
  · rw [dif_neg h]
    refine h_fold_other tgt val (ix1 l) _ z fun n _ e => h ?_
    have e0 := congrArg Fin.val (congrFun e 0)
    change n.val = l.val at e0
    have := n.isLt
    omega

/-! ## The later stretches, each over the contents it is entered with -/

/-- A typed reference's two transports cancel. -/
theorem h_of_to {T : BufTy} (x : TRef sig T) (v : T.Contents (Elt Ideal)) : x.ofBuf (x.toBuf v) = v := by
  obtain ⟨r, e, h1, h2⟩ := x
  subst e
  rfl

/-- The first choice: the scaled count where the count is positive, the given scalar elsewhere. -/
theorem s2_v10 (b : Fin 30) :
    after (hostOps1_1 (F := Ideal)) W (Proc.devRef .tc main_v10) (ix1 b)
      = Scalar.select (W (Proc.devRef .tc main_v7) (ix1 b)) (W (Proc.devRef .tc main_v5) (ix1 b))
          (W (Proc.devRef .tc main_cst_2) ix0) := by
  after_results_simp
  simp only [h_of_to]
  simp only [TRef.ofBuf, TRef.toBuf, cast_cast, cast_eq]
  refine (select_apply _ _ _ _).trans ?_
  exact congrArg (Scalar.select _ _) (broadcastInDim_scalar_apply _ _ _)

theorem s2_v7 : after (hostOps1_1 (F := Ideal)) W (Proc.devRef .tc main_v7) = W (Proc.devRef .tc main_v7) := by
  after_results_simp
theorem s2_v9 : after (hostOps1_1 (F := Ideal)) W (Proc.devRef .tc main_v9) = W (Proc.devRef .tc main_v9) := by
  after_results_simp
theorem s2_arg0 : after (hostOps1_1 (F := Ideal)) W (Proc.devRef .tc main_arg0) = W (Proc.devRef .tc main_arg0) := by
  after_results_simp
theorem s2_arg1 : after (hostOps1_1 (F := Ideal)) W (Proc.devRef .tc main_arg1) = W (Proc.devRef .tc main_arg1) := by
  after_results_simp
theorem s2_v0 : after (hostOps1_1 (F := Ideal)) W (Proc.devRef .tc main_v0) = W (Proc.devRef .tc main_v0) := by
  after_results_simp

/-- 2²⁴ over the first choice. -/
theorem s3_v12 (b : Fin 30) :
    after (hostOps1_2 (F := Ideal)) W (Proc.devRef .tc main_v12) (ix1 b)
      = Ideal.div Cert.Spec.big (W (Proc.devRef .tc main_v10) (ix1 b)) := by
  after_results_simp
  refine (hostDivf_apply _ _ _).trans ?_
  exact congrArg₂ Ideal.div (broadcastInDim_scalar_apply _ _ _) rfl

theorem s3_cst4 : after (hostOps1_2 (F := Ideal)) W (Proc.devRef .tc main_cst_4) ix0 = Cert.Spec.zero := by
  after_results_simp
  rfl

theorem s3_v7 : after (hostOps1_2 (F := Ideal)) W (Proc.devRef .tc main_v7) = W (Proc.devRef .tc main_v7) := by
  after_results_simp
theorem s3_v9 : after (hostOps1_2 (F := Ideal)) W (Proc.devRef .tc main_v9) = W (Proc.devRef .tc main_v9) := by
  after_results_simp
theorem s3_arg0 : after (hostOps1_2 (F := Ideal)) W (Proc.devRef .tc main_arg0) = W (Proc.devRef .tc main_arg0) := by
  after_results_simp
theorem s3_arg1 : after (hostOps1_2 (F := Ideal)) W (Proc.devRef .tc main_arg1) = W (Proc.devRef .tc main_arg1) := by
  after_results_simp
theorem s3_v0 : after (hostOps1_2 (F := Ideal)) W (Proc.devRef .tc main_v0) = W (Proc.devRef .tc main_v0) := by
  after_results_simp

/-- The second choice: the quotient where the count is positive, the given scalar elsewhere. -/
theorem s4_v13 (b : Fin 30) :
    after (hostOps1_3 (F := Ideal)) W (Proc.devRef .tc main_v13) (ix1 b)
      = Scalar.select (W (Proc.devRef .tc main_v7) (ix1 b)) (W (Proc.devRef .tc main_v12) (ix1 b))
          (W (Proc.devRef .tc main_cst_4) ix0) := by
  after_results_simp
  simp only [h_of_to]
  simp only [TRef.ofBuf, TRef.toBuf, cast_cast, cast_eq]
  refine (select_apply _ _ _ _).trans ?_
  exact congrArg (Scalar.select _ _) (broadcastInDim_scalar_apply _ _ _)

theorem s4_v9 : after (hostOps1_3 (F := Ideal)) W (Proc.devRef .tc main_v9) = W (Proc.devRef .tc main_v9) := by
  after_results_simp
theorem s4_arg0 : after (hostOps1_3 (F := Ideal)) W (Proc.devRef .tc main_arg0) = W (Proc.devRef .tc main_arg0) := by
  after_results_simp
theorem s4_arg1 : after (hostOps1_3 (F := Ideal)) W (Proc.devRef .tc main_arg1) = W (Proc.devRef .tc main_arg1) := by
  after_results_simp
theorem s4_v0 : after (hostOps1_3 (F := Ideal)) W (Proc.devRef .tc main_v0) = W (Proc.devRef .tc main_v0) := by
  after_results_simp

/-- The padded weights: below lane thirty the second choice over the larger of the occupied-bin count and one, zero
    from lane thirty on. -/
theorem s5_v20 (l : Fin 128) :
    after (hostOps1_4 (F := Ideal)) W (Proc.devRef .tc main_v20) (ix2 (0 : Fin 1) l)
      = if h : l.val < 30 then
          Ideal.div (W (Proc.devRef .tc main_v13) (ix1 (⟨l.val, h⟩ : Fin 30)))
            (max (W (Proc.devRef .tc main_v9) ix0) Cert.Spec.one)
        else 0 := by
  after_results_simp
  refine (shapeCast_apply _ _ (ix2 (0 : Fin 1) l) (ix1 l) ?_).trans ?_
  · rw [Shape.rowMajor_val_one, Shape.rowMajor_val_two]
    show l.val = 0 * 128 + l.val
    omega
  refine (h_scatter_prefix _ _ _ (broadcastInDim_scalar_apply _ _ _) l).trans ?_
  by_cases h : l.val < 30
  · rw [dif_pos h, dif_pos h]
    refine (hostDivf_apply _ _ _).trans ?_
    exact congrArg (Ideal.div _) (broadcastInDim_scalar_apply _ _ _)
  · rw [dif_neg h, dif_neg h]
    refine (broadcastInDim_scalar_apply _ _ _).trans ?_
    exact Ideal.ofBits_zero_f32

theorem s5_arg0 : after (hostOps1_4 (F := Ideal)) W (Proc.devRef .tc main_arg0) = W (Proc.devRef .tc main_arg0) := by
  after_results_simp
theorem s5_arg1 : after (hostOps1_4 (F := Ideal)) W (Proc.devRef .tc main_arg1) = W (Proc.devRef .tc main_arg1) := by
  after_results_simp
theorem s5_v0 : after (hostOps1_4 (F := Ideal)) W (Proc.devRef .tc main_v0) = W (Proc.devRef .tc main_v0) := by
  after_results_simp

/-! ## The five stretches between the two regions, chained -/

/-- The contents after the thirty-two operations between the two regions. -/
abbrev h_mid (W : Valuation τ sig (Elt Ideal)) : Valuation τ sig (Elt Ideal) :=
  after hostOps1_4 (after hostOps1_3 (after hostOps1_2 (after hostOps1_1 (after hostOps1 W))))

theorem mid_arg0 : h_mid W (Proc.devRef .tc main_arg0) = W (Proc.devRef .tc main_arg0) :=
  (s5_arg0 _).trans ((s4_arg0 _).trans ((s3_arg0 _).trans ((s2_arg0 _).trans (s1_arg0 W))))
theorem mid_arg1 : h_mid W (Proc.devRef .tc main_arg1) = W (Proc.devRef .tc main_arg1) :=
  (s5_arg1 _).trans ((s4_arg1 _).trans ((s3_arg1 _).trans ((s2_arg1 _).trans (s1_arg1 W))))
theorem mid_v0 : h_mid W (Proc.devRef .tc main_v0) = W (Proc.devRef .tc main_v0) :=
  (s5_v0 _).trans ((s4_v0 _).trans ((s3_v0 _).trans ((s2_v0 _).trans (s1_v0 W))))

/-- The two arguments and the labels' column pass through the thirty-two operations untouched. -/
theorem mid_keeps (b : Ref sig .tc) (hb : b ∈ [main_arg0, main_arg1, main_v0]) :
    h_mid W (Proc.devRef .tc b) = W (Proc.devRef .tc b) := by
  simp only [List.mem_cons, List.not_mem_nil, or_false] at hb
  rcases hb with rfl | rfl | rfl
  · exact mid_arg0 W
  · exact mid_arg1 W
  · exact mid_v0 W

/-- The padded weights after the thirty-two operations: lane `l` below thirty holds the weight of bin `l` computed
    from the histogram's first thirty lanes, every later lane zero. -/
theorem mid_v20 (l : Fin 128) :
    h_mid W (Proc.devRef .tc main_v20) (ix2 (0 : Fin 1) l)
      = if h : l.val < 30 then
          Cert.Spec.beta (fun b : Fin 30 => W (Proc.devRef .tc main_v1) (ix2 (0 : Fin 1) (⟨b.val, by omega⟩ : Fin 128)))
            ⟨l.val, h⟩
        else 0 := by
  refine (s5_v20 _ l).trans ?_
  by_cases h : l.val < 30
  · rw [dif_pos h, dif_pos h]
    rw [s4_v13, s4_v9, s3_v7, s3_v12, s3_cst4, s3_v9, s2_v7, s2_v10, s2_v9, s1_v7, s1_v5, s1_cst2, s1_v9]
    rfl
  · rw [dif_neg h, dif_neg h]

end Cert.KernelIdeal.HandV
end
-- ==== Proof.KI.ArrVal.lean ====
/-
  Each region's output array after the run.

  A region's output window is written back at the last grid point only, through a block that is the whole array, and what
  is written back there is the accumulator as that point leaves it. So the array ends holding the accumulator after the
  last point: the histogram row for region 0, the weighted sum for region 1.
-/
import proofs.«154215_j627065225459_1_alg».proof.Proof.KI.Defs0
import proofs.«154215_j627065225459_1_alg».proof.Proof.KI.Defs1
import Idealize.ShloMosaic.Lib.Pipeline.Value
import Idealize.ShloMosaic.Lib.ValueIdx

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section
variable (V : (c : Dev nD) → (b : Ref sig .tc) → Buf (Elt F) ((c : Thread nD τ).loc b))

/-! ## Region 0: the histogram row -/

/-- The output window's block index is 0 on both axes at every point: its one block is the whole row. -/
theorem e_index0 : ∀ t : Fin cfg0.N, ∀ a : Fin 2, win0_2.index t a = 0 :=
  (by decide +kernel : ∀ t : Fin grid0.N, ∀ a : Fin 2, win0_2.index t a = 0)

/-- What the one write-back writes is the accumulator after the last point, read through the whole-array block. -/
theorem e_flushed0 (c : Dev nD) (h : 1023 < cfg0.N) (t : Fin cfg0.N) (hf : (cfg0.win 2).flush t = true) :
    (dat0 V c).flushed 2 t = ((cfg0.win 2).blk t).view.read (Elt F) (acc0 V c 1023 h) := by
  have hN : cfg0.N = 1024 := N_0
  have h1 : t.val = 1023 := by have := (flush0_2 t).mp hf; have := t.isLt; omega
  obtain rfl : t = ⟨1023, h⟩ := Fin.ext h1
  show (cfg0.win 2).cut (grid0.coords ⟨1023, h⟩) ((dat0 V c).after 2 ⟨1023, h⟩) = _
  rw [after0_2]
  have hz' : (fun a => win0_2.index ⟨1023, h⟩ a * main_v1.ty.shape.size a) = fun _ => 0 :=
    funext fun a => by rw [e_index0]; exact Nat.zero_mul _
  exact (Memref.read_access_unit_zero (Elt F) main_v1 hz' (fun a => by rw [congrFun hz' a]; simp) (acc0 V c 1023 h)).symm

/-- Every index of the row is in the last point's block. -/
theorem e_cover0 (c : Dev nD) (h : 1023 < cfg0.N) (i : ((cfg0.win 2).arr.view.loc (c.tc : Thread nD τ)).2.ty.Idx) :
    ∃ t : Fin cfg0.N, (cfg0.win 2).flush t = true ∧ i ∈ ((cfg0.win 2).blk t).view.set :=
  ⟨⟨1023, h⟩, (flush0_2 _).mpr rfl, by
    show i ∈ ((View.whole main_v1).slice (win0_2.rect ⟨1023, h⟩)).set
    rw [View.set_slice_whole, Rect.mem_set_unit]
    intro a
    have h0 : (i 0 : Nat) < 1 := (i 0).isLt
    have h1 : (i 1 : Nat) < 128 := (i 1).isLt
    match a with
    | ⟨0, _⟩ =>
      show win0_2.index ⟨1023, h⟩ 0 * win0_2.size 0 ≤ (i 0 : Nat) ∧ (i 0 : Nat) < win0_2.index ⟨1023, h⟩ 0 * win0_2.size 0 + win0_2.xsize (grid0.coords ⟨1023, h⟩) 0
      rw [e_index0]
      show 0 * 1 ≤ (i 0 : Nat) ∧ (i 0 : Nat) < 0 * 1 + 1
      omega
    | ⟨1, _⟩ =>
      show win0_2.index ⟨1023, h⟩ 1 * win0_2.size 1 ≤ (i 1 : Nat) ∧ (i 1 : Nat) < win0_2.index ⟨1023, h⟩ 1 * win0_2.size 1 + win0_2.xsize (grid0.coords ⟨1023, h⟩) 1
      rw [e_index0]
      show 0 * 128 ≤ (i 1 : Nat) ∧ (i 1 : Nat) < 0 * 128 + 128
      omega⟩

/-- The histogram's array ends holding the accumulator after the last point. -/
theorem arr0_final (c : Dev nD) (h : 1023 < cfg0.N) (l : Fin 128) :
    (dat0 V c).arrAt 2 cfg0.N (ix2 (0 : Fin 1) l) = acc0 V c 1023 h (ix2 (0 : Fin 1) l) :=
  congrFun ((dat0 V c).arrAt_eq_of_cover 2 (acc0 V c 1023 h) (e_flushed0 V c h) (e_cover0 c h)) _

/-! ## Region 1: the weighted sum -/

/-- The output window's block index is 0 on both axes at every point: its one block is the whole array. -/
theorem e_index1 : ∀ t : Fin cfg1.N, ∀ a : Fin 2, win1_3.index t a = 0 :=
  (by decide +kernel : ∀ t : Fin grid1.N, ∀ a : Fin 2, win1_3.index t a = 0)

/-- What the one write-back writes is the accumulator after the last point, read through the whole-array block. -/
theorem e_flushed1 (c : Dev nD) (h : 1023 < cfg1.N) (t : Fin cfg1.N) (hf : (cfg1.win 3).flush t = true) :
    (dat1 V c).flushed 3 t = ((cfg1.win 3).blk t).view.read (Elt F) (acc1 V c 1023 h) := by
  have hN : cfg1.N = 1024 := N_1
  have h1 : t.val = 1023 := by have := (flush1_3 t).mp hf; have := t.isLt; omega
  obtain rfl : t = ⟨1023, h⟩ := Fin.ext h1
  show (cfg1.win 3).cut (grid1.coords ⟨1023, h⟩) ((dat1 V c).after 3 ⟨1023, h⟩) = _
  rw [after1_3]
  have hz' : (fun a => win1_3.index ⟨1023, h⟩ a * main_v21.ty.shape.size a) = fun _ => 0 :=
    funext fun a => by rw [e_index1]; exact Nat.zero_mul _
  exact (Memref.read_access_unit_zero (Elt F) main_v21 hz' (fun a => by rw [congrFun hz' a]; simp) (acc1 V c 1023 h)).symm

/-- The array's one index is in the last point's block. -/
theorem e_cover1 (c : Dev nD) (h : 1023 < cfg1.N) (i : ((cfg1.win 3).arr.view.loc (c.tc : Thread nD τ)).2.ty.Idx) :
    ∃ t : Fin cfg1.N, (cfg1.win 3).flush t = true ∧ i ∈ ((cfg1.win 3).blk t).view.set :=
  ⟨⟨1023, h⟩, (flush1_3 _).mpr rfl, by
    show i ∈ ((View.whole main_v21).slice (win1_3.rect ⟨1023, h⟩)).set
    rw [View.set_slice_whole, Rect.mem_set_unit]
    intro a
    have h0 : (i 0 : Nat) < 1 := (i 0).isLt
    have h1 : (i 1 : Nat) < 1 := (i 1).isLt
    match a with
    | ⟨0, _⟩ =>
      show win1_3.index ⟨1023, h⟩ 0 * win1_3.size 0 ≤ (i 0 : Nat) ∧ (i 0 : Nat) < win1_3.index ⟨1023, h⟩ 0 * win1_3.size 0 + win1_3.xsize (grid1.coords ⟨1023, h⟩) 0
      rw [e_index1]
      show 0 * 1 ≤ (i 0 : Nat) ∧ (i 0 : Nat) < 0 * 1 + 1
      omega
    | ⟨1, _⟩ =>
      show win1_3.index ⟨1023, h⟩ 1 * win1_3.size 1 ≤ (i 1 : Nat) ∧ (i 1 : Nat) < win1_3.index ⟨1023, h⟩ 1 * win1_3.size 1 + win1_3.xsize (grid1.coords ⟨1023, h⟩) 1
      rw [e_index1]
      show 0 * 1 ≤ (i 1 : Nat) ∧ (i 1 : Nat) < 0 * 1 + 1
      omega⟩

/-- The weighted sum's array ends holding the accumulator after the last point. -/
theorem arr1_final (c : Dev nD) (h : 1023 < cfg1.N) :
    (dat1 V c).arrAt 3 cfg1.N (ix2 (0 : Fin 1) (0 : Fin 1)) = acc1 V c 1023 h (ix2 (0 : Fin 1) (0 : Fin 1)) :=
  congrFun ((dat1 V c).arrAt_eq_of_cover 3 (acc1 V c 1023 h) (e_flushed1 V c h) (e_cover1 c h)) _

end

end Cert.KernelIdeal.HandV

end
-- ==== Proof.SpecLemmas.lean ====
/-
  Small facts about the specification's aggregate: the indicator is 1 where the words agree and 0 elsewhere; a clamped
  bin word names one of thirty bins; a one-hot row times a row of 128 weights, summed, is the weight the word names;
  and a sum over the rows is the sum over 1024 blocks of the sums over each block's 16384 rows.
-/
import proofs.«154215_j627065225459_1_alg».proof.Proof.Spec

noncomputable section

namespace Cert.Spec

open Idealize.ShloMosaic

/-- The indicator of two words agreeing. -/
theorem ind_eq (a l : BitVec 32) : ind a l = if a = l then 1 else 0 := by
  unfold ind
  show ((((IntOp.cmpi .eq a l).setWidth 32).toInt : ℝ) : EReal) = _
  by_cases h : a = l
  · subst h
    have : ((IntOp.cmpi .eq a a).setWidth 32) = 1#32 := by simp [IntOp.cmpi]
    rw [this, if_pos rfl]; norm_num
  · have hb : (a == l) = false := by simpa using h
    have : ((IntOp.cmpi .eq a l).setWidth 32) = 0#32 := by simp [IntOp.cmpi, hb]
    rw [this, if_neg h]; norm_num

/-- A word clamped to [0, 29] (as signed words) is below 30 as a natural number. -/
theorem clamp_lt (r : BitVec 32) : (IntOp.minsi 29#32 (IntOp.maxsi 0#32 r)).toNat < 30 := by
  unfold IntOp.minsi IntOp.maxsi
  simp only [BitVec.slt, BitVec.toInt_eq_toNat_cond]
  split_ifs <;> simp_all <;> omega

/-- A row's bin names one of the thirty bins. -/
theorem bin_lt (x0 x1 : EReal) (t : BitVec 32) : (bin x0 x1 t).toNat < 30 := clamp_lt _

/-- A one-hot row against a row of 128 values: the value at the word's lane. -/
theorem onehot_sum (f : Fin 128 → EReal) (a : BitVec 32) (ha : a.toNat < 128) :
    ∑ l : Fin 128, ind a (BitVec.ofNat 32 l.val) * f l = f ⟨a.toNat, ha⟩ := by
  have h : ∀ l : Fin 128, ind a (BitVec.ofNat 32 l.val) * f l = if l = ⟨a.toNat, ha⟩ then f l else 0 := by
    intro l
    rw [ind_eq]
    have hl : (a = BitVec.ofNat 32 l.val) ↔ l = ⟨a.toNat, ha⟩ := by
      constructor
      · intro e; apply Fin.ext; subst e; simp; omega
      · intro e; subst e; simp
    by_cases hc : l = ⟨a.toNat, ha⟩
    · rw [if_pos (hl.mpr hc), if_pos hc, one_mul]
    · rw [if_neg (fun e => hc (hl.mp e)), if_neg hc, zero_mul]
  rw [Finset.sum_congr rfl (fun l _ => h l), Finset.sum_ite_eq' Finset.univ ⟨a.toNat, ha⟩ f]
  simp

/-- A sum over the 2²⁴ rows, block by block: 1024 blocks of 16384 rows. -/
theorem sum_blocks {M : Type*} [AddCommMonoid M] (f : Fin NR → M) :
    ∑ t : Fin 1024, ∑ r : Fin 16384, f ⟨16384 * t.val + r.val, by have := t.isLt; have := r.isLt; show _ < 16777216; omega⟩ = ∑ j : Fin NR, f j := by
  rw [← Fintype.sum_prod_type (f := fun p : Fin 1024 × Fin 16384 => f ⟨16384 * p.1.val + p.2.val, by have := p.1.isLt; have := p.2.isLt; show _ < 16777216; omega⟩)]
  refine Fintype.sum_equiv ((finProdFinEquiv (m := 1024) (n := 16384)).trans (finCongr (by norm_num))) _ _ ?_
  intro p
  congr 1
  apply Fin.ext
  simp [finProdFinEquiv]
  omega

end Cert.Spec

end
-- ==== Proof.KI.AccVal.lean ====
/-
  The two accumulators in closed form, on the extended reals. One grid point adds to the accumulator the block's partial
  sum (given: the one-point functions read at an index, `StepFacts`); so after point n the accumulator holds the sum of
  the partial sums of the points up to n, and after the last point the sum over all 1024 blocks. A block's row r at
  point t is row 16384·t + r of the array, so the sum over blocks of the sums over a block's rows is the sum over all
  rows: the histogram accumulator ends at the specification's counts, the loss accumulator at the specification's
  weighted sum. The output window of each region is written back at the last point only, through a block that is the
  whole array, so the array ends holding the accumulator.
-/
import proofs.«154215_j627065225459_1_alg».proof.Proof.KI.Defs0
import proofs.«154215_j627065225459_1_alg».proof.Proof.KI.Defs1
import proofs.«154215_j627065225459_1_alg».proof.Proof.SpecLemmas
import Idealize.ShloMosaic.Lib.Pipeline.Value
import Idealize.ShloMosaic.Lib.ValueIdx

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

/-- A block's row `r`: its bin and its cross-entropy. -/
def rowBin (x0 : Vec Ideal S16384x2 .f32) (x1 : Vec Ideal S16384x1 .i32) (r : Fin 16384) : BitVec 32 :=
  Cert.Spec.bin (x0 (ix2 r (0 : Fin 2))) (x0 (ix2 r (1 : Fin 2))) (x1 (ix2 r (0 : Fin 1)))
def rowCe (x0 : Vec Ideal S16384x2 .f32) (x1 : Vec Ideal S16384x1 .i32) (r : Fin 16384) : EReal :=
  Cert.Spec.ce (x0 (ix2 r (0 : Fin 2))) (x0 (ix2 r (1 : Fin 2))) (x1 (ix2 r (0 : Fin 1)))

/-- The one-point functions read at an index (proved where the payloads are read). -/
structure StepFacts : Prop where
  s0 : ∀ (x0 : Vec Ideal S16384x2 .f32) (x1 : Vec Ideal S16384x1 .i32) (s : Vec Ideal S1x128 .f32) (l : Fin 128),
    step0 (F := Ideal) x0 x1 s (ix2 (0 : Fin 1) l) = s (ix2 (0 : Fin 1) l) + ∑ r : Fin 16384, Cert.Spec.ind (rowBin x0 x1 r) (BitVec.ofNat 32 l.val)
  z0 : ∀ l : Fin 128, k0_pay2 (F := Ideal) (ix2 (0 : Fin 1) l) = 0
  s1 : ∀ (x0 : Vec Ideal S16384x2 .f32) (x1 : Vec Ideal S16384x1 .i32) (xb : Vec Ideal S1x128 .f32) (s : Vec Ideal S1x1 .f32),
    step1 (F := Ideal) x0 x1 xb s (ix2 (0 : Fin 1) (0 : Fin 1)) = s (ix2 (0 : Fin 1) (0 : Fin 1))
      + ∑ r : Fin 16384, (∑ l : Fin 128, Cert.Spec.ind (rowBin x0 x1 r) (BitVec.ofNat 32 l.val) * xb (ix2 (0 : Fin 1) l)) * rowCe x0 x1 r
  z1 : k1_pay2 (F := Ideal) (ix2 (0 : Fin 1) (0 : Fin 1)) = 0

section
variable (V : (c : Dev nD) → (b : Ref sig .tc) → Buf (Elt Ideal) ((c : Thread nD τ).loc b))

/-! ## Region 0 -/

/-- Point `n`'s partial histogram at lane `l`. -/
def part0 (c : Dev nD) (n : ℕ) (l : Fin 128) : EReal :=
  if h : n < cfg0.N then ∑ r : Fin 16384, Cert.Spec.ind (rowBin (iblk0 V c 0 ⟨n, h⟩) (iblk0 V c 1 ⟨n, h⟩) r) (BitVec.ofNat 32 l.val) else 0

/-- The histogram accumulator after point `n`: the partial histograms up to `n`, summed. -/
theorem acc0_closed (H : StepFacts) (c : Dev nD) (n : ℕ) (h : n < cfg0.N) (l : Fin 128) :
    acc0 V c n h (ix2 (0 : Fin 1) l) = ∑ k ∈ Finset.range (n + 1), part0 V c k l := by
  induction n with
  | zero =>
    have e := H.s0 (iblk0 V c 0 ⟨0, h⟩) (iblk0 V c 1 ⟨0, h⟩) (k0_pay2 (F := Ideal)) l
    rw [H.z0, zero_add] at e
    rw [Finset.sum_range_one]
    unfold part0; rw [dif_pos h]
    exact e
  | succ n ih =>
    have e := H.s0 (iblk0 V c 0 ⟨n + 1, h⟩) (iblk0 V c 1 ⟨n + 1, h⟩) (acc0 V c n (Nat.lt_of_succ_lt h)) l
    rw [ih (Nat.lt_of_succ_lt h)] at e
    rw [Finset.sum_range_succ _ (n + 1)]
    unfold part0; rw [dif_pos h]
    exact e

/-! ## Region 1 -/

/-- Point `n`'s partial weighted sum. -/
def part1 (c : Dev nD) (n : ℕ) : EReal :=
  if h : n < cfg1.N then ∑ r : Fin 16384, (∑ l : Fin 128, Cert.Spec.ind (rowBin (iblk1 V c 0 ⟨n, h⟩) (iblk1 V c 1 ⟨n, h⟩) r) (BitVec.ofNat 32 l.val) * (iblk1 V c 2 ⟨n, h⟩) (ix2 (0 : Fin 1) l)) * rowCe (iblk1 V c 0 ⟨n, h⟩) (iblk1 V c 1 ⟨n, h⟩) r else 0

/-- The loss accumulator after point `n`: the partial sums up to `n`, summed. -/
theorem acc1_closed (H : StepFacts) (c : Dev nD) (n : ℕ) (h : n < cfg1.N) :
    acc1 V c n h (ix2 (0 : Fin 1) (0 : Fin 1)) = ∑ k ∈ Finset.range (n + 1), part1 V c k := by
  induction n with
  | zero =>
    have e := H.s1 (iblk1 V c 0 ⟨0, h⟩) (iblk1 V c 1 ⟨0, h⟩) (iblk1 V c 2 ⟨0, h⟩) (k1_pay2 (F := Ideal))
    rw [H.z1, zero_add] at e
    rw [Finset.sum_range_one]
    unfold part1; rw [dif_pos h]
    exact e
  | succ n ih =>
    have e := H.s1 (iblk1 V c 0 ⟨n + 1, h⟩) (iblk1 V c 1 ⟨n + 1, h⟩) (iblk1 V c 2 ⟨n + 1, h⟩) (acc1 V c n (Nat.lt_of_succ_lt h))
    rw [ih (Nat.lt_of_succ_lt h)] at e
    rw [Finset.sum_range_succ _ (n + 1)]
    unfold part1; rw [dif_pos h]
    exact e

end

/-! ## A block's rows are the array's rows -/

/-- The printed index maps over the grid: the two row-blocked windows of each region are at block `t` of the rows,
    the one-block windows at block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

section
variable (V : (c : Dev nD) → (b : Ref sig .tc) → Buf (Elt Ideal) ((c : Thread nD τ).loc b))

theorem iblk0_0_apply (c : Dev nD) (t : Fin cfg0.N) (r : Fin 16384) (k : Fin 2) :
    (iblk0 V c 0 t : Vec Ideal S16384x2 .f32) (ix2 r k)
      = V c main_arg0 (ix2 (⟨16384 * t.val + r.val, by have := lt_of_lt_of_eq t.isLt (show cfg0.N = 1024 from N_0); have := r.isLt; omega⟩ : Fin 16777216) k) := by
  obtain ⟨e0, e1, -⟩ := idx_facts0 t
  show V c main_arg0 (((cfg0.win 0).blk t).view.emb (ix2 r k)) = _
  congr 1
  funext a; apply Fin.ext
  match a with
  | ⟨0, _⟩ => show win0_0.index t (0 : Fin 2) * 16384 + 1 * r.val = 16384 * t.val + r.val; omega
  | ⟨1, _⟩ => show win0_0.index t (1 : Fin 2) * 2 + 1 * k.val = k.val; omega

theorem iblk0_1_apply (c : Dev nD) (t : Fin cfg0.N) (r : Fin 16384) :
    (iblk0 V c 1 t : Vec Ideal S16384x1 .i32) (ix2 r (0 : Fin 1))
      = V c main_v0 (ix2 (⟨16384 * t.val + r.val, by have := lt_of_lt_of_eq t.isLt (show cfg0.N = 1024 from N_0); have := r.isLt; omega⟩ : Fin 16777216) (0 : Fin 1)) := by
  obtain ⟨-, -, e0, e1, -⟩ := idx_facts0 t
  show V c main_v0 (((cfg0.win 1).blk t).view.emb (ix2 r (0 : Fin 1))) = _
  congr 1
  funext a; apply Fin.ext
  match a with
  | ⟨0, _⟩ => show win0_1.index t (0 : Fin 2) * 16384 + 1 * r.val = 16384 * t.val + r.val; omega
  | ⟨1, _⟩ => show win0_1.index t (1 : Fin 2) * 1 + 1 * 0 = 0; omega

end

section
variable (V : (c : Dev nD) → (b : Ref sig .tc) → Buf (Elt Ideal) ((c : Thread nD τ).loc b))

theorem iblk1_0_apply (c : Dev nD) (t : Fin cfg1.N) (r : Fin 16384) (k : Fin 2) :
    (iblk1 V c 0 t : Vec Ideal S16384x2 .f32) (ix2 r k)
      = V c main_arg0 (ix2 (⟨16384 * t.val + r.val, by have := lt_of_lt_of_eq t.isLt (show cfg1.N = 1024 from N_1); have := r.isLt; omega⟩ : Fin 16777216) k) := by
  obtain ⟨e0, e1, -⟩ := idx_facts1 t
  show V c main_arg0 (((cfg1.win 0).blk t).view.emb (ix2 r k)) = _
  congr 1
  funext a; apply Fin.ext
  match a with
  | ⟨0, _⟩ => show win1_0.index t (0 : Fin 2) * 16384 + 1 * r.val = 16384 * t.val + r.val; omega
  | ⟨1, _⟩ => show win1_0.index t (1 : Fin 2) * 2 + 1 * k.val = k.val; omega

theorem iblk1_1_apply (c : Dev nD) (t : Fin cfg1.N) (r : Fin 16384) :
    (iblk1 V c 1 t : Vec Ideal S16384x1 .i32) (ix2 r (0 : Fin 1))
      = V c main_v0 (ix2 (⟨16384 * t.val + r.val, by have := lt_of_lt_of_eq t.isLt (show cfg1.N = 1024 from N_1); have := r.isLt; omega⟩ : Fin 16777216) (0 : Fin 1)) := by
  obtain ⟨-, -, e0, e1, -⟩ := idx_facts1 t
  show V c main_v0 (((cfg1.win 1).blk t).view.emb (ix2 r (0 : Fin 1))) = _
  congr 1
  funext a; apply Fin.ext
  match a with
  | ⟨0, _⟩ => show win1_1.index t (0 : Fin 2) * 16384 + 1 * r.val = 16384 * t.val + r.val; omega
  | ⟨1, _⟩ => show win1_1.index t (1 : Fin 2) * 1 + 1 * 0 = 0; omega

theorem iblk1_2_apply (c : Dev nD) (t : Fin cfg1.N) (l : Fin 128) :
    (iblk1 V c 2 t : Vec Ideal S1x128 .f32) (ix2 (0 : Fin 1) l) = V c main_v20 (ix2 (0 : Fin 1) l) := by
  obtain ⟨-, -, -, -, e0, e1, -⟩ := idx_facts1 t
  show V c main_v20 (((cfg1.win 2).blk t).view.emb (ix2 (0 : Fin 1) l)) = _
  congr 1
  funext a; apply Fin.ext
  match a with
  | ⟨0, _⟩ => show win1_2.index t (0 : Fin 2) * 1 + 1 * 0 = 0; omega
  | ⟨1, _⟩ => show win1_2.index t (1 : Fin 2) * 128 + 1 * l.val = l.val; omega

/-! ## The accumulators after the last point -/

variable (X : Cert.Spec.SX.Idx → EReal) (T : Cert.Spec.ST.Idx → BitVec 32)

/-- A block's row is a row of the arrays: its bin. -/
theorem rowBin0 (c : Dev nD) (hX : ∀ i, V c main_arg0 i = X i)
    (hT : ∀ j : Fin Cert.Spec.NR, V c main_v0 (ix2 j (0 : Fin 1)) = T (ix1 j)) (t : Fin cfg0.N) (r : Fin 16384) :
    rowBin (iblk0 V c 0 t) (iblk0 V c 1 t) r
      = Cert.Spec.binOf X T ⟨16384 * t.val + r.val, by have := lt_of_lt_of_eq t.isLt (show cfg0.N = 1024 from N_0); have := r.isLt; show _ < 16777216; omega⟩ := by
  have h0 := (iblk0_0_apply V c t r 0).trans (hX _)
  have h1 := (iblk0_0_apply V c t r 1).trans (hX _)
  have h2 := (iblk0_1_apply V c t r).trans (hT _)
  unfold rowBin Cert.Spec.binOf
  rw [h0, h1, h2]

theorem rowBin1 (c : Dev nD) (hX : ∀ i, V c main_arg0 i = X i)
    (hT : ∀ j : Fin Cert.Spec.NR, V c main_v0 (ix2 j (0 : Fin 1)) = T (ix1 j)) (t : Fin cfg1.N) (r : Fin 16384) :
    rowBin (iblk1 V c 0 t) (iblk1 V c 1 t) r
      = Cert.Spec.binOf X T ⟨16384 * t.val + r.val, by have := lt_of_lt_of_eq t.isLt (show cfg1.N = 1024 from N_1); have := r.isLt; show _ < 16777216; omega⟩ := by
  have h0 := (iblk1_0_apply V c t r 0).trans (hX _)
  have h1 := (iblk1_0_apply V c t r 1).trans (hX _)
  have h2 := (iblk1_1_apply V c t r).trans (hT _)
  unfold rowBin Cert.Spec.binOf
  rw [h0, h1, h2]

theorem rowCe1 (c : Dev nD) (hX : ∀ i, V c main_arg0 i = X i)
    (hT : ∀ j : Fin Cert.Spec.NR, V c main_v0 (ix2 j (0 : Fin 1)) = T (ix1 j)) (t : Fin cfg1.N) (r : Fin 16384) :
    rowCe (iblk1 V c 0 t) (iblk1 V c 1 t) r
      = Cert.Spec.ceOf X T ⟨16384 * t.val + r.val, by have := lt_of_lt_of_eq t.isLt (show cfg1.N = 1024 from N_1); have := r.isLt; show _ < 16777216; omega⟩ := by
  have h0 := (iblk1_0_apply V c t r 0).trans (hX _)
  have h1 := (iblk1_0_apply V c t r 1).trans (hX _)
  have h2 := (iblk1_1_apply V c t r).trans (hT _)
  unfold rowCe Cert.Spec.ceOf
  rw [h0, h1, h2]

/-- A row's bin names one of the thirty bins. -/
theorem binOf_lt (j : Fin Cert.Spec.NR) : (Cert.Spec.binOf X T j).toNat < 30 := Cert.Spec.bin_lt _ _ _

/-- The histogram accumulator after the last point: the specification's counts. -/
theorem counts_acc (H : StepFacts) (c : Dev nD) (hX : ∀ i, V c main_arg0 i = X i)
    (hT : ∀ j : Fin Cert.Spec.NR, V c main_v0 (ix2 j (0 : Fin 1)) = T (ix1 j)) (h : 1023 < cfg0.N) (l : Fin 128) :
    acc0 V c 1023 h (ix2 (0 : Fin 1) l) = Cert.Spec.cnt (Cert.Spec.binOf X T) (BitVec.ofNat 32 l.val) := by
  rw [acc0_closed V H c 1023 h l, show (1023 + 1 : ℕ) = 1024 from rfl, Finset.sum_range]
  unfold Cert.Spec.cnt
  rw [← Cert.Spec.sum_blocks]
  refine Finset.sum_congr rfl fun t _ => ?_
  have ht : t.val < cfg0.N := lt_of_lt_of_eq t.isLt (show 1024 = cfg0.N from N_0.symm)
  unfold part0; rw [dif_pos ht]
  refine Finset.sum_congr rfl fun r _ => ?_
  rw [rowBin0 V X T c hX hT ⟨t.val, ht⟩ r]

/-- The loss accumulator after the last point: over all rows, the weight at the row's bin times its cross-entropy. -/
theorem total_acc (H : StepFacts) (c : Dev nD) (hX : ∀ i, V c main_arg0 i = X i)
    (hT : ∀ j : Fin Cert.Spec.NR, V c main_v0 (ix2 j (0 : Fin 1)) = T (ix1 j))
    (pad : Fin 128 → EReal) (hB : ∀ l : Fin 128, V c main_v20 (ix2 (0 : Fin 1) l) = pad l) (h : 1023 < cfg1.N) :
    acc1 V c 1023 h (ix2 (0 : Fin 1) (0 : Fin 1))
      = ∑ j : Fin Cert.Spec.NR, pad ⟨(Cert.Spec.binOf X T j).toNat, lt_trans (binOf_lt X T j) (by norm_num)⟩ * Cert.Spec.ceOf X T j := by
  rw [acc1_closed V H c 1023 h, show (1023 + 1 : ℕ) = 1024 from rfl, Finset.sum_range]
  rw [← Cert.Spec.sum_blocks]
  refine Finset.sum_congr rfl fun t _ => ?_
  have ht : t.val < cfg1.N := lt_of_lt_of_eq t.isLt (show 1024 = cfg1.N from N_1.symm)
  unfold part1; rw [dif_pos ht]
  refine Finset.sum_congr rfl fun r _ => ?_
  have hb := rowBin1 V X T c hX hT ⟨t.val, ht⟩ r
  have hc := rowCe1 V X T c hX hT ⟨t.val, ht⟩ r
  have hl : ∀ l : Fin 128, (iblk1 V c 2 ⟨t.val, ht⟩ : Vec Ideal S1x128 .f32) (ix2 (0 : Fin 1) l) = pad l :=
    fun l => (iblk1_2_apply V c ⟨t.val, ht⟩ l).trans (hB l)
  rw [hc, Finset.sum_congr rfl (fun l _ => by rw [hl l, hb])]
  rw [Cert.Spec.onehot_sum pad _ (lt_trans (binOf_lt X T _) (by norm_num))]

end

end Cert.KernelIdeal.HandV

end
-- ==== Proof.KI.KernelValue.lean ====
/-
  The value the kernel program returns, on the extended reals: the last boundary's contents at the result buffer are the
  specification's loss of the two argument arrays. Read backwards through @main: the result is the second region's
  one-element output divided by 2²⁴; that output is the loss accumulator after the last grid point, which is the sum over
  all rows of (the weight row at the row's bin) × (the row's cross-entropy); the weight row the second region reads is,
  on its first thirty lanes, the specification's weights of the thirty counts the first region's output holds, and zero
  on the other lanes; and the first region's output is the histogram accumulator after its last grid point, the
  specification's counts of the rows' bins. Both regions read the logits from the first argument's buffer, which nothing
  writes, and the labels from the reshaped second argument.
-/
import proofs.«154215_j627065225459_1_alg».proof.Proof.KI.Run
import proofs.«154215_j627065225459_1_alg».proof.Proof.KI.AccVal
import proofs.«154215_j627065225459_1_alg».proof.Proof.Spec
import proofs.«154215_j627065225459_1_alg».proof.Proof.SpecLemmas

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

/-- The five host stretches between the two regions, from the contents `W`. -/
abbrev c_hmid (W : Valuation τ sig (Elt Ideal)) : Valuation τ sig (Elt Ideal) :=
  StableHlo.after hostOps1_4 (StableHlo.after hostOps1_3 (StableHlo.after hostOps1_2 (StableHlo.after hostOps1_1 (StableHlo.after hostOps1 W))))

/-- What the host stretches compute, read over any contents `W` they start from, and what each region's output array
    holds after the region: the accumulator after the last grid point. -/
structure c_HostFacts : Prop where
  pre_v0 : ∀ (W : Valuation τ sig (Elt Ideal)) (j : Fin 16777216),
    StableHlo.after hostOps0 W (Proc.devRef .tc main_v0) (ix2 j (0 : Fin 1)) = W (Proc.devRef .tc main_arg1) (ix1 j)
  pre_arg0 : ∀ W : Valuation τ sig (Elt Ideal),
    StableHlo.after hostOps0 W (Proc.devRef .tc main_arg0) = W (Proc.devRef .tc main_arg0)
  mid_v20 : ∀ (W : Valuation τ sig (Elt Ideal)) (l : Fin 128),
    c_hmid W (Proc.devRef .tc main_v20) (ix2 (0 : Fin 1) l)
      = if h : l.val < 30 then Cert.Spec.beta (fun b : Fin 30 => W (Proc.devRef .tc main_v1) (ix2 (0 : Fin 1) (⟨b.val, by omega⟩ : Fin 128))) ⟨l.val, h⟩ else 0
  mid_arg0 : ∀ W : Valuation τ sig (Elt Ideal), c_hmid W (Proc.devRef .tc main_arg0) = W (Proc.devRef .tc main_arg0)
  mid_v0 : ∀ W : Valuation τ sig (Elt Ideal), c_hmid W (Proc.devRef .tc main_v0) = W (Proc.devRef .tc main_v0)
  tail_v23 : ∀ W : Valuation τ sig (Elt Ideal),
    StableHlo.after hostOps2 W (Proc.devRef .tc main_v23) ix0
      = Ideal.div (W (Proc.devRef .tc main_v21) (ix2 (0 : Fin 1) (0 : Fin 1))) Cert.Spec.big
  arr0 : ∀ (V : (c : Dev nD) → (b : Ref sig .tc) → Buf (Elt Ideal) ((c : Thread nD τ).loc b)) (c : Dev nD) (h : 1023 < cfg0.N) (l : Fin 128),
    (dat0 (F := Ideal) V c).arrAt 2 cfg0.N (ix2 (0 : Fin 1) l) = acc0 V c 1023 h (ix2 (0 : Fin 1) l)
  arr1 : ∀ (V : (c : Dev nD) → (b : Ref sig .tc) → Buf (Elt Ideal) ((c : Thread nD τ).loc b)) (c : Dev nD) (h : 1023 < cfg1.N),
    (dat1 (F := Ideal) V c).arrAt 3 cfg1.N (ix2 (0 : Fin 1) (0 : Fin 1)) = acc1 V c 1023 h (ix2 (0 : Fin 1) (0 : Fin 1))

section
variable (m : (ℓ : Loc nD τ sig) → Buf (Elt Ideal) ℓ)

/-- The two argument arrays at launch: the logits, two per row, and the labels. -/
abbrev c_X (c : Dev nD) : Cert.Spec.SX.Idx → EReal := m ((c.tc : Thread nD τ).loc main_arg0)
abbrev c_T (c : Dev nD) : Cert.Spec.ST.Idx → BitVec 32 := m ((c.tc : Thread nD τ).loc main_arg1)

/-- The row of 128 weights the second region reads: the specification's weights of the thirty counts on the first thirty
    lanes, zero on the others. -/
abbrev c_pad (c : Dev nD) (l : Fin 128) : EReal :=
  if h : l.val < 30 then Cert.Spec.beta (Cert.Spec.cnts (Cert.Spec.binOf (c_X m c) (c_T m c))) ⟨l.val, h⟩ else 0

/-- The first region leaves the logits' and the labels' arrays as it found them: both are input windows. -/
theorem c_W2_arg0 (c : Dev nD) : W2 m c (Proc.devRef .tc main_arg0) = Hand.V1 m c main_arg0 :=
  (W2_arr m c 0).trans (((dat0 (Hand.V1 m) c).arrAt_in 0 rfl _).trans (A_eq0 (Hand.V1 m) c 0))
theorem c_W2_v0 (c : Dev nD) : W2 m c (Proc.devRef .tc main_v0) = Hand.V1 m c main_v0 :=
  (W2_arr m c 1).trans (((dat0 (Hand.V1 m) c).arrAt_in 1 rfl _).trans (A_eq0 (Hand.V1 m) c 1))

end

/-- THE KERNEL'S VALUE: the result buffer at the last boundary holds the specification's loss of the argument arrays. -/
theorem kernel_value (HS : StepFacts) (HH : c_HostFacts) (m : (ℓ : Loc nD τ sig) → Buf (Elt Ideal) ℓ) (c : Dev nD) :
    W9 m c (Proc.devRef .tc main_v23) ix0
      = Cert.Spec.loss (m ((c.tc : Thread nD τ).loc main_arg0)) (m ((c.tc : Thread nD τ).loc main_arg1)) := by
  have h0 : 1023 < cfg0.N := lt_of_lt_of_eq (by norm_num) (show 1024 = cfg0.N from N_0.symm)
  have h1 : 1023 < cfg1.N := lt_of_lt_of_eq (by norm_num) (show 1024 = cfg1.N from N_1.symm)
  -- what the first region reads: the logits as launched, the labels reshaped
  have hX1 : ∀ i, Hand.V1 m c main_arg0 i = c_X m c i := fun i => congrFun (HH.pre_arg0 (W0 m c)) i
  have hT1 : ∀ j : Fin Cert.Spec.NR, Hand.V1 m c main_v0 (ix2 j (0 : Fin 1)) = c_T m c (ix1 j) := fun j => HH.pre_v0 (W0 m c) j
  -- the first region's output: the counts
  have hcnt : ∀ l : Fin 128, W2 m c (Proc.devRef .tc main_v1) (ix2 (0 : Fin 1) l)
      = Cert.Spec.cnt (Cert.Spec.binOf (c_X m c) (c_T m c)) (BitVec.ofNat 32 l.val) := fun l =>
    (congrFun (W2_arr m c 2) (ix2 (0 : Fin 1) l)).trans
      ((HH.arr0 (Hand.V1 m) c h0 l).trans (counts_acc (Hand.V1 m) (c_X m c) (c_T m c) HS c hX1 hT1 h0 l))
  -- what the second region reads: the same logits and labels, and the weights of those counts
  have hX7 : ∀ i, Hand.V7 m c main_arg0 i = c_X m c i := fun i =>
    (congrFun ((HH.mid_arg0 (W2 m c)).trans (c_W2_arg0 m c)) i).trans (hX1 i)
  have hT7 : ∀ j : Fin Cert.Spec.NR, Hand.V7 m c main_v0 (ix2 j (0 : Fin 1)) = c_T m c (ix1 j) := fun j =>
    (congrFun ((HH.mid_v0 (W2 m c)).trans (c_W2_v0 m c)) (ix2 j (0 : Fin 1))).trans (hT1 j)
  have hfun : (fun b : Fin 30 => W2 m c (Proc.devRef .tc main_v1) (ix2 (0 : Fin 1) (⟨b.val, by omega⟩ : Fin 128)))
      = Cert.Spec.cnts (Cert.Spec.binOf (c_X m c) (c_T m c)) := funext fun b => hcnt ⟨b.val, by omega⟩
  have hpad : ∀ l : Fin 128, Hand.V7 m c main_v20 (ix2 (0 : Fin 1) l) = c_pad m c l := fun l =>
    (HH.mid_v20 (W2 m c) l).trans (by rw [hfun])
  -- the second region's output: the weighted sum over all rows
  have hv21 : W8 m c (Proc.devRef .tc main_v21) (ix2 (0 : Fin 1) (0 : Fin 1)) = _ :=
    (congrFun (W8_arr m c 3) (ix2 (0 : Fin 1) (0 : Fin 1))).trans
      ((HH.arr1 (Hand.V7 m) c h1).trans (total_acc (Hand.V7 m) (c_X m c) (c_T m c) HS c hX7 hT7 (c_pad m c) hpad h1))
  -- the result: that sum divided by 2²⁴, which is the specification's loss unfolded
  refine (HH.tail_v23 (W8 m c)).trans ?_
  rw [hv21]
  unfold Cert.Spec.loss Cert.Spec.G
  exact congrArg (fun s => Ideal.div s Cert.Spec.big) (Finset.sum_congr rfl fun j _ => rfl)

/-- info: 'Cert.KernelIdeal.HandV.kernel_value' depends on axioms: [propext, Classical.choice, Quot.sound] -/
#guard_msgs in #print axioms kernel_value

end Cert.KernelIdeal.HandV

end
-- ==== Proof.RefFold.lean ====
/-
  The reference's fold, read back to its last stage.

  The reference is a list of 103 host operations; what a buffer holds after them is the fold of their results over
  the launch contents. The list is cut into six consecutive windows. For each window, and any contents W at its entry:
  every buffer the window computes that a later window reads (or that is the result) holds the corresponding stage,
  a function of the two argument arrays, provided the buffers the window reads held their stages at entry; and every
  buffer a later window still needs that the window does not write holds what W held. Chaining the six windows gives
  the result buffer at the last stage of the argument arrays, and the arguments unchanged.

  The windows follow the computation: (0) the one-hot targets and each row's softmax probability of its target;
  (1) each row's bin and the histogram of the bins; (2) the number of occupied bins and each bin's weight; (3) each
  row's weight; (4) the logarithm of each row's softmax; (5) each row's cross-entropy and the weighted mean.
-/
import proofs.«154215_j627065225459_1_alg».proof.Proof.RefRead

noncomputable section

namespace Cert.ReferenceIdeal.FoldP

open Cert.ReferenceIdeal Cert.ReferenceIdeal.Gen Idealize.ShloMosaic Idealize.ShloMosaic.TcCoe Idealize.SL.Sem Idealize.ShloMosaic.StableHlo

variable {F : FTy → Type} [FloatOps F]

/-- Folding a list of host operations cut in two: first the head part, then the tail part from what it leaves. -/
theorem after_append (l1 l2 : List (HloOp τ sig (Elt F))) (V : Valuation τ sig (Elt F)) :
    after (l1 ++ l2) V = after l2 (after l1 V) := by
  induction l1 generalizing V with
  | nil => rfl
  | cons op l ih => exact ih (op.result V)

/-- Contents carried to a typed reference's buffer type and back are the contents. -/
theorem ofBuf_toBuf {Val : EltTy → Type} {T : BufTy} (x : TRef sig T) (v : T.Contents Val) : x.ofBuf (x.toBuf v) = v := by
  obtain ⟨r, h, h2, h3⟩ := x
  subst h
  rfl

/-- Operations 0 to 23 of the reference, in order. -/
abbrev w0 : List (HloOp τ sig (Elt F)) :=
  [ unary main_arg1 main_v0 (sitofp .f32 : (⟨S16777216, .i32⟩ : BufTy).Contents (Elt F) → (⟨S16777216, .f32⟩ : BufTy).Contents (Elt F)),
    nullary main_cst (constant S_ .f32 0x3F800000#32),
    unary main_cst main_v1 (broadcastInDim S16777216 ![] bcast_S_S16777216 : (⟨S_, .f32⟩ : BufTy).Contents (Elt F) → (⟨S16777216, .f32⟩ : BufTy).Contents (Elt F)),
    binary main_v1 main_v0 main_v2 (subf : (⟨S16777216, .f32⟩ : BufTy).Contents (Elt F) → (⟨S16777216, .f32⟩ : BufTy).Contents (Elt F) → (⟨S16777216, .f32⟩ : BufTy).Contents (Elt F)),
    unary main_v2 main_v3 (broadcastInDim S16777216x1 ![0] bcast_S16777216_S16777216x1_0 : (⟨S16777216, .f32⟩ : BufTy).Contents (Elt F) → (⟨S16777216x1, .f32⟩ : BufTy).Contents (Elt F)),
    unary main_v0 main_v4 (broadcastInDim S16777216x1 ![0] bcast_S16777216_S16777216x1_0 : (⟨S16777216, .f32⟩ : BufTy).Contents (Elt F) → (⟨S16777216x1, .f32⟩ : BufTy).Contents (Elt F)),
    binary main_v3 main_v4 main_v5 ((fun a b => concatenate S16777216x2 1 [⟨S16777216x1, a⟩, ⟨S16777216x1, b⟩] concatenates_S16777216x1_S16777216x1_S16777216x2_d1) : (⟨S16777216x1, .f32⟩ : BufTy).Contents (Elt F) → (⟨S16777216x1, .f32⟩ : BufTy).Contents (Elt F) → (⟨S16777216x2, .f32⟩ : BufTy).Contents (Elt F)),
    nullary main_cst_0 (constant S_ .f32 0xFF800000#32),
    binary main_arg0 main_cst_0 main_v6 ((fun x v => Host.reduce FloatOps.maximumf x v reducesTo_S16777216x2_S16777216_d1 h_S_) : (⟨S16777216x2, .f32⟩ : BufTy).Contents (Elt F) → (⟨S_, .f32⟩ : BufTy).Contents (Elt F) → (⟨S16777216, .f32⟩ : BufTy).Contents (Elt F)),
    nullary main_cst_1 (constant S_ .f32 0xFF800000#32),
    unary main_cst_1 main_v7 (broadcastInDim S16777216 ![] bcast_S_S16777216 : (⟨S_, .f32⟩ : BufTy).Contents (Elt F) → (⟨S16777216, .f32⟩ : BufTy).Contents (Elt F)),
    binary main_v7 main_v6 main_v8 (maximumf : (⟨S16777216, .f32⟩ : BufTy).Contents (Elt F) → (⟨S16777216, .f32⟩ : BufTy).Contents (Elt F) → (⟨S16777216, .f32⟩ : BufTy).Contents (Elt F)),
    unary main_v8 main_v9 (broadcastInDim S16777216x1 ![0] bcast_S16777216_S16777216x1_0 : (⟨S16777216, .f32⟩ : BufTy).Contents (Elt F) → (⟨S16777216x1, .f32⟩ : BufTy).Contents (Elt F)),
    unary main_v9 main_v10 (broadcastInDim S16777216x2 ![0, 1] bcast_S16777216x1_S16777216x2_0_1 : (⟨S16777216x1, .f32⟩ : BufTy).Contents (Elt F) → (⟨S16777216x2, .f32⟩ : BufTy).Contents (Elt F)),
    binary main_arg0 main_v10 main_v11 (subf : (⟨S16777216x2, .f32⟩ : BufTy).Contents (Elt F) → (⟨S16777216x2, .f32⟩ : BufTy).Contents (Elt F) → (⟨S16777216x2, .f32⟩ : BufTy).Contents (Elt F)),
    unary main_v11 main_v12 (Host.exp : (⟨S16777216x2, .f32⟩ : BufTy).Contents (Elt F) → (⟨S16777216x2, .f32⟩ : BufTy).Contents (Elt F)),
    nullary main_cst_2 (constant S_ .f32 0x00000000#32),
    binary main_v12 main_cst_2 main_v13 ((fun x v => Host.reduceAdd x v reducesTo_S16777216x2_S16777216_d1 h_S_) : (⟨S16777216x2, .f32⟩ : BufTy).Contents (Elt F) → (⟨S_, .f32⟩ : BufTy).Contents (Elt F) → (⟨S16777216, .f32⟩ : BufTy).Contents (Elt F)),
    unary main_v13 main_v14 (broadcastInDim S16777216x1 ![0] bcast_S16777216_S16777216x1_0 : (⟨S16777216, .f32⟩ : BufTy).Contents (Elt F) → (⟨S16777216x1, .f32⟩ : BufTy).Contents (Elt F)),
    unary main_v14 main_v15 (broadcastInDim S16777216x2 ![0, 1] bcast_S16777216x1_S16777216x2_0_1 : (⟨S16777216x1, .f32⟩ : BufTy).Contents (Elt F) → (⟨S16777216x2, .f32⟩ : BufTy).Contents (Elt F)),
    binary main_v12 main_v15 main_v16 (Host.divf : (⟨S16777216x2, .f32⟩ : BufTy).Contents (Elt F) → (⟨S16777216x2, .f32⟩ : BufTy).Contents (Elt F) → (⟨S16777216x2, .f32⟩ : BufTy).Contents (Elt F)),
    binary main_v16 main_v5 main_v17 (mulf : (⟨S16777216x2, .f32⟩ : BufTy).Contents (Elt F) → (⟨S16777216x2, .f32⟩ : BufTy).Contents (Elt F) → (⟨S16777216x2, .f32⟩ : BufTy).Contents (Elt F)),
    nullary main_cst_3 (constant S_ .f32 0x00000000#32),
    binary main_v17 main_cst_3 main_v18 ((fun x v => Host.reduceAdd x v reducesTo_S16777216x2_S16777216_d1 h_S_) : (⟨S16777216x2, .f32⟩ : BufTy).Contents (Elt F) → (⟨S_, .f32⟩ : BufTy).Contents (Elt F) → (⟨S16777216, .f32⟩ : BufTy).Contents (Elt F)) ]

/-- Operations 24 to 45 of the reference, in order. -/
abbrev w1 : List (HloOp τ sig (Elt F)) :=
  [ nullary main_cst_4 (constant S_ .f32 0x3F800000#32),
    unary main_cst_4 main_v19 (broadcastInDim S16777216 ![] bcast_S_S16777216 : (⟨S_, .f32⟩ : BufTy).Contents (Elt F) → (⟨S16777216, .f32⟩ : BufTy).Contents (Elt F)),
    binary main_v18 main_v19 main_v20 (subf : (⟨S16777216, .f32⟩ : BufTy).Contents (Elt F) → (⟨S16777216, .f32⟩ : BufTy).Contents (Elt F) → (⟨S16777216, .f32⟩ : BufTy).Contents (Elt F)),
    unary main_v20 main_v21 (Host.absf : (⟨S16777216, .f32⟩ : BufTy).Contents (Elt F) → (⟨S16777216, .f32⟩ : BufTy).Contents (Elt F)),
    nullary main_cst_5 (constant S_ .f32 0x41F00000#32),
    unary main_cst_5 main_v22 (broadcastInDim S16777216 ![] bcast_S_S16777216 : (⟨S_, .f32⟩ : BufTy).Contents (Elt F) → (⟨S16777216, .f32⟩ : BufTy).Contents (Elt F)),
    binary main_v21 main_v22 main_v23 (mulf : (⟨S16777216, .f32⟩ : BufTy).Contents (Elt F) → (⟨S16777216, .f32⟩ : BufTy).Contents (Elt F) → (⟨S16777216, .f32⟩ : BufTy).Contents (Elt F)),
    unary main_v23 main_v24 (fptosi 32 : (⟨S16777216, .f32⟩ : BufTy).Contents (Elt F) → (⟨S16777216, .i32⟩ : BufTy).Contents (Elt F)),
    nullary main_c (constantI S_ 32 0#32),
    nullary main_c_6 (constantI S_ 32 29#32),
    TRef.unary (TRef.of (T := ⟨S_, .i32⟩) main_c) (TRef.of (T := ⟨S_, .i32⟩) main_call0_v0) id,
    TRef.unary (TRef.of (T := ⟨S_, .i32⟩) main_call0_v0) (TRef.of (T := ⟨S16777216, .i32⟩) main_call0_v1) (broadcastInDim S16777216 ![] bcast_S_S16777216),
    TRef.binary (TRef.of (T := ⟨S16777216, .i32⟩) main_call0_v1) (TRef.of (T := ⟨S16777216, .i32⟩) main_v24) (TRef.of (T := ⟨S16777216, .i32⟩) main_call0_v2) maxsi,
    TRef.unary (TRef.of (T := ⟨S_, .i32⟩) main_c_6) (TRef.of (T := ⟨S_, .i32⟩) main_call0_v3) id,
    TRef.unary (TRef.of (T := ⟨S_, .i32⟩) main_call0_v3) (TRef.of (T := ⟨S16777216, .i32⟩) main_call0_v4) (broadcastInDim S16777216 ![] bcast_S_S16777216),
    TRef.binary (TRef.of (T := ⟨S16777216, .i32⟩) main_call0_v4) (TRef.of (T := ⟨S16777216, .i32⟩) main_call0_v2) (TRef.of (T := ⟨S16777216, .i32⟩) main_v25) minsi,
    nullary main_cst_7 (constant S_ .f32 0x3F800000#32),
    unary main_cst_7 main_v26 (broadcastInDim S16777216 ![] bcast_S_S16777216 : (⟨S_, .f32⟩ : BufTy).Contents (Elt F) → (⟨S16777216, .f32⟩ : BufTy).Contents (Elt F)),
    nullary main_cst_8 (constant S_ .f32 0x00000000#32),
    unary main_cst_8 main_v27 (broadcastInDim S30 ![] bcast_S_S30 : (⟨S_, .f32⟩ : BufTy).Contents (Elt F) → (⟨S30, .f32⟩ : BufTy).Contents (Elt F)),
    unary main_v25 main_v28 (broadcastInDim S16777216x1 ![0] bcast_S16777216_S16777216x1_0 : (⟨S16777216, .i32⟩ : BufTy).Contents (Elt F) → (⟨S16777216x1, .i32⟩ : BufTy).Contents (Elt F)),
    ternary main_v27 main_v28 main_v26 main_v29 ((fun x i u => Host.scatterAdd scatter_S30_S16777216x1_S16777216_n_0_0_1 x i u) : (⟨S30, .f32⟩ : BufTy).Contents (Elt F) → (⟨S16777216x1, .i32⟩ : BufTy).Contents (Elt F) → (⟨S16777216, .f32⟩ : BufTy).Contents (Elt F) → (⟨S30, .f32⟩ : BufTy).Contents (Elt F)) ]

/-- Operations 46 to 65 of the reference, in order. -/
abbrev w2 : List (HloOp τ sig (Elt F)) :=
  [ nullary main_cst_9 (constant S_ .f32 0x3E800000#32),
    unary main_cst_9 main_v30 (broadcastInDim S30 ![] bcast_S_S30 : (⟨S_, .f32⟩ : BufTy).Contents (Elt F) → (⟨S30, .f32⟩ : BufTy).Contents (Elt F)),
    binary main_v30 main_v29 main_v31 (mulf : (⟨S30, .f32⟩ : BufTy).Contents (Elt F) → (⟨S30, .f32⟩ : BufTy).Contents (Elt F) → (⟨S30, .f32⟩ : BufTy).Contents (Elt F)),
    nullary main_cst_10 (constant S_ .f32 0x00000000#32),
    unary main_cst_10 main_v32 (broadcastInDim S30 ![] bcast_S_S30 : (⟨S_, .f32⟩ : BufTy).Contents (Elt F) → (⟨S30, .f32⟩ : BufTy).Contents (Elt F)),
    binary main_v29 main_v32 main_v33 (cmpf .ogt : (⟨S30, .f32⟩ : BufTy).Contents (Elt F) → (⟨S30, .f32⟩ : BufTy).Contents (Elt F) → (⟨S30, .i1⟩ : BufTy).Contents (Elt F)),
    unary main_v33 main_v34 (uitofp .f32 : (⟨S30, .i1⟩ : BufTy).Contents (Elt F) → (⟨S30, .f32⟩ : BufTy).Contents (Elt F)),
    nullary main_cst_11 (constant S_ .f32 0x00000000#32),
    binary main_v34 main_cst_11 main_v35 ((fun x v => Host.reduceAdd x v reducesTo_S30_S_d0 h_S_) : (⟨S30, .f32⟩ : BufTy).Contents (Elt F) → (⟨S_, .f32⟩ : BufTy).Contents (Elt F) → (⟨S_, .f32⟩ : BufTy).Contents (Elt F)),
    nullary main_cst_12 (constant S_ .f32 0x3F800000#32),
    TRef.unary (TRef.of (T := ⟨S_, .f32⟩) main_cst_12) (TRef.of (T := ⟨S_, .f32⟩) main_call1_v0) id,
    TRef.unary (TRef.of (T := ⟨S_, .f32⟩) main_call1_v0) (TRef.of (T := ⟨S30, .f32⟩) main_call1_v1) (broadcastInDim S30 ![] bcast_S_S30),
    TRef.ternary (TRef.of (T := ⟨S30, .i1⟩) main_v33) (TRef.of (T := ⟨S30, .f32⟩) main_v31) (TRef.of (T := ⟨S30, .f32⟩) main_call1_v1) (TRef.of (T := ⟨S30, .f32⟩) main_v36) select,
    nullary main_cst_13 (constant S_ .f32 0x4B800000#32),
    unary main_cst_13 main_v37 (broadcastInDim S30 ![] bcast_S_S30 : (⟨S_, .f32⟩ : BufTy).Contents (Elt F) → (⟨S30, .f32⟩ : BufTy).Contents (Elt F)),
    binary main_v37 main_v36 main_v38 (Host.divf : (⟨S30, .f32⟩ : BufTy).Contents (Elt F) → (⟨S30, .f32⟩ : BufTy).Contents (Elt F) → (⟨S30, .f32⟩ : BufTy).Contents (Elt F)),
    nullary main_cst_14 (constant S_ .f32 0x00000000#32),
    TRef.unary (TRef.of (T := ⟨S_, .f32⟩) main_cst_14) (TRef.of (T := ⟨S_, .f32⟩) main_call2_v0) id,
    TRef.unary (TRef.of (T := ⟨S_, .f32⟩) main_call2_v0) (TRef.of (T := ⟨S30, .f32⟩) main_call2_v1) (broadcastInDim S30 ![] bcast_S_S30),
    TRef.ternary (TRef.of (T := ⟨S30, .i1⟩) main_v33) (TRef.of (T := ⟨S30, .f32⟩) main_v38) (TRef.of (T := ⟨S30, .f32⟩) main_call2_v1) (TRef.of (T := ⟨S30, .f32⟩) main_v39) select ]

/-- Operations 66 to 78 of the reference, in order. -/
abbrev w3 : List (HloOp τ sig (Elt F)) :=
  [ nullary main_c_15 (constantI S_ 32 0#32),
    unary main_c_15 main_v40 (broadcastInDim S16777216 ![] bcast_S_S16777216 : (⟨S_, .i32⟩ : BufTy).Contents (Elt F) → (⟨S16777216, .i32⟩ : BufTy).Contents (Elt F)),
    binary main_v25 main_v40 main_v41 (cmpi .slt : (⟨S16777216, .i32⟩ : BufTy).Contents (Elt F) → (⟨S16777216, .i32⟩ : BufTy).Contents (Elt F) → (⟨S16777216, .i1⟩ : BufTy).Contents (Elt F)),
    nullary main_c_16 (constantI S_ 32 30#32),
    unary main_c_16 main_v42 (broadcastInDim S16777216 ![] bcast_S_S16777216 : (⟨S_, .i32⟩ : BufTy).Contents (Elt F) → (⟨S16777216, .i32⟩ : BufTy).Contents (Elt F)),
    binary main_v25 main_v42 main_v43 (addi : (⟨S16777216, .i32⟩ : BufTy).Contents (Elt F) → (⟨S16777216, .i32⟩ : BufTy).Contents (Elt F) → (⟨S16777216, .i32⟩ : BufTy).Contents (Elt F)),
    ternary main_v41 main_v43 main_v25 main_v44 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    unary main_v44 main_v45 (broadcastInDim S16777216x1 ![0] bcast_S16777216_S16777216x1_0 : (⟨S16777216, .i32⟩ : BufTy).Contents (Elt F) → (⟨S16777216x1, .i32⟩ : BufTy).Contents (Elt F)),
    binary main_v39 main_v45 main_v46 ((fun x i => Host.gather gather_S30_S16777216x1_S16777216_n_0_n_n_0_1_1 x i) : (⟨S30, .f32⟩ : BufTy).Contents (Elt F) → (⟨S16777216x1, .i32⟩ : BufTy).Contents (Elt F) → (⟨S16777216, .f32⟩ : BufTy).Contents (Elt F)),
    nullary main_cst_17 (constant S_ .f32 0x3F800000#32),
    binary main_v35 main_cst_17 main_v47 (maximumf : (⟨S_, .f32⟩ : BufTy).Contents (Elt F) → (⟨S_, .f32⟩ : BufTy).Contents (Elt F) → (⟨S_, .f32⟩ : BufTy).Contents (Elt F)),
    unary main_v47 main_v48 (broadcastInDim S16777216 ![] bcast_S_S16777216 : (⟨S_, .f32⟩ : BufTy).Contents (Elt F) → (⟨S16777216, .f32⟩ : BufTy).Contents (Elt F)),
    binary main_v46 main_v48 main_v49 (Host.divf : (⟨S16777216, .f32⟩ : BufTy).Contents (Elt F) → (⟨S16777216, .f32⟩ : BufTy).Contents (Elt F) → (⟨S16777216, .f32⟩ : BufTy).Contents (Elt F)) ]

/-- Operations 79 to 93 of the reference, in order. -/
abbrev w4 : List (HloOp τ sig (Elt F)) :=
  [ TRef.nullary (TRef.of (T := ⟨S_, .f32⟩) main_call3_cst) (constant S_ .f32 0xFF800000#32),
    TRef.binary (TRef.of (T := ⟨S16777216x2, .f32⟩) main_arg0) (TRef.of (T := ⟨S_, .f32⟩) main_call3_cst) (TRef.of (T := ⟨S16777216, .f32⟩) main_call3_v0) (fun x v => Host.reduce FloatOps.maximumf x v reducesTo_S16777216x2_S16777216_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S16777216, .f32⟩) main_call3_v1) (broadcastInDim S16777216 ![] bcast_S_S16777216),
    TRef.binary (TRef.of (T := ⟨S16777216, .f32⟩) main_call3_v1) (TRef.of (T := ⟨S16777216, .f32⟩) main_call3_v0) (TRef.of (T := ⟨S16777216, .f32⟩) main_call3_v2) maximumf,
    TRef.unary (TRef.of (T := ⟨S16777216, .f32⟩) main_call3_v2) (TRef.of (T := ⟨S16777216x1, .f32⟩) main_call3_v3) (broadcastInDim S16777216x1 ![0] bcast_S16777216_S16777216x1_0),
    TRef.unary (TRef.of (T := ⟨S16777216x1, .f32⟩) main_call3_v3) (TRef.of (T := ⟨S16777216x2, .f32⟩) main_call3_v4) (broadcastInDim S16777216x2 ![0, 1] bcast_S16777216x1_S16777216x2_0_1),
    TRef.binary (TRef.of (T := ⟨S16777216x2, .f32⟩) main_arg0) (TRef.of (T := ⟨S16777216x2, .f32⟩) main_call3_v4) (TRef.of (T := ⟨S16777216x2, .f32⟩) main_call3_v5) subf,
    TRef.unary (TRef.of (T := ⟨S16777216x2, .f32⟩) main_call3_v5) (TRef.of (T := ⟨S16777216x2, .f32⟩) main_call3_v6) Host.exp,
    TRef.nullary (TRef.of (T := ⟨S_, .f32⟩) main_call3_cst_1) (constant S_ .f32 0x00000000#32),
    TRef.binary (TRef.of (T := ⟨S16777216x2, .f32⟩) main_call3_v6) (TRef.of (T := ⟨S_, .f32⟩) main_call3_cst_1) (TRef.of (T := ⟨S16777216, .f32⟩) main_call3_v7) (fun x v => Host.reduceAdd x v reducesTo_S16777216x2_S16777216_d1 h_S_),
    TRef.unary (TRef.of (T := ⟨S16777216, .f32⟩) main_call3_v7) (TRef.of (T := ⟨S16777216x1, .f32⟩) main_call3_v8) (broadcastInDim S16777216x1 ![0] bcast_S16777216_S16777216x1_0),
    TRef.unary (TRef.of (T := ⟨S16777216x1, .f32⟩) main_call3_v8) (TRef.of (T := ⟨S16777216x1, .f32⟩) main_call3_v9) Host.log,
    TRef.unary (TRef.of (T := ⟨S16777216x1, .f32⟩) main_call3_v9) (TRef.of (T := ⟨S16777216x2, .f32⟩) main_call3_v10) (broadcastInDim S16777216x2 ![0, 1] bcast_S16777216x1_S16777216x2_0_1),
    TRef.binary (TRef.of (T := ⟨S16777216x2, .f32⟩) main_call3_v5) (TRef.of (T := ⟨S16777216x2, .f32⟩) main_call3_v10) (TRef.of (T := ⟨S16777216x2, .f32⟩) main_v50) subf ]

/-- Operations 94 to 102 of the reference, in order. -/
abbrev w5 : List (HloOp τ sig (Elt F)) :=
  [ binary main_v50 main_v5 main_v51 (mulf : (⟨S16777216x2, .f32⟩ : BufTy).Contents (Elt F) → (⟨S16777216x2, .f32⟩ : BufTy).Contents (Elt F) → (⟨S16777216x2, .f32⟩ : BufTy).Contents (Elt F)),
    nullary main_cst_18 (constant S_ .f32 0x00000000#32),
    binary main_v51 main_cst_18 main_v52 ((fun x v => Host.reduceAdd x v reducesTo_S16777216x2_S16777216_d1 h_S_) : (⟨S16777216x2, .f32⟩ : BufTy).Contents (Elt F) → (⟨S_, .f32⟩ : BufTy).Contents (Elt F) → (⟨S16777216, .f32⟩ : BufTy).Contents (Elt F)),
    unary main_v52 main_v53 (Host.negf : (⟨S16777216, .f32⟩ : BufTy).Contents (Elt F) → (⟨S16777216, .f32⟩ : BufTy).Contents (Elt F)),
    binary main_v49 main_v53 main_v54 (mulf : (⟨S16777216, .f32⟩ : BufTy).Contents (Elt F) → (⟨S16777216, .f32⟩ : BufTy).Contents (Elt F) → (⟨S16777216, .f32⟩ : BufTy).Contents (Elt F)),
    nullary main_cst_19 (constant S_ .f32 0x00000000#32),
    binary main_v54 main_cst_19 main_v55 ((fun x v => Host.reduceAdd x v reducesTo_S16777216_S_d0 h_S_) : (⟨S16777216, .f32⟩ : BufTy).Contents (Elt F) → (⟨S_, .f32⟩ : BufTy).Contents (Elt F) → (⟨S_, .f32⟩ : BufTy).Contents (Elt F)),
    nullary main_cst_20 (constant S_ .f32 0x4B800000#32),
    binary main_v55 main_cst_20 main_v56 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- The reference's operations are the six windows, in order. -/
theorem ops_split : (ValueP.ops (F := F)) = w0 ++ (w1 ++ (w2 ++ (w3 ++ (w4 ++ w5)))) := rfl

/-! ## Window 0: the one-hot targets and the row's probability of its target -/

set_option maxRecDepth 8192 in
set_option maxHeartbeats 2000000 in
/-- After window 0 the one-hot target pairs are the stage of the target array at entry. -/
theorem w0_main_v5 (W : Valuation τ sig (Elt F)) :
    after (w0 (F := F)) W (Proc.devRef .tc main_v5) = ReadP.val_main_v5 (F := F) (W (Proc.devRef .tc main_arg1)) := by
  after_results_simp <;> rfl

set_option maxRecDepth 8192 in
set_option maxHeartbeats 2000000 in
/-- After window 0 each row's softmax probability of its target is the stage of the two argument arrays at entry. -/
theorem w0_main_v18 (W : Valuation τ sig (Elt F)) :
    after (w0 (F := F)) W (Proc.devRef .tc main_v18) = ReadP.val_main_v18 (F := F) (W (Proc.devRef .tc main_arg0)) (W (Proc.devRef .tc main_arg1)) := by
  after_results_simp <;> rfl

set_option maxRecDepth 8192 in
set_option maxHeartbeats 2000000 in
/-- Window 0 does not write `main_arg0`. -/
theorem w0_keeps_main_arg0 (W : Valuation τ sig (Elt F)) :
    after (w0 (F := F)) W (Proc.devRef .tc main_arg0) = W (Proc.devRef .tc main_arg0) := by
  after_results_simp <;> rfl

set_option maxRecDepth 8192 in
set_option maxHeartbeats 2000000 in
/-- Window 0 does not write `main_arg1`. -/
theorem w0_keeps_main_arg1 (W : Valuation τ sig (Elt F)) :
    after (w0 (F := F)) W (Proc.devRef .tc main_arg1) = W (Proc.devRef .tc main_arg1) := by
  after_results_simp <;> rfl

/-! ## Window 1: the bin of each row and the histogram -/

set_option maxRecDepth 8192 in
set_option maxHeartbeats 2000000 in
/-- After window 1 each row's clamped bin index is its stage, given the probabilities at entry. -/
theorem w1_main_v25 (W : Valuation τ sig (Elt F)) (x0 : (⟨S16777216x2, .f32⟩ : BufTy).Contents (Elt F)) (x1 : (⟨S16777216, .i32⟩ : BufTy).Contents (Elt F))
    (h_main_v18 : W (Proc.devRef .tc main_v18) = ReadP.val_main_v18 (F := F) x0 x1) :
    after (w1 (F := F)) W (Proc.devRef .tc main_v25) = ReadP.val_main_v25 (F := F) x0 x1 := by
  after_results_simp
  simp only [h_main_v18]
  rfl

set_option maxRecDepth 8192 in
set_option maxHeartbeats 2000000 in
/-- After window 1 the histogram over the bins is its stage, given the probabilities at entry. -/
theorem w1_main_v29 (W : Valuation τ sig (Elt F)) (x0 : (⟨S16777216x2, .f32⟩ : BufTy).Contents (Elt F)) (x1 : (⟨S16777216, .i32⟩ : BufTy).Contents (Elt F))
    (h_main_v18 : W (Proc.devRef .tc main_v18) = ReadP.val_main_v18 (F := F) x0 x1) :
    after (w1 (F := F)) W (Proc.devRef .tc main_v29) = ReadP.val_main_v29 (F := F) x0 x1 := by
  after_results_simp
  simp only [h_main_v18]
  rfl

set_option maxRecDepth 8192 in
set_option maxHeartbeats 2000000 in
/-- Window 1 does not write `main_v5`. -/
theorem w1_keeps_main_v5 (W : Valuation τ sig (Elt F)) :
    after (w1 (F := F)) W (Proc.devRef .tc main_v5) = W (Proc.devRef .tc main_v5) := by
  after_results_simp <;> rfl

set_option maxRecDepth 8192 in
set_option maxHeartbeats 2000000 in
/-- Window 1 does not write `main_arg0`. -/
theorem w1_keeps_main_arg0 (W : Valuation τ sig (Elt F)) :
    after (w1 (F := F)) W (Proc.devRef .tc main_arg0) = W (Proc.devRef .tc main_arg0) := by
  after_results_simp <;> rfl

set_option maxRecDepth 8192 in
set_option maxHeartbeats 2000000 in
/-- Window 1 does not write `main_arg1`. -/
theorem w1_keeps_main_arg1 (W : Valuation τ sig (Elt F)) :
    after (w1 (F := F)) W (Proc.devRef .tc main_arg1) = W (Proc.devRef .tc main_arg1) := by
  after_results_simp <;> rfl

/-! ## Window 2: the number of occupied bins and the weight of each bin -/

set_option maxRecDepth 8192 in
set_option maxHeartbeats 2000000 in
/-- After window 2 the number of occupied bins is its stage, given the histogram at entry. -/
theorem w2_main_v35 (W : Valuation τ sig (Elt F)) (x0 : (⟨S16777216x2, .f32⟩ : BufTy).Contents (Elt F)) (x1 : (⟨S16777216, .i32⟩ : BufTy).Contents (Elt F))
    (h_main_v29 : W (Proc.devRef .tc main_v29) = ReadP.val_main_v29 (F := F) x0 x1) :
    after (w2 (F := F)) W (Proc.devRef .tc main_v35) = ReadP.val_main_v35 (F := F) x0 x1 := by
  after_results_simp
  simp only [h_main_v29]
  rfl

set_option maxRecDepth 8192 in
set_option maxHeartbeats 2000000 in
/-- After window 2 the weight of each bin is its stage, given the histogram at entry. -/
theorem w2_main_v39 (W : Valuation τ sig (Elt F)) (x0 : (⟨S16777216x2, .f32⟩ : BufTy).Contents (Elt F)) (x1 : (⟨S16777216, .i32⟩ : BufTy).Contents (Elt F))
    (h_main_v29 : W (Proc.devRef .tc main_v29) = ReadP.val_main_v29 (F := F) x0 x1) :
    after (w2 (F := F)) W (Proc.devRef .tc main_v39) = ReadP.val_main_v39 (F := F) x0 x1 := by
  after_results_simp
  simp only [h_main_v29]
  rfl

set_option maxRecDepth 8192 in
set_option maxHeartbeats 2000000 in
/-- Window 2 does not write `main_v5`. -/
theorem w2_keeps_main_v5 (W : Valuation τ sig (Elt F)) :
    after (w2 (F := F)) W (Proc.devRef .tc main_v5) = W (Proc.devRef .tc main_v5) := by
  after_results_simp <;> rfl

set_option maxRecDepth 8192 in
set_option maxHeartbeats 2000000 in
/-- Window 2 does not write `main_v25`. -/
theorem w2_keeps_main_v25 (W : Valuation τ sig (Elt F)) :
    after (w2 (F := F)) W (Proc.devRef .tc main_v25) = W (Proc.devRef .tc main_v25) := by
  after_results_simp <;> rfl

set_option maxRecDepth 8192 in
set_option maxHeartbeats 2000000 in
/-- Window 2 does not write `main_arg0`. -/
theorem w2_keeps_main_arg0 (W : Valuation τ sig (Elt F)) :
    after (w2 (F := F)) W (Proc.devRef .tc main_arg0) = W (Proc.devRef .tc main_arg0) := by
  after_results_simp <;> rfl

set_option maxRecDepth 8192 in
set_option maxHeartbeats 2000000 in
/-- Window 2 does not write `main_arg1`. -/
theorem w2_keeps_main_arg1 (W : Valuation τ sig (Elt F)) :
    after (w2 (F := F)) W (Proc.devRef .tc main_arg1) = W (Proc.devRef .tc main_arg1) := by
  after_results_simp <;> rfl

/-! ## Window 3: the weight of each row -/

set_option maxRecDepth 8192 in
set_option maxHeartbeats 2000000 in
/-- After window 3 each row's weight (its bin's weight over the number of occupied bins) is its stage, given the bins, the count and the bin weights at entry. -/
theorem w3_main_v49 (W : Valuation τ sig (Elt F)) (x0 : (⟨S16777216x2, .f32⟩ : BufTy).Contents (Elt F)) (x1 : (⟨S16777216, .i32⟩ : BufTy).Contents (Elt F))
    (h_main_v25 : W (Proc.devRef .tc main_v25) = ReadP.val_main_v25 (F := F) x0 x1)
    (h_main_v35 : W (Proc.devRef .tc main_v35) = ReadP.val_main_v35 (F := F) x0 x1)
    (h_main_v39 : W (Proc.devRef .tc main_v39) = ReadP.val_main_v39 (F := F) x0 x1) :
    after (w3 (F := F)) W (Proc.devRef .tc main_v49) = ReadP.val_main_v49 (F := F) x0 x1 := by
  after_results_simp
  simp only [h_main_v25, h_main_v35, h_main_v39]
  rfl

set_option maxRecDepth 8192 in
set_option maxHeartbeats 2000000 in
/-- Window 3 does not write `main_v5`. -/
theorem w3_keeps_main_v5 (W : Valuation τ sig (Elt F)) :
    after (w3 (F := F)) W (Proc.devRef .tc main_v5) = W (Proc.devRef .tc main_v5) := by
  after_results_simp <;> rfl

set_option maxRecDepth 8192 in
set_option maxHeartbeats 2000000 in
/-- Window 3 does not write `main_arg0`. -/
theorem w3_keeps_main_arg0 (W : Valuation τ sig (Elt F)) :
    after (w3 (F := F)) W (Proc.devRef .tc main_arg0) = W (Proc.devRef .tc main_arg0) := by
  after_results_simp <;> rfl

set_option maxRecDepth 8192 in
set_option maxHeartbeats 2000000 in
/-- Window 3 does not write `main_arg1`. -/
theorem w3_keeps_main_arg1 (W : Valuation τ sig (Elt F)) :
    after (w3 (F := F)) W (Proc.devRef .tc main_arg1) = W (Proc.devRef .tc main_arg1) := by
  after_results_simp <;> rfl

/-! ## Window 4: the logarithm of each row's softmax -/

set_option maxRecDepth 8192 in
set_option maxHeartbeats 2000000 in
/-- After window 4 the logarithm of the softmax of each row is the stage of the logits at entry. -/
theorem w4_main_v50 (W : Valuation τ sig (Elt F)) :
    after (w4 (F := F)) W (Proc.devRef .tc main_v50) = ReadP.val_main_v50 (F := F) (W (Proc.devRef .tc main_arg0)) := by
  after_results_simp
  simp only [ofBuf_toBuf]
  rfl

set_option maxRecDepth 8192 in
set_option maxHeartbeats 2000000 in
/-- Window 4 does not write `main_v5`. -/
theorem w4_keeps_main_v5 (W : Valuation τ sig (Elt F)) :
    after (w4 (F := F)) W (Proc.devRef .tc main_v5) = W (Proc.devRef .tc main_v5) := by
  after_results_simp <;> rfl

set_option maxRecDepth 8192 in
set_option maxHeartbeats 2000000 in
/-- Window 4 does not write `main_v49`. -/
theorem w4_keeps_main_v49 (W : Valuation τ sig (Elt F)) :
    after (w4 (F := F)) W (Proc.devRef .tc main_v49) = W (Proc.devRef .tc main_v49) := by
  after_results_simp <;> rfl

set_option maxRecDepth 8192 in
set_option maxHeartbeats 2000000 in
/-- Window 4 does not write `main_arg0`. -/
theorem w4_keeps_main_arg0 (W : Valuation τ sig (Elt F)) :
    after (w4 (F := F)) W (Proc.devRef .tc main_arg0) = W (Proc.devRef .tc main_arg0) := by
  after_results_simp <;> rfl

set_option maxRecDepth 8192 in
set_option maxHeartbeats 2000000 in
/-- Window 4 does not write `main_arg1`. -/
theorem w4_keeps_main_arg1 (W : Valuation τ sig (Elt F)) :
    after (w4 (F := F)) W (Proc.devRef .tc main_arg1) = W (Proc.devRef .tc main_arg1) := by
  after_results_simp <;> rfl

/-! ## Window 5: the cross-entropy of each row and the weighted mean -/

set_option maxRecDepth 8192 in
set_option maxHeartbeats 2000000 in
/-- After window 5 the result is the last stage, given the one-hot targets, the row weights and the log-softmax at entry. -/
theorem w5_main_v56 (W : Valuation τ sig (Elt F)) (x0 : (⟨S16777216x2, .f32⟩ : BufTy).Contents (Elt F)) (x1 : (⟨S16777216, .i32⟩ : BufTy).Contents (Elt F))
    (h_main_v5 : W (Proc.devRef .tc main_v5) = ReadP.val_main_v5 (F := F) x1)
    (h_main_v49 : W (Proc.devRef .tc main_v49) = ReadP.val_main_v49 (F := F) x0 x1)
    (h_main_v50 : W (Proc.devRef .tc main_v50) = ReadP.val_main_v50 (F := F) x0) :
    after (w5 (F := F)) W (Proc.devRef .tc main_v56) = ReadP.val_main_v56 (F := F) x0 x1 := by
  after_results_simp
  simp only [h_main_v5, h_main_v49, h_main_v50]
  rfl

set_option maxRecDepth 8192 in
set_option maxHeartbeats 2000000 in
/-- Window 5 does not write `main_arg0`. -/
theorem w5_keeps_main_arg0 (W : Valuation τ sig (Elt F)) :
    after (w5 (F := F)) W (Proc.devRef .tc main_arg0) = W (Proc.devRef .tc main_arg0) := by
  after_results_simp <;> rfl

set_option maxRecDepth 8192 in
set_option maxHeartbeats 2000000 in
/-- Window 5 does not write `main_arg1`. -/
theorem w5_keeps_main_arg1 (W : Valuation τ sig (Elt F)) :
    after (w5 (F := F)) W (Proc.devRef .tc main_arg1) = W (Proc.devRef .tc main_arg1) := by
  after_results_simp <;> rfl

/-! ## The whole fold -/

/-- The fold over all the operations is the fold over the six windows, one after the other. -/
theorem after_ops (V : Valuation τ sig (Elt F)) :
    after (ValueP.ops (F := F)) V = after w5 (after w4 (after w3 (after w2 (after w1 (after w0 V))))) := by
  rw [ops_split, after_append, after_append, after_append, after_append, after_append]

/-- The reference's result buffer after all its operations is the last stage of the two argument arrays. -/
theorem fold_v56 (m : (ℓ : Loc nD τ sig) → Buf (Elt F) ℓ) (c : Dev nD) :
    StableHlo.after (Cert.ReferenceIdeal.ValueP.ops (F := F)) (launchContents m c) (Proc.devRef .tc main_v56)
      = Cert.ReferenceIdeal.ReadP.val_main_v56 (F := F) (m ((c.tc : Thread nD τ).loc main_arg0)) (m ((c.tc : Thread nD τ).loc main_arg1)) := by
  rw [after_ops]
  have a0_1 := w0_keeps_main_arg0 (F := F) (launchContents m c)
  have h5_1 := w0_main_v5 (F := F) (launchContents m c)
  have h18_1 := w0_main_v18 (F := F) (launchContents m c)
  generalize after w0 (launchContents m c) = V1 at a0_1 h5_1 h18_1 ⊢
  have a0_2 := (w1_keeps_main_arg0 V1).trans a0_1
  have h5_2 := (w1_keeps_main_v5 V1).trans h5_1
  have h25_2 := w1_main_v25 V1 _ _ h18_1
  have h29_2 := w1_main_v29 V1 _ _ h18_1
  generalize after w1 V1 = V2 at a0_2 h5_2 h25_2 h29_2 ⊢
  have a0_3 := (w2_keeps_main_arg0 V2).trans a0_2
  have h5_3 := (w2_keeps_main_v5 V2).trans h5_2
  have h25_3 := (w2_keeps_main_v25 V2).trans h25_2
  have h35_3 := w2_main_v35 V2 _ _ h29_2
  have h39_3 := w2_main_v39 V2 _ _ h29_2
  generalize after w2 V2 = V3 at a0_3 h5_3 h25_3 h35_3 h39_3 ⊢
  have a0_4 := (w3_keeps_main_arg0 V3).trans a0_3
  have h5_4 := (w3_keeps_main_v5 V3).trans h5_3
  have h49_4 := w3_main_v49 V3 _ _ h25_3 h35_3 h39_3
  generalize after w3 V3 = V4 at a0_4 h5_4 h49_4 ⊢
  have h5_5 := (w4_keeps_main_v5 V4).trans h5_4
  have h49_5 := (w4_keeps_main_v49 V4).trans h49_4
  have h50_5 := (w4_main_v50 V4).trans (congrArg (ReadP.val_main_v50 (F := F)) a0_4)
  generalize after w4 V4 = V5 at h5_5 h49_5 h50_5 ⊢
  exact w5_main_v56 V5 _ _ h5_5 h49_5 h50_5

/-- No operation of the reference writes its first argument. -/
theorem fold_arg0 (m : (ℓ : Loc nD τ sig) → Buf (Elt F) ℓ) (c : Dev nD) :
    StableHlo.after (Cert.ReferenceIdeal.ValueP.ops (F := F)) (launchContents m c) (Proc.devRef .tc main_arg0)
      = m ((c.tc : Thread nD τ).loc main_arg0) := by
  rw [after_ops, w5_keeps_main_arg0, w4_keeps_main_arg0, w3_keeps_main_arg0, w2_keeps_main_arg0, w1_keeps_main_arg0,
    w0_keeps_main_arg0]

/-- No operation of the reference writes its second argument. -/
theorem fold_arg1 (m : (ℓ : Loc nD τ sig) → Buf (Elt F) ℓ) (c : Dev nD) :
    StableHlo.after (Cert.ReferenceIdeal.ValueP.ops (F := F)) (launchContents m c) (Proc.devRef .tc main_arg1)
      = m ((c.tc : Thread nD τ).loc main_arg1) := by
  rw [after_ops, w5_keeps_main_arg1, w4_keeps_main_arg1, w3_keeps_main_arg1, w2_keeps_main_arg1, w1_keeps_main_arg1,
    w0_keeps_main_arg1]

/-- On every device, from any memory with zero counters, every weakly fair execution of the reference terminates with
    its result buffer at the last stage of the two argument arrays, and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v56)
          = ReadP.val_main_v56 (F := F) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v56).trans (fold_v56 m c), (h c main_arg0).trans (fold_arg0 m c),
    (h c main_arg1).trans (fold_arg1 m c)⟩) (ValueP.run m ρ)

end Cert.ReferenceIdeal.FoldP

end
-- ==== Proof.RefRows.lean ====
/-
  The reference's two row-level stages are the specification's row functions.

  Row j of the reference's clamped bin (its %25) is the specification's bin of row j's two logits and label, and row j
  of its negated label-weighted log-softmax sum (its %53) is the specification's cross-entropy of the same. Both are
  read index by index: the labels [1 − τ, τ] out of the two joined columns, the larger logit out of the maximum over
  the two columns taken from −∞, each sum over the two columns as a sum of two terms taken from 0.
-/
import proofs.«154215_j627065225459_1_alg».proof.Proof.RefRead
import proofs.«154215_j627065225459_1_alg».proof.Proof.Spec

noncomputable section

namespace Cert.ReferenceIdeal.RowsP

open Cert.ReferenceIdeal Cert.ReferenceIdeal.Gen Cert.ReferenceIdeal.ReadP Idealize.ShloMosaic Idealize.ShloMosaic.ValueIdx

/-! ## Indices -/

/-- Row j of a one-column array, seen from row j of either column of the two-column one. -/
theorem idx_col (j : Fin 16777216) (k : Fin 2) :
    (fun a => match a with
      | ⟨0, _⟩ => ⟨((ix2 j k : S16777216x2.Idx) 0).val, ((ix2 j k : S16777216x2.Idx) 0).isLt⟩
      | ⟨1, _⟩ => ⟨0, Nat.one_pos⟩ : S16777216x1.Idx) = ix2 j (0 : Fin 1) := by
  funext a; match a with | ⟨0, _⟩ => rfl | ⟨1, _⟩ => rfl

/-- Row j of a vector, seen from row j of a one-column array. -/
theorem idx_row (j : Fin 16777216) :
    (fun a => match a with
      | ⟨0, _⟩ => ⟨((ix2 j (0 : Fin 1) : S16777216x1.Idx) 0).val, ((ix2 j (0 : Fin 1) : S16777216x1.Idx) 0).isLt⟩ : S16777216.Idx) = ix1 j := by
  funext a; match a with | ⟨0, _⟩ => rfl

/-- Entry k of row j, seen from row j of the row sums. -/
theorem idx_sum (j : Fin 16777216) (k : Fin 2) :
    (fun a => match a with
      | ⟨0, _⟩ => ⟨((ix1 j : S16777216.Idx) 0).val, ((ix1 j : S16777216.Idx) 0).isLt⟩
      | ⟨1, _⟩ => ⟨k.val, k.isLt⟩ : S16777216x2.Idx) = ix2 j k := by
  funext a; match a with | ⟨0, _⟩ => rfl | ⟨1, _⟩ => rfl

/-! ## The labels -/

/-- The label of row j as a real. -/
theorem v0_at (x1 : (⟨S16777216, .i32⟩ : BufTy).Contents (Elt Ideal)) (j : Fin 16777216) :
    val_main_v0 (F := Ideal) x1 (ix1 j) = Cert.Spec.tf (x1 (ix1 j)) := rfl

/-- One less the label of row j. -/
theorem v2_at (x1 : (⟨S16777216, .i32⟩ : BufTy).Contents (Elt Ideal)) (j : Fin 16777216) :
    val_main_v2 (F := Ideal) x1 (ix1 j) = Cert.Spec.one - Cert.Spec.tf (x1 (ix1 j)) := by
  rw [val_main_v2_apply, val_main_v1_apply, val_main_cst_apply, v0_at]
  rfl

/-- Column 0 of the joined labels is 1 − τ. -/
theorem v5_left (x1 : (⟨S16777216, .i32⟩ : BufTy).Contents (Elt Ideal)) (j : Fin 16777216) :
    val_main_v5 (F := Ideal) x1 (ix2 j (0 : Fin 2)) = Cert.Spec.one - Cert.Spec.tf (x1 (ix1 j)) := by
  unfold val_main_v5
  refine (concatenate_pair_apply_left (t := S16777216x2) (s₁ := S16777216x1) (s₂ := S16777216x1) (1 : Fin 2) _ _
    concatenates_S16777216x1_S16777216x1_S16777216x2_d1 (ix2 j (0 : Fin 2)) rfl (ix2 j (0 : Fin 1)) (fun b => by
      match b with
      | ⟨0, _⟩ => rfl
      | ⟨1, _⟩ => rfl)).trans ?_
  rw [val_main_v3_apply]
  exact (congrArg (val_main_v2 (F := Ideal) x1) (idx_row j)).trans (v2_at x1 j)

/-- Column 1 of the joined labels is τ. -/
theorem v5_right (x1 : (⟨S16777216, .i32⟩ : BufTy).Contents (Elt Ideal)) (j : Fin 16777216) :
    val_main_v5 (F := Ideal) x1 (ix2 j (1 : Fin 2)) = Cert.Spec.tf (x1 (ix1 j)) := by
  unfold val_main_v5
  refine (concatenate_pair_apply_right (t := S16777216x2) (s₁ := S16777216x1) (s₂ := S16777216x1) (1 : Fin 2) _ _
    concatenates_S16777216x1_S16777216x1_S16777216x2_d1 (ix2 j (1 : Fin 2)) rfl rfl (ix2 j (0 : Fin 1)) (fun b hb => by
      match b with
      | ⟨0, _⟩ => rfl
      | ⟨1, _⟩ => exact absurd rfl hb) rfl).trans ?_
  rw [val_main_v4_apply]
  exact (congrArg (val_main_v0 (F := Ideal) x1) (idx_row j)).trans (v0_at x1 j)

/-! ## The larger logit -/

/-- The word of −∞ is the least extended real. -/
theorem neg_inf_word : Ideal.ofBits .f32 0xFF800000#32 = (⊥ : EReal) := by simp [Ideal.ofBits, Ideal.ieee]

/-- Row j of the row-wise results with column k put back is entry (j, k). -/
theorem lift_row (h : S16777216x2.Reduces [1] S16777216) (j : Fin 16777216) (k : Fin (S16777216x2.size 1)) :
    h.lift (ix1 j) k = ix2 j (⟨k.val, k.isLt⟩ : Fin 2) := by
  funext c; apply Fin.ext
  fin_cases c <;> rfl

/-- The maximum over a row's two entries taken from −∞ is the larger of the two. -/
theorem hostMax_row (x0 : S16777216x2.Idx → Ideal .f32) (init : S_.Idx → Ideal .f32)
    (hinit : init (Shape.Idx.first h_S_) = (⊥ : EReal)) (j : Fin 16777216) :
    Host.reduce (FloatOps.maximumf : Ideal .f32 → Ideal .f32 → Ideal .f32) x0 init reducesTo_S16777216x2_S16777216_d1 h_S_ (ix1 j)
      = max (x0 (ix2 j (0 : Fin 2))) (x0 (ix2 j (1 : Fin 2))) := by
  have h : S16777216x2.Reduces [1] S16777216 := by decide
  rw [Host.reduce_eq_fold_single FloatOps.maximumf x0 init reducesTo_S16777216x2_S16777216_d1 h h_S_, hinit]
  have hf : (x0 ∘ h.lift (ix1 j)) = fun k : Fin 2 => x0 (ix2 j k) := funext fun k => congrArg x0 (lift_row h j k)
  refine (congrArg (fun f => Finset.fold (max : EReal → EReal → EReal) ⊥ f (Finset.univ : Finset (Fin 2))) hf).trans ?_
  simp only [Fin.univ_succ, Finset.fold_cons, Finset.fold_map, Finset.univ_unique, Finset.fold_singleton]
  show max (x0 (ix2 j 0)) (max (x0 (ix2 j 1)) ⊥) = _
  rw [max_bot_right]

/-! ## The softmax by hand -/

section Rows

variable (x0 : (⟨S16777216x2, .f32⟩ : BufTy).Contents (Elt Ideal)) (x1 : (⟨S16777216, .i32⟩ : BufTy).Contents (Elt Ideal))
  (j : Fin 16777216)

/-- The larger logit of row j. -/
theorem v8_at : val_main_v8 (F := Ideal) x0 (ix1 j) = max (x0 (ix2 j (0 : Fin 2))) (x0 (ix2 j (1 : Fin 2))) := by
  have h6 : val_main_v6 (F := Ideal) x0 (ix1 j) = max (x0 (ix2 j (0 : Fin 2))) (x0 (ix2 j (1 : Fin 2))) :=
    hostMax_row x0 _ neg_inf_word j
  rw [val_main_v8_apply, h6, val_main_v7_apply, val_main_cst_1_apply]
  show max (Ideal.ofBits .f32 0xFF800000#32) _ = _
  rw [neg_inf_word, max_bot_left]

/-- The larger logit of row j, spread over the row's two entries. -/
theorem v10_at (k : Fin 2) :
    val_main_v10 (F := Ideal) x0 (ix2 j k) = max (x0 (ix2 j (0 : Fin 2))) (x0 (ix2 j (1 : Fin 2))) := by
  rw [val_main_v10_apply, show idx_main_v10 (ix2 j k) = ix2 j (0 : Fin 1) from idx_col j k, val_main_v9_apply,
    show idx_main_v9 (ix2 j (0 : Fin 1)) = ix1 j from idx_row j, v8_at]

/-- exp (xₖ − m). -/
theorem v12_at (k : Fin 2) :
    val_main_v12 (F := Ideal) x0 (ix2 j k)
      = Cert.Spec.ex (x0 (ix2 j (0 : Fin 2))) (x0 (ix2 j (1 : Fin 2))) (x0 (ix2 j k)) := by
  rw [val_main_v12_apply, val_main_v11_apply, v10_at]
  rfl

/-- The two exponentials' sum. -/
theorem v13_at :
    val_main_v13 (F := Ideal) x0 (ix1 j) = Cert.Spec.den (x0 (ix2 j (0 : Fin 2))) (x0 (ix2 j (1 : Fin 2))) := by
  rw [val_main_v13_apply, val_main_cst_2_apply, Fin.sum_univ_two,
    show idx_main_v13 (ix1 j) 0 = ix2 j (0 : Fin 2) from idx_sum j 0,
    show idx_main_v13 (ix1 j) 1 = ix2 j (1 : Fin 2) from idx_sum j 1, v12_at, v12_at]
  show Ideal.ofBits .f32 0x00000000#32 + _ = _
  rw [Ideal.ofBits_zero_f32, zero_add]
  rfl

/-- The sum, spread over the row's two entries. -/
theorem v15_at (k : Fin 2) :
    val_main_v15 (F := Ideal) x0 (ix2 j k) = Cert.Spec.den (x0 (ix2 j (0 : Fin 2))) (x0 (ix2 j (1 : Fin 2))) := by
  rw [val_main_v15_apply, show idx_main_v15 (ix2 j k) = ix2 j (0 : Fin 1) from idx_col j k, val_main_v14_apply,
    show idx_main_v14 (ix2 j (0 : Fin 1)) = ix1 j from idx_row j, v13_at]

/-- The softmax's entry k. -/
theorem v16_at (k : Fin 2) :
    val_main_v16 (F := Ideal) x0 (ix2 j k)
      = Cert.Spec.p (x0 (ix2 j (0 : Fin 2))) (x0 (ix2 j (1 : Fin 2))) (x0 (ix2 j k)) := by
  rw [val_main_v16_apply, v12_at, v15_at]
  rfl

/-- The probability of the labelled class. -/
theorem v18_at :
    val_main_v18 (F := Ideal) x0 x1 (ix1 j)
      = Cert.Spec.s (x0 (ix2 j (0 : Fin 2))) (x0 (ix2 j (1 : Fin 2))) (x1 (ix1 j)) := by
  rw [val_main_v18_apply, val_main_cst_3_apply, Fin.sum_univ_two,
    show idx_main_v18 (ix1 j) 0 = ix2 j (0 : Fin 2) from idx_sum j 0,
    show idx_main_v18 (ix1 j) 1 = ix2 j (1 : Fin 2) from idx_sum j 1,
    val_main_v17_apply, val_main_v17_apply, v16_at, v16_at, v5_left, v5_right]
  show Ideal.ofBits .f32 0x00000000#32 + _ = _
  rw [Ideal.ofBits_zero_f32, zero_add]
  rfl

/-- Row j of the reference's clamped bin is the specification's bin of row j. -/
theorem row_bin (j : Fin Cert.Spec.NR) : val_main_v25 (F := Ideal) x0 x1 (ix1 j) = Cert.Spec.binOf x0 x1 j := by
  rw [val_main_v25_apply, val_main_call0_v4_apply, val_main_call0_v3_apply, val_main_c_6_apply, val_main_call0_v2_apply,
    val_main_call0_v1_apply, val_main_call0_v0_apply, val_main_c_apply, val_main_v24_apply, val_main_v23_apply,
    val_main_v22_apply, val_main_cst_5_apply, val_main_v21_apply, val_main_v20_apply, val_main_v19_apply,
    val_main_cst_4_apply, v18_at]
  rfl

end Rows

/-! ## The log-softmax and the cross-entropy -/

section Rows

variable (x0 : (⟨S16777216x2, .f32⟩ : BufTy).Contents (Elt Ideal)) (x1 : (⟨S16777216, .i32⟩ : BufTy).Contents (Elt Ideal))
  (j : Fin 16777216)

/-- The larger logit of row j, as the log-softmax takes it. -/
theorem c2_at :
    val_main_call3_v2 (F := Ideal) x0 (ix1 j) = max (x0 (ix2 j (0 : Fin 2))) (x0 (ix2 j (1 : Fin 2))) := by
  have h0 : val_main_call3_v0 (F := Ideal) x0 (ix1 j) = max (x0 (ix2 j (0 : Fin 2))) (x0 (ix2 j (1 : Fin 2))) :=
    hostMax_row x0 _ neg_inf_word j
  rw [val_main_call3_v2_apply, h0, val_main_call3_v1_apply, val_main_call3_cst_0_apply]
  show max (Ideal.ofBits .f32 0xFF800000#32) _ = _
  rw [neg_inf_word, max_bot_left]

/-- xₖ − m. -/
theorem c5_at (k : Fin 2) :
    val_main_call3_v5 (F := Ideal) x0 (ix2 j k)
      = x0 (ix2 j k) - max (x0 (ix2 j (0 : Fin 2))) (x0 (ix2 j (1 : Fin 2))) := by
  rw [val_main_call3_v5_apply, val_main_call3_v4_apply,
    show idx_main_call3_v4 (ix2 j k) = ix2 j (0 : Fin 1) from idx_col j k, val_main_call3_v3_apply,
    show idx_main_call3_v3 (ix2 j (0 : Fin 1)) = ix1 j from idx_row j, c2_at]
  rfl

/-- The two exponentials' sum, as the log-softmax takes it. -/
theorem c7_at :
    val_main_call3_v7 (F := Ideal) x0 (ix1 j) = Cert.Spec.den (x0 (ix2 j (0 : Fin 2))) (x0 (ix2 j (1 : Fin 2))) := by
  rw [val_main_call3_v7_apply, val_main_call3_cst_1_apply, Fin.sum_univ_two,
    show idx_main_call3_v7 (ix1 j) 0 = ix2 j (0 : Fin 2) from idx_sum j 0,
    show idx_main_call3_v7 (ix1 j) 1 = ix2 j (1 : Fin 2) from idx_sum j 1,
    val_main_call3_v6_apply, val_main_call3_v6_apply, c5_at, c5_at]
  show Ideal.ofBits .f32 0x00000000#32 + _ = _
  rw [Ideal.ofBits_zero_f32, zero_add]
  rfl

/-- log pₖ. -/
theorem v50_at (k : Fin 2) :
    val_main_v50 (F := Ideal) x0 (ix2 j k)
      = Cert.Spec.lp (x0 (ix2 j (0 : Fin 2))) (x0 (ix2 j (1 : Fin 2))) (x0 (ix2 j k)) := by
  rw [val_main_v50_apply, c5_at, val_main_call3_v10_apply,
    show idx_main_call3_v10 (ix2 j k) = ix2 j (0 : Fin 1) from idx_col j k, val_main_call3_v9_apply,
    val_main_call3_v8_apply, show idx_main_call3_v8 (ix2 j (0 : Fin 1)) = ix1 j from idx_row j, c7_at]
  rfl

/-- Row j of the reference's negated label-weighted log-softmax sum is the specification's cross-entropy of row j. -/
theorem row_ce (j : Fin Cert.Spec.NR) : val_main_v53 (F := Ideal) x0 x1 (ix1 j) = Cert.Spec.ceOf x0 x1 j := by
  rw [val_main_v53_apply, val_main_v52_apply, val_main_cst_18_apply, Fin.sum_univ_two,
    show idx_main_v52 (ix1 j) 0 = ix2 j (0 : Fin 2) from idx_sum j 0,
    show idx_main_v52 (ix1 j) 1 = ix2 j (1 : Fin 2) from idx_sum j 1,
    val_main_v51_apply, val_main_v51_apply, v50_at, v50_at, v5_left, v5_right]
  show -(Ideal.ofBits .f32 0x00000000#32 + _) = _
  rw [Ideal.ofBits_zero_f32, zero_add]
  rfl

end Rows

end Cert.ReferenceIdeal.RowsP

end
-- ==== Proof.RefAgg.lean ====
/-
  The reference's aggregate stages are the specification's loss. Given that the reference's row-level stages (the
  clamped bin of a row and the row's cross-entropy) are the specification's, the thirty counts are the specification's
  counts, the per-bin weights its weights, the gathered weight of a row the weight of that row's bin, and the final
  quotient the mean of weight × cross-entropy over the rows.
-/
import proofs.«154215_j627065225459_1_alg».proof.Proof.RefRead
import proofs.«154215_j627065225459_1_alg».proof.Proof.Spec

set_option maxRecDepth 16384

noncomputable section

namespace Cert.ReferenceIdeal.AggP

open Cert.ReferenceIdeal Cert.ReferenceIdeal.Gen Cert.ReferenceIdeal.ReadP Idealize.ShloMosaic Idealize.ShloMosaic.ValueIdx
open scoped BigOperators

/-! ## Words -/

/-- The word of the literal one is the extended real one. -/
theorem one_eq : Cert.Spec.one = 1 := by
  show Ideal.ofBits .f32 0x3F800000#32 = 1
  simp [Ideal.ofBits, Ideal.ieee, -EReal.coe_mul]; norm_num

/-- The indicator of two words agreeing is 1 or 0. -/
theorem ind_eq (a l : BitVec 32) : Cert.Spec.ind a l = if a = l then 1 else 0 := by
  unfold Cert.Spec.ind IntOp.cmpi
  by_cases h : a = l
  · subst h
    rw [if_pos rfl]
    show (((BitVec.setWidth 32 (BitVec.ofBool (a == a))).toInt : ℝ) : EReal) = 1
    simp
  · rw [if_neg h]
    show (((BitVec.setWidth 32 (BitVec.ofBool (a == l))).toInt : ℝ) : EReal) = 0
    have : (a == l) = false := by simpa using h
    rw [this]
    simp

/-- A clamped bin is one of the thirty. -/
theorem clamp_range (v : BitVec 32) : (IntOp.minsi 29#32 (IntOp.maxsi 0#32 v)).toNat < 30 := by
  unfold IntOp.minsi IntOp.maxsi
  by_cases h1 : v.slt 0#32 = true
  · rw [if_pos h1]
    decide
  · rw [if_neg h1]
    by_cases h2 : (29#32).slt v = true
    · rw [if_pos h2]; decide
    · rw [if_neg h2]
      simp only [BitVec.slt, decide_eq_true_eq, not_lt] at h1 h2
      have e0 : (0#32 : BitVec 32).toInt = 0 := by decide
      have e29 : (29#32 : BitVec 32).toInt = 29 := by decide
      rw [e0] at h1; rw [e29] at h2
      have := BitVec.toInt_eq_toNat_cond v
      split at this <;> omega

theorem bin_range (x0 x1 : EReal) (t : BitVec 32) : (Cert.Spec.bin x0 x1 t).toNat < 30 :=
  clamp_range _

/-! ## Sums over a rank-1 index set -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The scatter of the updates at the bins: the counts -/

/-- Update `j` lands on element `l` exactly when its index word, read signed, is `l`. -/
theorem scatter_result_iff (idx : IVec S16777216x1 32) (j : Fin Cert.Spec.NR) (l : Fin 30) :
    scatter_S30_S16777216x1_S16777216_n_0_0_1.resultIdx? (ix1 j) idx = some (ix1 l)
      ↔ (idx (ix2 j 0)).toInt = (l.val : ℤ) := by
  have hstart : ∀ a, scatter_S30_S16777216x1_S16777216_n_0_0_1.start (ix1 j) idx a = (idx (ix2 j 0)).toInt := by
    intro a
    obtain rfl : a = 0 := Subsingleton.elim _ _
    unfold ScatterDims.start
    rw [dif_pos (show (0 : Fin 1) ∈ scatter_S30_S16777216x1_S16777216_n_0_0_1.scatterDimsToOperandDims from
      List.mem_singleton.mpr rfl)]
    refine congrArg (fun i => (idx i).toInt) ?_
    funext b; refine Fin.ext ?_
    match b with
    | ⟨0, _⟩ => rfl
    | ⟨1, _⟩ => rfl
  have hwin : ∀ a, scatter_S30_S16777216x1_S16777216_n_0_0_1.window (ix1 j) a = 0 := by
    intro a
    obtain rfl : a = 0 := Subsingleton.elim _ _
    unfold ScatterDims.window
    rw [dif_neg]
    simp [ScatterDims.sKept, Shape.kept, List.mem_filter, scatter_S30_S16777216x1_S16777216_n_0_0_1]
  unfold ScatterDims.resultIdx?
  constructor
  · intro h
    split at h
    · rename_i hh
      have h0 := (hh 0).1
      have hv := congrArg Fin.val (congrFun (Option.some.inj h) 0)
      simp only [hstart, hwin] at hv h0
      change ((idx (ix2 j 0)).toInt + ((0 : ℕ) : ℤ)).toNat = l.val at hv
      omega
    · exact absurd h (by simp)
  · intro hz
    have hl : l.val < 30 := l.isLt
    rw [dif_pos]
    · congr 1
      funext a
      obtain rfl : a = 0 := Subsingleton.elim _ _
      refine Fin.ext ?_
      show (scatter_S30_S16777216x1_S16777216_n_0_0_1.start (ix1 j) idx 0
        + ((scatter_S30_S16777216x1_S16777216_n_0_0_1.window (ix1 j) 0 : ℕ) : ℤ)).toNat = l.val
      rw [hstart, hwin, hz]; simp
    · intro a
      obtain rfl : a = 0 := Subsingleton.elim _ _
      rw [hstart, hwin, hz]
      refine ⟨by simp, ?_⟩
      show (l.val : ℤ) + ((0 : ℕ) : ℤ) < ((30 : ℕ) : ℤ)
      omega

/-- The accumulating scatter at element `l`: the operand's element plus the updates whose index word is `l`. -/
theorem scatter_apply (x : S30.Idx → EReal) (idx : IVec S16777216x1 32) (upd : S16777216.Idx → EReal) (l : Fin 30) :
    Host.scatterAdd (F := Ideal) (φ := .f32) scatter_S30_S16777216x1_S16777216_n_0_0_1 x idx upd (ix1 l)
      = x (ix1 l) + ∑ j : Fin Cert.Spec.NR, if (idx (ix2 j 0)).toInt = (l.val : ℤ) then upd (ix1 j) else 0 := by
  unfold Host.scatterAdd
  rw [Ideal.hostScatterAdd_def]
  unfold Ideal.hostScatterAdd
  refine congrArg (x (ix1 l) + ·) ?_
  rw [Finset.sum_filter, sum_idx1]
  refine Finset.sum_congr rfl fun j _ => ?_
  by_cases h : (idx (ix2 j 0)).toInt = (l.val : ℤ)
  · rw [if_pos h, if_pos ((scatter_result_iff idx j l).mpr h)]
  · rw [if_neg h, if_neg (fun h' => h ((scatter_result_iff idx j l).mp h'))]

/-! ## The gather at the bins -/

/-- The gather at row `j`: the operand at the row's index word, read signed and clamped to the thirty elements. -/
theorem gather_apply {α : Type} (x : S30.Idx → α) (idx : IVec S16777216x1 32) (j : Fin Cert.Spec.NR) :
    Host.gather gather_S30_S16777216x1_S16777216_n_0_n_n_0_1_1 x idx (ix1 j)
      = x (ix1 ⟨min (idx (ix2 j 0)).toInt.toNat 29, by omega⟩) := by
  unfold Host.gather
  congr 1
  funext a
  obtain rfl : a = 0 := Subsingleton.elim _ _
  refine Fin.ext ?_
  show gather_S30_S16777216x1_S16777216_n_0_n_n_0_1_1.start (ix1 j) idx 0
    + gather_S30_S16777216x1_S16777216_n_0_n_n_0_1_1.batchCoord (ix1 j) 0
    + gather_S30_S16777216x1_S16777216_n_0_n_n_0_1_1.offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S30_S16777216x1_S16777216_n_0_n_n_0_1_1.startIndexMap from
    List.mem_singleton.mpr rfl)]
  have hsi : gather_S30_S16777216x1_S16777216_n_0_n_n_0_1_1.siIdx (ix1 j)
      ⟨List.idxOf (0 : Fin 1) gather_S30_S16777216x1_S16777216_n_0_n_n_0_1_1.startIndexMap,
        List.idxOf_lt_length_iff.2 (List.mem_singleton.mpr rfl)⟩ = ix2 j 0 := by
    funext b; refine Fin.ext ?_
    match b with
    | ⟨0, _⟩ => rfl
    | ⟨1, _⟩ => rfl
  rw [hsi]
  rfl

/-! ## Words read signed -/

/-- A word read signed is a bin's number exactly when it is that number's word. -/
theorem toInt_eq_iff (a : BitVec 32) (l : Fin 30) : a.toInt = (l.val : ℤ) ↔ a = BitVec.ofNat 32 l.val := by
  have hl := l.isLt
  constructor
  · intro h
    apply BitVec.eq_of_toNat_eq
    have h1 := BitVec.toInt_eq_toNat_cond a
    have h2 := a.isLt
    rw [BitVec.toNat_ofNat, Nat.mod_eq_of_lt (by omega)]
    split at h1 <;> omega
  · intro h
    subst h
    have h1 := BitVec.toInt_eq_toNat_cond (BitVec.ofNat 32 l.val)
    rw [BitVec.toNat_ofNat, Nat.mod_eq_of_lt (by omega)] at h1
    rw [h1, if_pos (by omega)]

/-- A word below thirty read signed is itself. -/
theorem toInt_toNat_small (b : BitVec 32) (hr : b.toNat < 30) : b.toInt.toNat = b.toNat := by
  have h1 := BitVec.toInt_eq_toNat_cond b
  split at h1 <;> omega

/-- A word below thirty is not negative. -/
theorem slt_zero_small (b : BitVec 32) (hr : b.toNat < 30) : IntOp.cmpi .slt b 0#32 = 0#1 := by
  unfold IntOp.cmpi
  show BitVec.ofBool (b.slt 0#32) = 0#1
  have : b.slt 0#32 = false := by
    simp only [BitVec.slt, decide_eq_false_iff_not, not_lt]
    have h1 := BitVec.toInt_eq_toNat_cond b
    have e0 : (0#32 : BitVec 32).toInt = 0 := by decide
    rw [e0]; split at h1 <;> omega
  rw [this]; rfl

/-! ## The stages -/

section Stages
variable (x0 : (⟨S16777216x2, .f32⟩ : BufTy).Contents (Elt Ideal)) (x1 : (⟨S16777216, .i32⟩ : BufTy).Contents (Elt Ideal))

/-- The scatter's result at bin `l` is the number of rows whose bin is `l`. -/
theorem v29_apply (b : Fin Cert.Spec.NR → BitVec 32)
    (hb : ∀ j, val_main_v25 (F := Ideal) x0 x1 (ix1 j) = b j) (l : Fin 30) :
    val_main_v29 (F := Ideal) x0 x1 (ix1 l) = Cert.Spec.cnt b (BitVec.ofNat 32 l.val) := by
  unfold val_main_v29
  refine (scatter_apply _ _ _ l).trans ?_
  rw [val_main_v27_apply, val_main_cst_8_apply]
  show Ideal.ofBits .f32 0x00000000#32 + _ = _
  rw [Ideal.ofBits_zero_f32, zero_add]
  unfold Cert.Spec.cnt
  refine Finset.sum_congr rfl fun j _ => ?_
  have hi : idx_main_v28 (ix2 j (0 : Fin 1)) = ix1 j := by funext a; match a with | ⟨0, _⟩ => rfl
  rw [val_main_v28_apply, hi, hb, ind_eq, val_main_v26_apply, val_main_cst_7_apply]
  show (if (b j).toInt = (l.val : ℤ) then Cert.Spec.one else 0) = _
  rw [one_eq]
  by_cases h : b j = BitVec.ofNat 32 l.val
  · rw [if_pos h, if_pos ((toInt_eq_iff _ l).mpr h)]
  · rw [if_neg h, if_neg (fun h' => h ((toInt_eq_iff _ l).mp h'))]

/-- Whether bin `l` is occupied. -/
theorem v33_apply (l : Fin 30) (c : EReal) (h : val_main_v29 (F := Ideal) x0 x1 (ix1 l) = c) :
    val_main_v33 (F := Ideal) x0 x1 (ix1 l) = Cert.Spec.nz c := by
  rw [val_main_v33_apply, h, val_main_v32_apply, val_main_cst_10_apply]
  rfl

/-- The weight of bin `l` before normalisation. -/
theorem v39_apply (l : Fin 30) (c : EReal) (h : val_main_v29 (F := Ideal) x0 x1 (ix1 l) = c) :
    val_main_v39 (F := Ideal) x0 x1 (ix1 l) = Cert.Spec.beta1 c := by
  rw [val_main_v39_apply, val_main_v38_apply, val_main_v36_apply, val_main_v31_apply, v33_apply x0 x1 l c h, h,
    val_main_v37_apply, val_main_cst_13_apply, val_main_v30_apply, val_main_cst_9_apply,
    val_main_call1_v1_apply, val_main_call1_v0_apply, val_main_cst_12_apply,
    val_main_call2_v1_apply, val_main_call2_v0_apply, val_main_cst_14_apply]
  rfl

/-- The number of occupied bins, and at least one. -/
theorem v47_apply (cn : Fin 30 → EReal) (h : ∀ l, val_main_v29 (F := Ideal) x0 x1 (ix1 l) = cn l) (i : S_.Idx) :
    val_main_v47 (F := Ideal) x0 x1 i = Cert.Spec.nmax cn := by
  rw [val_main_v47_apply, val_main_v35_apply, val_main_cst_11_apply, val_main_cst_17_apply, sum_idx1]
  show max (Ideal.ofBits .f32 0x00000000#32 + _) Cert.Spec.one = _
  rw [Ideal.ofBits_zero_f32, zero_add]
  unfold Cert.Spec.nmax Cert.Spec.nnz
  refine congrArg (max · Cert.Spec.one) (Finset.sum_congr rfl fun l _ => ?_)
  rw [val_main_v34_apply, v33_apply x0 x1 l (cn l) (h l)]

/-- The gather's index at a row whose bin is one of the thirty is the bin. -/
theorem v44_apply (j : Fin Cert.Spec.NR) (b : BitVec 32)
    (hb : val_main_v25 (F := Ideal) x0 x1 (ix1 j) = b) (hr : b.toNat < 30) :
    val_main_v44 (F := Ideal) x0 x1 (ix1 j) = b := by
  rw [val_main_v44_apply, val_main_v41_apply, hb, val_main_v40_apply, val_main_c_15_apply, slt_zero_small b hr,
    select_zero]

/-- The gathered weight at a row is the weight of the row's bin. -/
theorem v46_apply (j : Fin Cert.Spec.NR) (b : BitVec 32)
    (hb : val_main_v25 (F := Ideal) x0 x1 (ix1 j) = b) (hr : b.toNat < 30) :
    val_main_v46 (F := Ideal) x0 x1 (ix1 j) = val_main_v39 (F := Ideal) x0 x1 (ix1 ⟨b.toNat, hr⟩) := by
  unfold val_main_v46
  refine (gather_apply _ _ j).trans ?_
  refine congrArg (fun k => val_main_v39 (F := Ideal) x0 x1 (ix1 k)) (Fin.ext ?_)
  have hi : idx_main_v45 (ix2 j (0 : Fin 1)) = ix1 j := by funext a; match a with | ⟨0, _⟩ => rfl
  show min (val_main_v45 (F := Ideal) x0 x1 (ix2 j 0)).toInt.toNat 29 = b.toNat
  rw [val_main_v45_apply, hi, v44_apply x0 x1 j b hb hr, toInt_toNat_small b hr]
  omega

/-- The normalised weight at a row. -/
theorem v49_apply (b : Fin Cert.Spec.NR → BitVec 32)
    (hb : ∀ j, val_main_v25 (F := Ideal) x0 x1 (ix1 j) = b j) (hr : ∀ j, (b j).toNat < 30) (j : Fin Cert.Spec.NR) :
    val_main_v49 (F := Ideal) x0 x1 (ix1 j) = Cert.Spec.betaAt b (b j) := by
  have hc : ∀ l : Fin 30, val_main_v29 (F := Ideal) x0 x1 (ix1 l) = Cert.Spec.cnts b l :=
    fun l => v29_apply x0 x1 b hb l
  rw [val_main_v49_apply, v46_apply x0 x1 j (b j) (hb j) (hr j), v39_apply x0 x1 _ _ (hc _), val_main_v48_apply,
    v47_apply x0 x1 (Cert.Spec.cnts b) hc]
  unfold Cert.Spec.betaAt
  rw [dif_pos (hr j)]
  rfl

end Stages

/-- The reference's last stage is the specification's loss, given its row-level stages are the specification's. -/
theorem val_v56_eq (x0 : (⟨S16777216x2, .f32⟩ : BufTy).Contents (Elt Ideal)) (x1 : (⟨S16777216, .i32⟩ : BufTy).Contents (Elt Ideal))
    (hbin : ∀ j : Fin Cert.Spec.NR, val_main_v25 (F := Ideal) x0 x1 (ix1 j) = Cert.Spec.binOf x0 x1 j)
    (hce : ∀ j : Fin Cert.Spec.NR, val_main_v53 (F := Ideal) x0 x1 (ix1 j) = Cert.Spec.ceOf x0 x1 j) :
    val_main_v56 (F := Ideal) x0 x1 = fun _ => Cert.Spec.loss x0 x1 := by
  have hr : ∀ j, (Cert.Spec.binOf x0 x1 j).toNat < 30 := fun j => bin_range _ _ _
  funext i
  rw [val_main_v56_apply, val_main_v55_apply, val_main_cst_19_apply, val_main_cst_20_apply, sum_idx1]
  show Ideal.div (Ideal.ofBits .f32 0x00000000#32 + _) Cert.Spec.big = _
  rw [Ideal.ofBits_zero_f32, zero_add]
  unfold Cert.Spec.loss Cert.Spec.G
  refine congrArg (Ideal.div · Cert.Spec.big) (Finset.sum_congr rfl fun j _ => ?_)
  rw [val_main_v54_apply, v49_apply x0 x1 _ hbin hr j, hce j]
  rfl

end Cert.ReferenceIdeal.AggP

end
-- ==== Proof.lean ====
/-
  The certificate of a two-pass weighted cross-entropy (a gradient-magnitude histogram, then per-bin weights, then the
  weighted mean) against its plain reference, on the extended reals.

  Both programs compute, row by row, the softmax of two logits by hand, the distance g = |p(label) − 1|, the bin
  ⌊30 g⌋ clamped to [0, 29] and the cross-entropy; over all 2²⁴ rows the thirty bins' counts; per bin the weight
  2²⁴ / (¼ · count) where the count is positive, divided by the number of occupied bins; and the mean of
  weight(bin) × cross-entropy (Proof/Spec.lean states it once, as one function of the two argument arrays).
  The kernel does it in two passes of 1024 grid points over blocks of 16384 rows, each pass carrying an accumulator
  between points: pass one a row of 128 lanes whose first thirty are the counts (a one-hot of the bin summed over the
  block's rows), pass two one element (the weight picked by a one-hot row against the padded weights, times the
  cross-entropy, summed over the block's rows), with thirty-element host arithmetic between them. The reference scatters
  ones into the counts, gathers the weight of each row's bin and sums once. The two agree because sums on the extended
  reals regroup freely (blocks of rows against all rows), a one-hot row against a row of weights picks the weight the
  bin names (0 · x = 0 and 1 · x = x at every extended real), and dividing the weights before or after picking them is
  the same entry. No law used needs finiteness, so the precondition is never opened.

  The three frames: the kernel's two (at the word-level instance and at the extended reals) are one run of
  @main as a list of segments, generic in the float instance (Proof/KI/*.lean, and Proof/K/*.lean for the printed
  word-level program: the same text in its namespace) — per region the proof data (inputs left in place, the accumulator
  after each point by recursion on the point), the body's triple per control case (first point / a middle point / the
  last point), the region invariant carrying the accumulator between points, and the launch over the segments; the
  reference's is its run with the result dropped. `preserves` is `True`: the idealization rewrote nothing.
-/
import proofs.«154215_j627065225459_1_alg».proof.Defs
import proofs.«154215_j627065225459_1_alg».proof.Proof.Gen.Kernel
import proofs.«154215_j627065225459_1_alg».proof.Proof.Gen.KernelIdeal
import proofs.«154215_j627065225459_1_alg».proof.Proof.Gen.ReferenceIdeal
import proofs.«154215_j627065225459_1_alg».proof.Proof.Gen.Pre_finite_inputs
import proofs.«154215_j627065225459_1_alg».proof.Proof.K.Body0
import proofs.«154215_j627065225459_1_alg».proof.Proof.K.Body1
import proofs.«154215_j627065225459_1_alg».proof.Proof.K.Run
import proofs.«154215_j627065225459_1_alg».proof.Proof.KI.Body0
import proofs.«154215_j627065225459_1_alg».proof.Proof.KI.Body1
import proofs.«154215_j627065225459_1_alg».proof.Proof.KI.Run
import proofs.«154215_j627065225459_1_alg».proof.Proof.KI.PayVal
import proofs.«154215_j627065225459_1_alg».proof.Proof.KI.HostVal
import proofs.«154215_j627065225459_1_alg».proof.Proof.KI.ArrVal
import proofs.«154215_j627065225459_1_alg».proof.Proof.KI.KernelValue
import proofs.«154215_j627065225459_1_alg».proof.Proof.RefFold
import proofs.«154215_j627065225459_1_alg».proof.Proof.RefRows
import proofs.«154215_j627065225459_1_alg».proof.Proof.RefAgg
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-! ## What the two kernel bodies contribute, at each instance -/

theorem bodies_K : Cert.Kernel.Hand.BodyFacts Bits :=
  ⟨Cert.Kernel.Hand.body_obligation0, Cert.Kernel.Hand.hin0, Cert.Kernel.Hand.hout0,
   Cert.Kernel.Hand.body_obligation1, Cert.Kernel.Hand.hin1, Cert.Kernel.Hand.hout1⟩

theorem bodies_KI : Cert.KernelIdeal.Hand.BodyFacts Ideal :=
  ⟨Cert.KernelIdeal.Hand.body_obligation0, Cert.KernelIdeal.Hand.hin0, Cert.KernelIdeal.Hand.hout0,
   Cert.KernelIdeal.Hand.body_obligation1, Cert.KernelIdeal.Hand.hin1, Cert.KernelIdeal.Hand.hout1⟩

/-! ## The frames -/

theorem frame_K : Cert.frame_Kernel := fun m ρ _ =>
  (θ_run (Cert.Kernel.defs (F := Bits)) _ _).mono (fun r h c =>
      ⟨(h c _ (Cert.Kernel.Hand.mem_uc Cert.Kernel.main_arg0 (by decide))).trans (Cert.Kernel.Hand.W9_main_arg0 m c),
       (h c _ (Cert.Kernel.Hand.mem_uc Cert.Kernel.main_arg1 (by decide))).trans (Cert.Kernel.Hand.W9_main_arg1 m c)⟩)
    (Cert.Kernel.Hand.run_all m bodies_K ρ)

theorem frame_KI : Cert.frame_KernelIdeal := fun m ρ _ =>
  (θ_run (Cert.KernelIdeal.defs (F := Ideal)) _ _).mono (fun r h c =>
      ⟨(h c _ (Cert.KernelIdeal.Hand.mem_uc Cert.KernelIdeal.main_arg0 (by decide))).trans (Cert.KernelIdeal.Hand.W9_main_arg0 m c),
       (h c _ (Cert.KernelIdeal.Hand.mem_uc Cert.KernelIdeal.main_arg1 (by decide))).trans (Cert.KernelIdeal.Hand.W9_main_arg1 m c)⟩)
    (Cert.KernelIdeal.Hand.run_all m bodies_KI ρ)

theorem frame_RI : Cert.frame_ReferenceIdeal := fun m ρ _ =>
  (θ_run (Cert.ReferenceIdeal.defs (F := Ideal)) _ _).mono (fun _ h c => (h c).2)
    (Cert.ReferenceIdeal.FoldP.ref_run (F := Ideal) m ρ)

/-! ## The value claim -/

/-- The one-point functions of the two kernels read at an index, and the host operations and the output arrays read
    back: the facts the kernel's value is assembled from. -/
theorem steps : Cert.KernelIdeal.HandV.StepFacts :=
  ⟨Cert.KernelIdeal.HandV.step0_apply, Cert.KernelIdeal.HandV.pay2_0_apply,
   Cert.KernelIdeal.HandV.step1_apply, Cert.KernelIdeal.HandV.pay2_1_apply⟩

/-- The host operations between and after the two regions read over any entry contents, and each region's output array
    after the run: the accumulator after the last grid point. -/
theorem hostFacts : Cert.KernelIdeal.HandV.c_HostFacts :=
  ⟨Cert.KernelIdeal.HandV.pre_v0, Cert.KernelIdeal.HandV.pre_arg0, Cert.KernelIdeal.HandV.mid_v20,
   Cert.KernelIdeal.HandV.mid_arg0, Cert.KernelIdeal.HandV.mid_v0, Cert.KernelIdeal.HandV.tail_v23,
   fun V c h l => Cert.KernelIdeal.HandV.arr0_final V c h l, fun V c h => Cert.KernelIdeal.HandV.arr1_final V c h⟩

/-- On the extended reals the kernel's result and the reference's are the specification's loss of the argument arrays. -/
theorem algebraic : Cert.algebraic_KernelIdeal_ReferenceIdeal := by
  intro m ρ m' ρ' _ hagree
  refine ⟨fun c => fun _ => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run (Cert.KernelIdeal.defs (F := Ideal)) _ _).mono (fun r h c => ⟨?_, ?_, ?_⟩)
      (Cert.KernelIdeal.Hand.run_all m bodies_KI ρ)
    · refine (h c _ (Cert.KernelIdeal.Hand.mem_uc Cert.KernelIdeal.main_v23 (by decide))).trans ?_
      funext i
      obtain rfl := eq_ix0 i
      exact Cert.KernelIdeal.HandV.kernel_value steps hostFacts m c
    · exact (h c _ (Cert.KernelIdeal.Hand.mem_uc Cert.KernelIdeal.main_arg0 (by decide))).trans (Cert.KernelIdeal.Hand.W9_main_arg0 m c)
    · exact (h c _ (Cert.KernelIdeal.Hand.mem_uc Cert.KernelIdeal.main_arg1 (by decide))).trans (Cert.KernelIdeal.Hand.W9_main_arg1 m c)
  · refine (θ_run (Cert.ReferenceIdeal.defs (F := Ideal)) _ _).mono (fun r h c => ⟨?_, (h c).2.1, (h c).2.2⟩)
      (Cert.ReferenceIdeal.FoldP.ref_run (F := Ideal) m' ρ')
    rw [(h c).1, (hagree c).1, (hagree c).2]
    exact Cert.ReferenceIdeal.AggP.val_v56_eq _ _ (Cert.ReferenceIdeal.RowsP.row_bin _ _) (Cert.ReferenceIdeal.RowsP.row_ce _ _)

theorem claim : Cert.Claim :=
  ⟨Cert.Kernel.Gen.facts, Cert.KernelIdeal.Gen.facts, Cert.ReferenceIdeal.Gen.facts, Cert.Pre_finite_inputs.Gen.facts,
    frame_K, frame_KI, frame_RI, trivial, algebraic⟩

end Cert.Proof

end
